-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x26 : Shape := ⟨2, ![16384, 26]⟩
abbrev S1040000x1 : Shape := ⟨2, ![1040000, 1]⟩
abbrev S1 : Shape := ⟨1, ![1]⟩
abbrev S_ : Shape := ⟨0, ![]⟩

class Facts : Prop where
  bcast_S_S1040000x1 : S_.BroadcastsInDim S1040000x1 (![] : Fin 0 → Fin S1040000x1.rank)
  reducesTo_S1040000x1_S_d0_1 : S1040000x1.ReducesTo [0, 1] S_
  h_S_ : 0 < S_.numel
  bcast_S_S1 : S_.BroadcastsInDim S1 (![] : Fin 0 → Fin S1.rank)
  reducesTo_S1_S_d0 : S1.ReducesTo [0] S_
  bcast_S_S16384x26 : S_.BroadcastsInDim S16384x26 (![] : Fin 0 → Fin S16384x26.rank)
  reducesTo_S16384x26_S_d0_1 : S16384x26.ReducesTo [0, 1] S_

variable [Facts]

def fn {F : FTy → Type} [FloatOps F] (main_arg0 : IVec S16384x26 32) (main_arg1 : FVec F S1040000x1 .f32) (main_arg2 : FVec F S1 .f32) : IVec S_ 1 :=
  let main_v0 : FVec F S1040000x1 .f32 := Host.absf main_arg1
  let main_cst : FVec F S_ .f32 := constant S_ .f32 0x7F800000#32
  let main_v1 : FVec F S1040000x1 .f32 := broadcastInDim S1040000x1 ![] bcast_S_S1040000x1 main_cst
  let main_v2 : IVec S1040000x1 1 := cmpf .olt main_v0 main_v1
  let main_c : IVec S_ 1 := constantI S_ 1 1#1
  let main_v3 : IVec S_ 1 := (fun x v => Host.reduce IntOp.andi x v reducesTo_S1040000x1_S_d0_1 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_c_2 : IVec S_ 32 := constantI S_ 32 0#32
  let main_v9 : IVec S16384x26 32 := broadcastInDim S16384x26 ![] bcast_S_S16384x26 main_c_2
  let main_v10 : IVec S16384x26 1 := cmpi .sge main_arg0 main_v9
  let main_c_3 : IVec S_ 32 := constantI S_ 32 1039999#32
  let main_v11 : IVec S16384x26 32 := broadcastInDim S16384x26 ![] bcast_S_S16384x26 main_c_3
  let main_v12 : IVec S16384x26 1 := cmpi .sle main_arg0 main_v11
  let main_v13 : IVec S16384x26 1 := andi main_v10 main_v12
  let main_c_4 : IVec S_ 1 := constantI S_ 1 1#1
  let main_v14 : IVec S_ 1 := (fun x v => Host.reduce IntOp.andi x v reducesTo_S16384x26_S_d0_1 h_S_) main_v13 main_c_4
  let main_v15 : IVec S_ 1 := andi main_v8 main_v14
  main_v15
-- ==== Kernel.lean ====
abbrev S16384x26 : Shape := ⟨2, ![16384, 26]⟩
abbrev S1040000x1 : Shape := ⟨2, ![1040000, 1]⟩
abbrev S1 : Shape := ⟨1, ![1]⟩
abbrev S425984 : Shape := ⟨1, ![425984]⟩
abbrev S_ : Shape := ⟨0, ![]⟩
abbrev S1040384x1 : Shape := ⟨2, ![1040384, 1]⟩
abbrev S1040384 : Shape := ⟨1, ![1040384]⟩
abbrev S16 : Shape := ⟨1, ![16]⟩
abbrev S16384 : Shape := ⟨1, ![16384]⟩
abbrev S13312 : Shape := ⟨1, ![13312]⟩
abbrev S512 : Shape := ⟨1, ![512]⟩
abbrev S16384x1 : Shape := ⟨2, ![16384, 1]⟩

abbrev nBuf : Table → Nat
  | .hbm => 11
  | .local .scVector .vmem => 4
  | _ => 0

abbrev bufTy : (tb : Table) → Fin (nBuf tb) → BufTy
  | .hbm, ⟨0, _⟩ => ⟨S16384x26, .i32⟩
  | .hbm, ⟨1, _⟩ => ⟨S1040000x1, .f32⟩
  | .hbm, ⟨2, _⟩ => ⟨S1, .f32⟩
  | .hbm, ⟨3, _⟩ => ⟨S425984, .i32⟩
  | .hbm, ⟨4, _⟩ => ⟨S_, .i32⟩
  | .hbm, ⟨5, _⟩ => ⟨S_, .f32⟩
  | .hbm, ⟨6, _⟩ => ⟨S1040384x1, .f32⟩
  | .hbm, ⟨7, _⟩ => ⟨S1040384, .f32⟩
  | .hbm, ⟨8, _⟩ => ⟨S16, .f32⟩
  | .hbm, ⟨9, _⟩ => ⟨S16384, .f32⟩
  | .hbm, ⟨10, _⟩ => ⟨S16384x1, .f32⟩
  | .local .scVector .vmem, ⟨0, _⟩ => ⟨S13312, .i32⟩
  | .local .scVector .vmem, ⟨1, _⟩ => ⟨S13312, .f32⟩
  | .local .scVector .vmem, ⟨2, _⟩ => ⟨S512, .f32⟩
  | .local .scVector .vmem, ⟨3, _⟩ => ⟨S16, .f32⟩
  | _, _ => ⟨S16384x26, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v0_scv : Ref sig .scVector := ⟨.hbm, 3, rfl⟩
abbrev main_v2_scv : Ref sig .scVector := ⟨.hbm, 7, rfl⟩
abbrev main_v3_scv : Ref sig .scVector := ⟨.hbm, 8, rfl⟩
abbrev main_v4_scv : Ref sig .scVector := ⟨.hbm, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v3 : BitVec 32 := Scalar.muli v1 c13312_i32
  ![v3.toNat]
@[reducible] def k0_t1_loop : Scf.Loop 32 :=
  let c0_i32_2 : BitVec 32 := 0#32
  let c32_i32 : BitVec 32 := 32#32
  let v14 : BitVec 32 := Scalar.addi c0_i32_2 c32_i32
  let c1_i32 : BitVec 32 := 1#32
  ⟨c0_i32_2, v14, c1_i32⟩

def k0_chk1 (v19 : IVec S16 32) : Prop :=
  (∀ a x, ((![v19] : Fin 1 → IVec S16 32) a x).toNat < S13312.size a)
instance k0_chk1.dec : ∀ (v19 : IVec S16 32), Decidable (k0_chk1 v19) := fun v19 => decidable_of_iff' _ (Iff.of_eq (k0_chk1.eq_1 v19))
theorem k0_idx1_inb : ∀ (v19 : IVec S16 32) (k0_hw1 : k0_chk1 v19), ∀ a x, ((![v19] : Fin 1 → IVec S16 32) a x).toNat < S13312.size a := fun v19 k0_hw1 => k0_hw1

def k0_chk2 (v23 : IVec S16 32) : Prop :=
  (∀ a x, ((![v23] : Fin 1 → IVec S16 32) a x).toNat < S13312.size a)
instance k0_chk2.dec : ∀ (v23 : IVec S16 32), Decidable (k0_chk2 v23) := fun v23 => decidable_of_iff' _ (Iff.of_eq (k0_chk2.eq_1 v23))
theorem k0_idx2_inb : ∀ (v23 : IVec S16 32) (k0_hw2 : k0_chk2 v23), ∀ a x, ((![v23] : Fin 1 → IVec S16 32) a x).toNat < S13312.size a := fun v23 k0_hw2 => k0_hw2

def k0_chk3 (v27 : IVec S16 32) : Prop :=
  (∀ a x, ((![v27] : Fin 1 → IVec S16 32) a x).toNat < S13312.size a)
instance k0_chk3.dec : ∀ (v27 : IVec S16 32), Decidable (k0_chk3 v27) := fun v27 => decidable_of_iff' _ (Iff.of_eq (k0_chk3.eq_1 v27))
theorem k0_idx3_inb : ∀ (v27 : IVec S16 32) (k0_hw3 : k0_chk3 v27), ∀ a x, ((![v27] : Fin 1 → IVec S16 32) a x).toNat < S13312.size a := fun v27 k0_hw3 => k0_hw3

def k0_chk4 (v31 : IVec S16 32) : Prop :=
  (∀ a x, ((![v31] : Fin 1 → IVec S16 32) a x).toNat < S13312.size a)
instance k0_chk4.dec : ∀ (v31 : IVec S16 32), Decidable (k0_chk4 v31) := fun v31 => decidable_of_iff' _ (Iff.of_eq (k0_chk4.eq_1 v31))
theorem k0_idx4_inb : ∀ (v31 : IVec S16 32) (k0_hw4 : k0_chk4 v31), ∀ a x, ((![v31] : Fin 1 → IVec S16 32) a x).toNat < S13312.size a := fun v31 k0_hw4 => k0_hw4

def k0_chk5 (v35 : IVec S16 32) : Prop :=
  (∀ a x, ((![v35] : Fin 1 → IVec S16 32) a x).toNat < S13312.size a)
instance k0_chk5.dec : ∀ (v35 : IVec S16 32), Decidable (k0_chk5 v35) := fun v35 => decidable_of_iff' _ (Iff.of_eq (k0_chk5.eq_1 v35))
theorem k0_idx5_inb : ∀ (v35 : IVec S16 32) (k0_hw5 : k0_chk5 v35), ∀ a x, ((![v35] : Fin 1 → IVec S16 32) a x).toNat < S13312.size a := fun v35 k0_hw5 => k0_hw5

def k0_chk6 (v39 : IVec S16 32) : Prop :=
  (∀ a x, ((![v39] : Fin 1 → IVec S16 32) a x).toNat < S13312.size a)
instance k0_chk6.dec : ∀ (v39 : IVec S16 32), Decidable (k0_chk6 v39) := fun v39 => decidable_of_iff' _ (Iff.of_eq (k0_chk6.eq_1 v39))
theorem k0_idx6_inb : ∀ (v39 : IVec S16 32) (k0_hw6 : k0_chk6 v39), ∀ a x, ((![v39] : Fin 1 → IVec S16 32) a x).toNat < S13312.size a := fun v39 k0_hw6 => k0_hw6

def k0_chk7 (v43 : IVec S16 32) : Prop :=
  (∀ a x, ((![v43] : Fin 1 → IVec S16 32) a x).toNat < S13312.size a)
instance k0_chk7.dec : ∀ (v43 : IVec S16 32), Decidable (k0_chk7 v43) := fun v43 => decidable_of_iff' _ (Iff.of_eq (k0_chk7.eq_1 v43))
theorem k0_idx7_inb : ∀ (v43 : IVec S16 32) (k0_hw7 : k0_chk7 v43), ∀ a x, ((![v43] : Fin 1 → IVec S16 32) a x).toNat < S13312.size a := fun v43 k0_hw7 => k0_hw7

def k0_chk8 (v47 : IVec S16 32) : Prop :=
  (∀ a x, ((![v47] : Fin 1 → IVec S16 32) a x).toNat < S13312.size a)
instance k0_chk8.dec : ∀ (v47 : IVec S16 32), Decidable (k0_chk8 v47) := fun v47 => decidable_of_iff' _ (Iff.of_eq (k0_chk8.eq_1 v47))
theorem k0_idx8_inb : ∀ (v47 : IVec S16 32) (k0_hw8 : k0_chk8 v47), ∀ a x, ((![v47] : Fin 1 → IVec S16 32) a x).toNat < S13312.size a := fun v47 k0_hw8 => k0_hw8

def k0_chk9 (v51 : IVec S16 32) : Prop :=
  (∀ a x, ((![v51] : Fin 1 → IVec S16 32) a x).toNat < S13312.size a)
instance k0_chk9.dec : ∀ (v51 : IVec S16 32), Decidable (k0_chk9 v51) := fun v51 => decidable_of_iff' _ (Iff.of_eq (k0_chk9.eq_1 v51))
theorem k0_idx9_inb : ∀ (v51 : IVec S16 32) (k0_hw9 : k0_chk9 v51), ∀ a x, ((![v51] : Fin 1 → IVec S16 32) a x).toNat < S13312.size a := fun v51 k0_hw9 => k0_hw9

def k0_chk10 (v55 : IVec S16 32) : Prop :=
  (∀ a x, ((![v55] : Fin 1 → IVec S16 32) a x).toNat < S13312.size a)
instance k0_chk10.dec : ∀ (v55 : IVec S16 32), Decidable (k0_chk10 v55) := fun v55 => decidable_of_iff' _ (Iff.of_eq (k0_chk10.eq_1 v55))
theorem k0_idx10_inb : ∀ (v55 : IVec S16 32) (k0_hw10 : k0_chk10 v55), ∀ a x, ((![v55] : Fin 1 → IVec S16 32) a x).toNat < S13312.size a := fun v55 k0_hw10 => k0_hw10

def k0_chk11 (v59 : IVec S16 32) : Prop :=
  (∀ a x, ((![v59] : Fin 1 → IVec S16 32) a x).toNat < S13312.size a)
instance k0_chk11.dec : ∀ (v59 : IVec S16 32), Decidable (k0_chk11 v59) := fun v59 => decidable_of_iff' _ (Iff.of_eq (k0_chk11.eq_1 v59))
theorem k0_idx11_inb : ∀ (v59 : IVec S16 32) (k0_hw11 : k0_chk11 v59), ∀ a x, ((![v59] : Fin 1 → IVec S16 32) a x).toNat < S13312.size a := fun v59 k0_hw11 => k0_hw11

def k0_chk12 (v63 : IVec S16 32) : Prop :=
  (∀ a x, ((![v63] : Fin 1 → IVec S16 32) a x).toNat < S13312.size a)
instance k0_chk12.dec : ∀ (v63 : IVec S16 32), Decidable (k0_chk12 v63) := fun v63 => decidable_of_iff' _ (Iff.of_eq (k0_chk12.eq_1 v63))
theorem k0_idx12_inb : ∀ (v63 : IVec S16 32) (k0_hw12 : k0_chk12 v63), ∀ a x, ((![v63] : Fin 1 → IVec S16 32) a x).toNat < S13312.size a := fun v63 k0_hw12 => k0_hw12

def k0_chk13 (v67 : IVec S16 32) : Prop :=
  (∀ a x, ((![v67] : Fin 1 → IVec S16 32) a x).toNat < S13312.size a)
instance k0_chk13.dec : ∀ (v67 : IVec S16 32), Decidable (k0_chk13 v67) := fun v67 => decidable_of_iff' _ (Iff.of_eq (k0_chk13.eq_1 v67))
theorem k0_idx13_inb : ∀ (v67 : IVec S16 32) (k0_hw13 : k0_chk13 v67), ∀ a x, ((![v67] : Fin 1 → IVec S16 32) a x).toNat < S13312.size a := fun v67 k0_hw13 => k0_hw13

def k0_chk14 (v71 : IVec S16 32) : Prop :=
  (∀ a x, ((![v71] : Fin 1 → IVec S16 32) a x).toNat < S13312.size a)
instance k0_chk14.dec : ∀ (v71 : IVec S16 32), Decidable (k0_chk14 v71) := fun v71 => decidable_of_iff' _ (Iff.of_eq (k0_chk14.eq_1 v71))
theorem k0_idx14_inb : ∀ (v71 : IVec S16 32) (k0_hw14 : k0_chk14 v71), ∀ a x, ((![v71] : Fin 1 → IVec S16 32) a x).toNat < S13312.size a := fun v71 k0_hw14 => k0_hw14

def k0_chk15 (v75 : IVec S16 32) : Prop :=
  (∀ a x, ((![v75] : Fin 1 → IVec S16 32) a x).toNat < S13312.size a)
instance k0_chk15.dec : ∀ (v75 : IVec S16 32), Decidable (k0_chk15 v75) := fun v75 => decidable_of_iff' _ (Iff.of_eq (k0_chk15.eq_1 v75))
theorem k0_idx15_inb : ∀ (v75 : IVec S16 32) (k0_hw15 : k0_chk15 v75), ∀ a x, ((![v75] : Fin 1 → IVec S16 32) a x).toNat < S13312.size a := fun v75 k0_hw15 => k0_hw15

def k0_chk16 (v79 : IVec S16 32) : Prop :=
  (∀ a x, ((![v79] : Fin 1 → IVec S16 32) a x).toNat < S13312.size a)
instance k0_chk16.dec : ∀ (v79 : IVec S16 32), Decidable (k0_chk16 v79) := fun v79 => decidable_of_iff' _ (Iff.of_eq (k0_chk16.eq_1 v79))
theorem k0_idx16_inb : ∀ (v79 : IVec S16 32) (k0_hw16 : k0_chk16 v79), ∀ a x, ((![v79] : Fin 1 → IVec S16 32) a x).toNat < S13312.size a := fun v79 k0_hw16 => k0_hw16

def k0_chk17 (v83 : IVec S16 32) : Prop :=
  (∀ a x, ((![v83] : Fin 1 → IVec S16 32) a x).toNat < S13312.size a)
instance k0_chk17.dec : ∀ (v83 : IVec S16 32), Decidable (k0_chk17 v83) := fun v83 => decidable_of_iff' _ (Iff.of_eq (k0_chk17.eq_1 v83))
theorem k0_idx17_inb : ∀ (v83 : IVec S16 32) (k0_hw17 : k0_chk17 v83), ∀ a x, ((![v83] : Fin 1 → IVec S16 32) a x).toNat < S13312.size a := fun v83 k0_hw17 => k0_hw17

def k0_chk18 (v87 : IVec S16 32) : Prop :=
  (∀ a x, ((![v87] : Fin 1 → IVec S16 32) a x).toNat < S13312.size a)
instance k0_chk18.dec : ∀ (v87 : IVec S16 32), Decidable (k0_chk18 v87) := fun v87 => decidable_of_iff' _ (Iff.of_eq (k0_chk18.eq_1 v87))
theorem k0_idx18_inb : ∀ (v87 : IVec S16 32) (k0_hw18 : k0_chk18 v87), ∀ a x, ((![v87] : Fin 1 → IVec S16 32) a x).toNat < S13312.size a := fun v87 k0_hw18 => k0_hw18

def k0_chk19 (v91 : IVec S16 32) : Prop :=
  (∀ a x, ((![v91] : Fin 1 → IVec S16 32) a x).toNat < S13312.size a)
instance k0_chk19.dec : ∀ (v91 : IVec S16 32), Decidable (k0_chk19 v91) := fun v91 => decidable_of_iff' _ (Iff.of_eq (k0_chk19.eq_1 v91))
theorem k0_idx19_inb : ∀ (v91 : IVec S16 32) (k0_hw19 : k0_chk19 v91), ∀ a x, ((![v91] : Fin 1 → IVec S16 32) a x).toNat < S13312.size a := fun v91 k0_hw19 => k0_hw19

def k0_chk20 (v95 : IVec S16 32) : Prop :=
  (∀ a x, ((![v95] : Fin 1 → IVec S16 32) a x).toNat < S13312.size a)
instance k0_chk20.dec : ∀ (v95 : IVec S16 32), Decidable (k0_chk20 v95) := fun v95 => decidable_of_iff' _ (Iff.of_eq (k0_chk20.eq_1 v95))
theorem k0_idx20_inb : ∀ (v95 : IVec S16 32) (k0_hw20 : k0_chk20 v95), ∀ a x, ((![v95] : Fin 1 → IVec S16 32) a x).toNat < S13312.size a := fun v95 k0_hw20 => k0_hw20

def k0_chk21 (v99 : IVec S16 32) : Prop :=
  (∀ a x, ((![v99] : Fin 1 → IVec S16 32) a x).toNat < S13312.size a)
instance k0_chk21.dec : ∀ (v99 : IVec S16 32), Decidable (k0_chk21 v99) := fun v99 => decidable_of_iff' _ (Iff.of_eq (k0_chk21.eq_1 v99))
theorem k0_idx21_inb : ∀ (v99 : IVec S16 32) (k0_hw21 : k0_chk21 v99), ∀ a x, ((![v99] : Fin 1 → IVec S16 32) a x).toNat < S13312.size a := fun v99 k0_hw21 => k0_hw21

def k0_chk22 (v103 : IVec S16 32) : Prop :=
  (∀ a x, ((![v103] : Fin 1 → IVec S16 32) a x).toNat < S13312.size a)
instance k0_chk22.dec : ∀ (v103 : IVec S16 32), Decidable (k0_chk22 v103) := fun v103 => decidable_of_iff' _ (Iff.of_eq (k0_chk22.eq_1 v103))
theorem k0_idx22_inb : ∀ (v103 : IVec S16 32) (k0_hw22 : k0_chk22 v103), ∀ a x, ((![v103] : Fin 1 → IVec S16 32) a x).toNat < S13312.size a := fun v103 k0_hw22 => k0_hw22

def k0_chk23 (v107 : IVec S16 32) : Prop :=
  (∀ a x, ((![v107] : Fin 1 → IVec S16 32) a x).toNat < S13312.size a)
instance k0_chk23.dec : ∀ (v107 : IVec S16 32), Decidable (k0_chk23 v107) := fun v107 => decidable_of_iff' _ (Iff.of_eq (k0_chk23.eq_1 v107))
theorem k0_idx23_inb : ∀ (v107 : IVec S16 32) (k0_hw23 : k0_chk23 v107), ∀ a x, ((![v107] : Fin 1 → IVec S16 32) a x).toNat < S13312.size a := fun v107 k0_hw23 => k0_hw23

def k0_chk24 (v111 : IVec S16 32) : Prop :=
  (∀ a x, ((![v111] : Fin 1 → IVec S16 32) a x).toNat < S13312.size a)
instance k0_chk24.dec : ∀ (v111 : IVec S16 32), Decidable (k0_chk24 v111) := fun v111 => decidable_of_iff' _ (Iff.of_eq (k0_chk24.eq_1 v111))
theorem k0_idx24_inb : ∀ (v111 : IVec S16 32) (k0_hw24 : k0_chk24 v111), ∀ a x, ((![v111] : Fin 1 → IVec S16 32) a x).toNat < S13312.size a := fun v111 k0_hw24 => k0_hw24

def k0_chk25 (v115 : IVec S16 32) : Prop :=
  (∀ a x, ((![v115] : Fin 1 → IVec S16 32) a x).toNat < S13312.size a)
instance k0_chk25.dec : ∀ (v115 : IVec S16 32), Decidable (k0_chk25 v115) := fun v115 => decidable_of_iff' _ (Iff.of_eq (k0_chk25.eq_1 v115))
theorem k0_idx25_inb : ∀ (v115 : IVec S16 32) (k0_hw25 : k0_chk25 v115), ∀ a x, ((![v115] : Fin 1 → IVec S16 32) a x).toNat < S13312.size a := fun v115 k0_hw25 => k0_hw25

def k0_chk26 (v119 : IVec S16 32) : Prop :=
  (∀ a x, ((![v119] : Fin 1 → IVec S16 32) a x).toNat < S13312.size a)
instance k0_chk26.dec : ∀ (v119 : IVec S16 32), Decidable (k0_chk26 v119) := fun v119 => decidable_of_iff' _ (Iff.of_eq (k0_chk26.eq_1 v119))
theorem k0_idx26_inb : ∀ (v119 : IVec S16 32) (k0_hw26 : k0_chk26 v119), ∀ a x, ((![v119] : Fin 1 → IVec S16 32) a x).toNat < S13312.size a := fun v119 k0_hw26 => k0_hw26
def k0_off2 (k0_t1 : Fin k0_t1_loop.trips) : Fin 1 → Nat :=
  let c0_i32_2 : BitVec 32 := 0#32
  let c1_i32 : BitVec 32 := 1#32
  let arg12 : BitVec 32 := Scf.iv c0_i32_2 c1_i32 k0_t1
  let c16_i32_7 : BitVec 32 := 16#32
  let v122 : BitVec 32 := Scalar.muli arg12 c16_i32_7
  let v123 : Index := Scalar.indexCast v122
  ![v123.toNat]
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S16384x26_S425984 : S16384x26.ShapeCasts S425984
  pads_S1040000x1_S1040384x1_03840_000 : S1040000x1.Pads (![0, 0] : Fin 2 → Nat) ![384, 0] ![0, 0] S1040384x1
  h_S_ : 0 < S_.numel
  shapeCasts_S1040384x1_S1040384 : S1040384x1.ShapeCasts S1040384
  bcast_S1_S16_0 : S1.BroadcastsInDim S16 (![0] : Fin 1 → Fin S16.rank)
  inb_S1040384_S1040384_0 : ∀ a, (![0] : Fin 1 → Nat) a + S1040384.size a ≤ S1040384.size a
  gathers_S1040384_S13312 : S1040384.Gathers 0 S13312
  inb_S16_S16_0 : ∀ a, (![0] : Fin 1 → Nat) a + S16.size a ≤ S16.size a
  h_S16 : 0 < S16.numel
  iota_S16_d0_w32_scVector : S16.Iotas .scVector 32 [0]
  h_S13312 : 0 < S13312.numel
  shapeCasts_S16384_S16384x1 : S16384.ShapeCasts S16384x1
  hcc0_scratch4 : 0 + S_.numel ≤ 4
  hcc0_scratch5 : 1 + S_.numel ≤ 4
  hcc0_scoped0 : 2 + S_.numel ≤ 4
  hcc0_scoped1 : 3 + S_.numel ≤ 4
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S13312.size a ≤ S425984.size a
  k0_t1_ok : k0_t1_loop.OK
  k0_off2_inb : ∀ k0_t1 : Fin k0_t1_loop.trips, ∀ a, (k0_off2 k0_t1) a + S16.size a ≤ S512.size a
  k0_off3_inb : ∀ i : grid0.Coords, ∀ a, (k0_off3 i) a + S512.size a ≤ S16384.size a

variable [Facts₀]

abbrev cc0_scratch4 : DmaSems sig S_ := SemArray.consecutive 0 S_ hcc0_scratch4
abbrev cc0_scratch5 : DmaSems sig S_ := SemArray.consecutive 1 S_ hcc0_scratch5
abbrev cc0_scoped0 : DmaSems sig S_ := SemArray.consecutive 2 S_ hcc0_scoped0
abbrev cc0_scoped1 : DmaSems sig S_ := SemArray.consecutive 3 S_ hcc0_scoped1

class Facts : Prop extends Facts₀ where

variable [Facts]
-- ==== ReferenceIdeal.lean ====
abbrev S16384x26 : Shape := ⟨2, ![16384, 26]⟩
abbrev S1040000x1 : Shape := ⟨2, ![1040000, 1]⟩
abbrev S1 : Shape := ⟨1, ![1]⟩
abbrev S_ : Shape := ⟨0, ![]⟩
abbrev S16384x26x1 : Shape := ⟨3, ![16384, 26, 1]⟩
abbrev S1x1x1 : Shape := ⟨3, ![1, 1, 1]⟩
abbrev S16384x1 : Shape := ⟨2, ![16384, 1]⟩
abbrev S1x1 : Shape := ⟨2, ![1, 1]⟩

abbrev nBuf : Space → Nat
  | .hbm => 31
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S1040000x1, .f32⟩
  | .hbm, ⟨2, _⟩ => ⟨S1, .f32⟩
  | .hbm, ⟨3, _⟩ => ⟨S_, .i32⟩
  | .hbm, ⟨4, _⟩ => ⟨S16384x26, .i32⟩
  | .hbm, ⟨5, _⟩ => ⟨S16384x26, .i1⟩
  | .hbm, ⟨6, _⟩ => ⟨S_, .i32⟩
  | .hbm, ⟨7, _⟩ => ⟨S16384x26, .i32⟩
  | .hbm, ⟨8, _⟩ => ⟨S16384x26, .i32⟩
  | .hbm, ⟨9, _⟩ => ⟨S16384x26, .i32⟩
  | .hbm, ⟨10, _⟩ => ⟨S16384x26x1, .i32⟩
  | .hbm, ⟨11, _⟩ => ⟨S1, .i32⟩
  | .hbm, ⟨12, _⟩ => ⟨S_, .i32⟩
  | .hbm, ⟨13, _⟩ => ⟨S16384x26x1, .i32⟩
  | .hbm, ⟨14, _⟩ => ⟨S16384x26x1, .i1⟩
  | .hbm, ⟨15, _⟩ => ⟨S1x1x1, .i32⟩
  | .hbm, ⟨16, _⟩ => ⟨S16384x26x1, .i32⟩
  | .hbm, ⟨17, _⟩ => ⟨S16384x26x1, .i1⟩
  | .hbm, ⟨18, _⟩ => ⟨S16384x26x1, .i1⟩
  | .hbm, ⟨19, _⟩ => ⟨S_, .i1⟩
  | .hbm, ⟨20, _⟩ => ⟨S16384x26, .i1⟩
  | .hbm, ⟨21, _⟩ => ⟨S16384x26x1, .f32⟩
  | .hbm, ⟨22, _⟩ => ⟨S16384x26x1, .i1⟩
  | .hbm, ⟨23, _⟩ => ⟨S_, .f32⟩
  | .hbm, ⟨24, _⟩ => ⟨S16384x26x1, .f32⟩
  | .hbm, ⟨25, _⟩ => ⟨S16384x26x1, .f32⟩
  | .hbm, ⟨26, _⟩ => ⟨S_, .f32⟩
  | .hbm, ⟨27, _⟩ => ⟨S16384x1, .f32⟩
  | .hbm, ⟨28, _⟩ => ⟨S1x1, .f32⟩
  | .hbm, ⟨29, _⟩ => ⟨S16384x1, .f32⟩
  | .hbm, ⟨30, _⟩ => ⟨S16384x1, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_cst : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩

abbrev nD : Nat := 1
abbrev τ : Topo := Topo.v7x

variable {F : FTy → Type} [FloatOps F]

class Facts₀ : Prop where
  bcast_S_S16384x26 : S_.BroadcastsInDim S16384x26 (![] : Fin 0 → Fin S16384x26.rank)
  bcast_S16384x26_S16384x26x1_0_1 : S16384x26.BroadcastsInDim S16384x26x1 (![0, 1] : Fin 2 → Fin S16384x26x1.rank)
  bcast_S_S16384x26x1 : S_.BroadcastsInDim S16384x26x1 (![] : Fin 0 → Fin S16384x26x1.rank)
  bcast_S1_S1x1x1_2 : S1.BroadcastsInDim S1x1x1 (![2] : Fin 1 → Fin S1x1x1.rank)
  bcast_S1x1x1_S16384x26x1_0_1_2 : S1x1x1.BroadcastsInDim S16384x26x1 (![0, 1, 2] : Fin 3 → Fin S16384x26x1.rank)
  reducesTo_S16384x26x1_S16384x26_d2 : S16384x26x1.ReducesTo [2] S16384x26
  h_S_ : 0 < S_.numel
  reducesTo_S16384x26x1_S16384x1_d1 : S16384x26x1.ReducesTo [1] S16384x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  gather_S1040000x1_S16384x26x1_S16384x26x1_2_0_n_n_0_2_11_wf : GatherDims.WF S1040000x1 S16384x26x1 S16384x26x1 [2] [0] [] [0] [] 2 ![1, 1]

variable [Facts₀]

def gather_S1040000x1_S16384x26x1_S16384x26x1_2_0_n_n_0_2_11 : GatherDims S1040000x1 S16384x26x1 S16384x26x1 where
  offsetDims := [2]
  collapsedSliceDims := [0]
  operandBatchingDims := []
  startIndicesBatchingDims := []
  startIndexMap := [0]
  indexVectorDim := 2
  sliceSizes := ![1, 1]
  wf := gather_S1040000x1_S16384x26x1_S16384x26x1_2_0_n_n_0_2_11_wf

class Facts : Prop extends Facts₀ where

variable [Facts]
-- ==== Proof.KBSetup.lean ====
/-
  The program as the launch theorem reads it, the ghost state, and the names shared by the tile's task and the launch.
-/
import proofs.«207406_g23510650978335_cont_sun_m_507_26_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207406_g23510650978335_cont_sun_m_507_26_alg».proof.Proof.Gen.Kernel
import proofs.«207406_g23510650978335_cont_sun_m_507_26_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

abbrev EH : Emb UH (MT nD τ sig (HIx 1) (Elt F) ℕ UU ℕ) := embL

/-! ## The device's arrays -/

/-- The three arguments, the flattened indices, the padded flat table, the sixteen copies of the bias, the kernel's
    flat result and the program's result, as locations of device `d`. -/
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev xLoc (d : Dev nD) : Loc nD τ sig := (SparseCore.T d).loc main_v0
abbrev wLoc (d : Dev nD) : Loc nD τ sig := (SparseCore.T d).loc main_v2
abbrev bLoc (d : Dev nD) : Loc nD τ sig := (SparseCore.T d).loc main_v3
abbrev oLoc (d : Dev nD) : Loc nD τ sig := (SparseCore.T d).loc main_v4
abbrev rLoc (d : Dev nD) : Loc nD τ sig := (SparseCore.T d).loc main_v5

/-- The grid point of a tile as its SparseCore and its vector subcore. -/
abbrev cV (L : grid0.Coords) : Fin τ.nSC := (L 0).castLE hcore0
abbrev jV (L : grid0.Coords) : Fin τ.nSub := (L 1).castLE hsub0

def coordsV (c : Fin (grid0.bound 0)) (s : Fin (grid0.bound 1)) : grid0.Coords :=
  fun | 0 => c | 1 => s | ⟨_ + 2, h⟩ => absurd h (Nat.not_lt.2 (Nat.le_add_left _ _))

end Cert.Proof.KB

end
-- ==== Proof.KBDefs.lean ====
/-
  One tile's task, as values. Tile (c, s) is worker w = 2 s + c. It fetches the 13312 flat indices of its 512 batch rows,
  gathers the padded table's row for each, and for each of 32 blocks of 16 batch rows adds, lane by lane, the bias and the
  26 gathered rows of that batch row, left to right; the 512 sums go to its slice of the flat result. Here: the slices as
  the program cuts them, that every index vector the loop builds stays inside the gathered rows, and the contents of each
  scratch buffer as the run leaves them, named.
-/
import proofs.«207406_g23510650978335_cont_sun_m_507_26_alg».proof.Proof.KBSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's memrefs, spelt as the body table passes them
local notation "xW" => (Memref.whole Cert.Kernel.main_v0_scv : Memref Cert.Kernel.sig Kind.scVector Space.hbm Cert.Kernel.S425984 EltTy.i32)
local notation "wW" => (Memref.whole Cert.Kernel.main_v2_scv : Memref Cert.Kernel.sig Kind.scVector Space.hbm Cert.Kernel.S1040384 EltTy.f32)
local notation "bW" => (Memref.whole Cert.Kernel.main_v3_scv : Memref Cert.Kernel.sig Kind.scVector Space.hbm Cert.Kernel.S16 EltTy.f32)
local notation "oW" => (Memref.whole Cert.Kernel.main_v4_scv : Memref Cert.Kernel.sig Kind.scVector Space.hbm Cert.Kernel.S16384 EltTy.f32)
local notation "sI" => (Memref.whole Cert.Kernel.cc0_scratch0 : Memref Cert.Kernel.sig Kind.scVector Space.vmem Cert.Kernel.S13312 EltTy.i32)
local notation "sR" => (Memref.whole Cert.Kernel.cc0_scratch1 : Memref Cert.Kernel.sig Kind.scVector Space.vmem Cert.Kernel.S13312 EltTy.f32)
local notation "sO" => (Memref.whole Cert.Kernel.cc0_scratch2 : Memref Cert.Kernel.sig Kind.scVector Space.vmem Cert.Kernel.S512 EltTy.f32)
local notation "sB" => (Memref.whole Cert.Kernel.cc0_scratch3 : Memref Cert.Kernel.sig Kind.scVector Space.vmem Cert.Kernel.S16 EltTy.f32)

variable [FloatOps F]

section Tile

variable (d : Dev nD) (L : grid0.Coords)

/-- The slice of the flat indices a tile fetches and the slice of the flat result it writes, as the program slices them. -/
abbrev xSl (L : grid0.Coords) : Memref sig .scVector .hbm S13312 .i32 :=
  (xW).slice (Rect.unit (s := S425984) (k0_off1 L) S13312.size (k0_off1_inb L)) (fun _ => rfl)
abbrev oSl (L : grid0.Coords) : Memref sig .scVector .hbm S512 .f32 :=
  (oW).slice (Rect.unit (s := S16384) (k0_off3 L) S512.size (k0_off3_inb L)) (fun _ => rfl)

/-- The words a tile fetches: its slice of the flat indices. -/
abbrev idxP (L : grid0.Coords) (X : Buf (Elt F) (xLoc d)) : S13312.Idx → Elt F .i32 :=
  ReadAs.same.apply ((xSl L).view.read (Elt F) X)

omit [FloatOps F] in
/-- Every fetched word names a row of the padded table, whatever the index scratch held before. -/
theorem idx_inb (X : Buf (Elt F) (xLoc d)) (hX : ∀ i, (X i).toNat < 1040384)
    (g : Buf (Elt F) ((sI).view.loc (V d (cV L) (jV L)))) (x : S13312.Idx) :
    ((sI).view.read (Elt F) ((sI).view.write (Elt F) g (idxP d L X) Finset.univ) x).toNat < S1040384.size gathers_S1040384_S13312.axis := by
  rw [View.write_whole_univ]
  simp only [Memref.view_whole, View.read_whole]
  exact hX _

/-- The index vector of field `c` at trip `t` stays inside the gathered rows. -/
theorem chk_all : ∀ (t : Fin k0_t1_loop.trips) (f : Fin 26) (a : Fin 1) (x : S16.Idx),
    ((![addi (k0_pay10 k0_pay1 0#32 1#32 t) (broadcast S16 (BitVec.ofNat 32 f.val))] : Fin 1 → IVec S16 32) a x).toNat < S13312.size a := by
  decide +kernel

/-- The same for any word below 26 in place of the field's number. -/
theorem chk_c (t : Fin k0_t1_loop.trips) (c : BitVec 32) (hc : c.toNat < 26) : ∀ (a : Fin 1) (x : S16.Idx),
    ((![addi (k0_pay10 k0_pay1 0#32 1#32 t) (broadcast S16 c)] : Fin 1 → IVec S16 32) a x).toNat < S13312.size a := by
  have h := chk_all t ⟨c.toNat, hc⟩
  have e : BitVec.ofNat 32 (⟨c.toNat, hc⟩ : Fin 26).val = c := by simp
  rwa [e] at h

/-- The padded table as the gather addresses it. -/
abbrev wSl : Memref sig .scVector .hbm S1040384 .f32 :=
  (wW).slice (Rect.unit (s := S1040384) ![0] S1040384.size inb_S1040384_S1040384_0) (fun _ => rfl)

/-- The gathered rows: entry `j` is the table's row named by the `j`-th fetched word. -/
abbrev rowsP (L : grid0.Coords) (X : Buf (Elt F) (xLoc d)) (Wf : Buf (Elt F) (wLoc d))
    (fi : Buf (Elt F) ((sI).view.loc (V d (cV L) (jV L))))
    (hin : ∀ (g : Buf (Elt F) ((sI).view.loc (V d (cV L) (jV L)))) (x : S13312.Idx),
      ((sI).view.read (Elt F) ((sI).view.write (Elt F) g (idxP d L X) Finset.univ) x).toNat < S1040384.size gathers_S1040384_S13312.axis) :
    S13312.Idx → Elt F .f32 :=
  SparseCore.gatherPayload gathers_S1040384_S13312 ((wSl).view.read (Elt F) Wf)
    (SparseCore.rows ((sI).view.read (Elt F) ((sI).view.write (Elt F) fi (idxP d L X) Finset.univ)) rfl (hin fi))

/-- What the rows scratch holds after the gather. -/
abbrev rowsBuf (L : grid0.Coords) (X : Buf (Elt F) (xLoc d)) (Wf : Buf (Elt F) (wLoc d))
    (fi : Buf (Elt F) ((sI).view.loc (V d (cV L) (jV L))))
    (hin : ∀ (g : Buf (Elt F) ((sI).view.loc (V d (cV L) (jV L)))) (x : S13312.Idx),
      ((sI).view.read (Elt F) ((sI).view.write (Elt F) g (idxP d L X) Finset.univ) x).toNat < S1040384.size gathers_S1040384_S13312.axis) :
    Buf (Elt F) ((sR).view.loc (V d (cV L) (jV L))) :=
  (sR).view.writes (Elt F) (sR).view.junk [⟨Rect.whole _, rowsP d L X Wf fi hin⟩]

/-- The bias vector the loop starts every sum from: the sixteen copies, fetched and loaded. -/
abbrev biasV (L : grid0.Coords) (B : Buf (Elt F) (bLoc d)) (fsb : Buf (Elt F) ((sB).view.loc (V d (cV L) (jV L)))) : Vec F S16 .f32 :=
  (sB).view.readAt (Elt F) (Rect.unit (s := S16) ![0] S16.size inb_S16_S16_0).toLoadRect
    ((sB).view.write (Elt F) fsb (ReadAs.same.apply ((bW).view.read (Elt F) B)) Finset.univ)

/-- The indexed load of field `c` at trip `k`: lane `l` reads the gathered row `416 k + 26 l + c`. -/
def ldR (L : grid0.Coords) (R : Buf (Elt F) ((sR).view.loc (V d (cV L) (jV L)))) (k : Fin k0_t1_loop.trips) (c : BitVec 32) (hc : c.toNat < 26) :
    Vec F S16 .f32 :=
  loadIdx ((sR).view.readAt (Elt F) (LoadRect.whole S13312) R) ![addi (k0_pay10 k0_pay1 0#32 1#32 k) (broadcast S16 c)] (chk_c k c hc)

/-- What trip `k` stores: the bias plus the twenty-six fields' rows, added in the fields' order. -/
def stepPay (L : grid0.Coords) (R : Buf (Elt F) ((sR).view.loc (V d (cV L) (jV L)))) (v10 : Vec F S16 .f32) (k : Fin k0_t1_loop.trips) : FVec F S16 .f32 :=
  k0_pay9
    (k0_pay31
      (k0_pay20 v10 (ldR d L R k 0#32 (by decide)) (ldR d L R k 1#32 (by decide)) (ldR d L R k 2#32 (by decide)) (ldR d L R k 3#32 (by decide))
        (ldR d L R k 4#32 (by decide)) (ldR d L R k 5#32 (by decide)) (ldR d L R k 6#32 (by decide)) (ldR d L R k 7#32 (by decide)) (ldR d L R k 8#32 (by decide)))
      (ldR d L R k 9#32 (by decide)) (ldR d L R k 10#32 (by decide)) (ldR d L R k 11#32 (by decide)) (ldR d L R k 12#32 (by decide)) (ldR d L R k 13#32 (by decide))
      (ldR d L R k 14#32 (by decide)) (ldR d L R k 15#32 (by decide)) (ldR d L R k 16#32 (by decide)) (ldR d L R k 17#32 (by decide)) (ldR d L R k 18#32 (by decide)))
    (ldR d L R k 19#32 (by decide)) (ldR d L R k 20#32 (by decide)) (ldR d L R k 21#32 (by decide)) (ldR d L R k 22#32 (by decide)) (ldR d L R k 23#32 (by decide))
    (ldR d L R k 24#32 (by decide)) (ldR d L R k 25#32 (by decide))

/-- The out scratch after `n` trips: trip `k`'s sixteen sums written at lanes `16 k …` over what was there. -/
def outAt (L : grid0.Coords) (R : Buf (Elt F) ((sR).view.loc (V d (cV L) (jV L)))) (v10 : Vec F S16 .f32)
    (f0 : Buf (Elt F) ((sO).view.loc (V d (cV L) (jV L)))) : ℕ → Buf (Elt F) ((sO).view.loc (V d (cV L) (jV L)))
  | 0 => f0
  | n + 1 =>
    if h : n < k0_t1_loop.trips then
      (sO).view.writes (Elt F) (outAt L R v10 f0 n) [⟨Rect.unit (s := S512) (k0_off2 ⟨n, h⟩) S16.size (k0_off2_inb ⟨n, h⟩), stepPay d L R v10 ⟨n, h⟩⟩]
    else outAt L R v10 f0 n

theorem outAt_succ (L : grid0.Coords) (R : Buf (Elt F) ((sR).view.loc (V d (cV L) (jV L)))) (v10 : Vec F S16 .f32)
    (f0 : Buf (Elt F) ((sO).view.loc (V d (cV L) (jV L)))) (k : Fin k0_t1_loop.trips) :
    outAt d L R v10 f0 (k.val + 1)
      = (sO).view.writes (Elt F) (outAt d L R v10 f0 k.val) [⟨Rect.unit (s := S512) (k0_off2 k) S16.size (k0_off2_inb k), stepPay d L R v10 k⟩] := by
  rw [outAt, dif_pos k.isLt]

end Tile

end Cert.Proof.KB

end
-- ==== Proof.KBValue.lean ====
/-
  The tile's values in closed form. The flat result at index j is the bias copy j mod 16 plus, in order, the table's rows
  named by the flat indices 26 j, 26 j + 1, …, 26 j + 25: the same function of the three flat arrays whatever the tile's
  scratch buffers held before, which is what lets the 32 tiles' slices be read as one array.
-/
import proofs.«207406_g23510650978335_cont_sun_m_507_26_alg».proof.Proof.KBDefs
import Idealize.ShloMosaic.Lib.ValueIdx
import Idealize.ShloMosaic.Lib.Writes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx (ix1 eq_ix1)

variable {F : FTy → Type}

local notation "𝕄" => MT nD τ sig (HIx 1) (Elt F) ℕ UU ℕ

-- the kernel's memrefs, spelt as the body table passes them
local notation "xW" => (Memref.whole Cert.Kernel.main_v0_scv : Memref Cert.Kernel.sig Kind.scVector Space.hbm Cert.Kernel.S425984 EltTy.i32)
local notation "wW" => (Memref.whole Cert.Kernel.main_v2_scv : Memref Cert.Kernel.sig Kind.scVector Space.hbm Cert.Kernel.S1040384 EltTy.f32)
local notation "bW" => (Memref.whole Cert.Kernel.main_v3_scv : Memref Cert.Kernel.sig Kind.scVector Space.hbm Cert.Kernel.S16 EltTy.f32)
local notation "oW" => (Memref.whole Cert.Kernel.main_v4_scv : Memref Cert.Kernel.sig Kind.scVector Space.hbm Cert.Kernel.S16384 EltTy.f32)
local notation "sI" => (Memref.whole Cert.Kernel.cc0_scratch0 : Memref Cert.Kernel.sig Kind.scVector Space.vmem Cert.Kernel.S13312 EltTy.i32)
local notation "sR" => (Memref.whole Cert.Kernel.cc0_scratch1 : Memref Cert.Kernel.sig Kind.scVector Space.vmem Cert.Kernel.S13312 EltTy.f32)
local notation "sO" => (Memref.whole Cert.Kernel.cc0_scratch2 : Memref Cert.Kernel.sig Kind.scVector Space.vmem Cert.Kernel.S512 EltTy.f32)
local notation "sB" => (Memref.whole Cert.Kernel.cc0_scratch3 : Memref Cert.Kernel.sig Kind.scVector Space.vmem Cert.Kernel.S16 EltTy.f32)

variable [FloatOps F]

/-- Twenty-six terms added to a start value, in order. -/
def sum26 {α : Type} (add : α → α → α) (b : α) (v : ℕ → α) : α := (List.range 26).foldl (fun acc f => add acc (v f)) b

/-- The flat result as one function of the flat indices, the padded flat table and the sixteen copies of the bias. -/
def GOv (X : Vec F S425984 .i32) (Wf : Vec F S1040384 .f32) (B : Vec F S16 .f32) : Vec F S16384 .f32 := fun i =>
  sum26 (FloatOps.addf (F := F) (φ := .f32)) (B (ix1 ⟨(i 0).val % 16, Nat.mod_lt _ (by decide)⟩))
    (fun f => Wf (ix1 ⟨(X (ix1 ⟨(26 * (i 0).val + f) % 425984, Nat.mod_lt _ (by decide)⟩)).toNat % 1040384, Nat.mod_lt _ (by decide)⟩))

theorem trips_eq : k0_t1_loop.trips = 32 := by decide

section Tile

variable (d : Dev nD) (L : grid0.Coords)

/-- Lane `x` of field `f`'s index vector at trip `t` is `416 t + 26 x + f`. -/
theorem idx_val : ∀ (t : Fin k0_t1_loop.trips) (f : Fin 26) (x : S16.Idx),
    (addi (k0_pay10 k0_pay1 0#32 1#32 t) (broadcast S16 (BitVec.ofNat 32 f.val)) x).toNat = 416 * t.val + 26 * (x 0).val + f.val := by
  decide +kernel

theorem idx_val_c (t : Fin k0_t1_loop.trips) (c : BitVec 32) (hc : c.toNat < 26) (x : S16.Idx) :
    (addi (k0_pay10 k0_pay1 0#32 1#32 t) (broadcast S16 c) x).toNat = 416 * t.val + 26 * (x 0).val + c.toNat := by
  have h := idx_val t ⟨c.toNat, hc⟩ x
  have e : BitVec.ofNat 32 (⟨c.toNat, hc⟩ : Fin 26).val = c := by simp
  rwa [e] at h

/-- The indexed load, lane by lane. -/
theorem ldR_apply (R : Buf (Elt F) ((sR).view.loc (V d (cV L) (jV L)))) (k : Fin k0_t1_loop.trips) (c : BitVec 32) (hc : c.toNat < 26) (x : S16.Idx) :
    ldR d L R k c hc x = R (ix1 ⟨(416 * k.val + 26 * (x 0).val + c.toNat) % 13312, Nat.mod_lt _ (by decide)⟩) := by
  have hk : k.val < 32 := lt_of_lt_of_eq k.isLt trips_eq
  have hx : (x 0).val < 16 := (x 0).isLt
  unfold ldR loadIdx
  rw [View.readAt_apply]
  simp only [Memref.view_whole, View.read_whole]
  refine congrArg R ((eq_ix1 (n := 13312) _).trans (congrArg ix1 (Fin.ext ?_)))
  show 0 + 1 * (addi (k0_pay10 k0_pay1 0#32 1#32 k) (broadcast S16 c) x).toNat = (416 * k.val + 26 * (x 0).val + c.toNat) % 13312
  rw [idx_val_c k c hc x]
  have := Nat.mod_eq_of_lt (show 416 * k.val + 26 * (x 0).val + c.toNat < 13312 by omega)
  omega

/-- What a trip stores at lane `x`. -/
theorem stepPay_apply (R : Buf (Elt F) ((sR).view.loc (V d (cV L) (jV L)))) (v10 : Vec F S16 .f32) (k : Fin k0_t1_loop.trips) (x : S16.Idx) :
    stepPay d L R v10 k x
      = sum26 (FloatOps.addf (F := F) (φ := .f32)) (v10 x)
          (fun f => R (ix1 ⟨(416 * k.val + 26 * (x 0).val + f) % 13312, Nat.mod_lt _ (by decide)⟩)) := by
  unfold stepPay k0_pay9 k0_pay31 k0_pay20
  simp only [addf, ldR_apply]
  rfl

/-- Trip `k` stores at lanes `16 k … 16 k + 15`. -/
theorem off2_val (k : Fin k0_t1_loop.trips) : k0_off2 k 0 = 16 * k.val := by rw [k0_off2_eq]; rfl

/-- The trip that writes lane `y` of the out scratch. -/
def tripOf (y : S512.Idx) : Fin k0_t1_loop.trips :=
  ⟨(y 0).val / 16, by rw [trips_eq]; have h : (y 0).val < 512 := (y 0).isLt; omega⟩

/-- After `n` trips every lane below `16 n` holds its trip's sum, whatever the scratch held before. -/
theorem outAt_apply (R : Buf (Elt F) ((sR).view.loc (V d (cV L) (jV L)))) (v10 : Vec F S16 .f32)
    (f0 : Buf (Elt F) ((sO).view.loc (V d (cV L) (jV L)))) :
    ∀ (n : ℕ) (hn : n ≤ 32) (y : S512.Idx) (hy : (y 0).val < 16 * n),
      outAt d L R v10 f0 n y = stepPay d L R v10 (tripOf y) (ix1 ⟨(y 0).val % 16, Nat.mod_lt _ (by decide)⟩)
  | 0, _, y, hy => by omega
  | n + 1, hn, y, hy => by
    have hn' : n < k0_t1_loop.trips := by rw [trips_eq]; omega
    have e := outAt_succ d L R v10 f0 ⟨n, hn'⟩
    have h16 : S16.size 0 = 16 := rfl
    have e' : outAt d L R v10 f0 (n + 1)
        = (sO).view.writes (Elt F) (outAt d L R v10 f0 n) [⟨Rect.unit (s := S512) (k0_off2 ⟨n, hn'⟩) S16.size (k0_off2_inb ⟨n, hn'⟩), stepPay d L R v10 ⟨n, hn'⟩⟩] := e
    rw [e']
    by_cases hc : (y 0).val / 16 = n
    · have ht : tripOf y = ⟨n, hn'⟩ := Fin.ext hc
      rw [ht]
      subst hc
      have hy0 : y = (Rect.unit (s := S512) (k0_off2 ⟨(y 0).val / 16, hn'⟩) S16.size (k0_off2_inb ⟨(y 0).val / 16, hn'⟩)).emb
          (ix1 ⟨(y 0).val % 16, Nat.mod_lt _ (by decide)⟩) := by
        refine (eq_ix1 (n := 512) y).trans ((congrArg ix1 (Fin.ext ?_)).trans (eq_ix1 (n := 512) _).symm)
        show (y 0).val = k0_off2 ⟨(y 0).val / 16, hn'⟩ 0 + 1 * ((y 0).val % 16)
        rw [off2_val]; show (y 0).val = 16 * ((y 0).val / 16) + 1 * ((y 0).val % 16); omega
      have := View.read_writes_cons_emb (sO).view (outAt d L R v10 f0 ((y 0).val / 16))
        (Rect.unit (s := S512) (k0_off2 ⟨(y 0).val / 16, hn'⟩) S16.size (k0_off2_inb ⟨(y 0).val / 16, hn'⟩))
        (stepPay d L R v10 ⟨(y 0).val / 16, hn'⟩) [] (ix1 ⟨(y 0).val % 16, Nat.mod_lt _ (by decide)⟩)
      rw [← hy0] at this
      exact this
    · have hlt : (y 0).val < 16 * n := by omega
      have hnot : ∀ p ∈ ([⟨Rect.unit (s := S512) (k0_off2 ⟨n, hn'⟩) S16.size (k0_off2_inb ⟨n, hn'⟩), stepPay d L R v10 ⟨n, hn'⟩⟩] : List (View.Piece (Elt F) S512 .f32)),
          y ∉ p.1.set := by
        intro p hp hmem
        obtain rfl := List.mem_singleton.mp hp
        have h0 := (Rect.mem_set_unit (s := S512) (off := k0_off2 ⟨n, hn'⟩) (size := S16.size) (inb := k0_off2_inb ⟨n, hn'⟩) (i := y)).mp hmem (0 : Fin 1)
        rw [off2_val] at h0
        have h0' : 16 * n ≤ (y 0).val := h0.1
        omega
      have := View.read_writes_apply_of_forall_not_mem (sO).view (outAt d L R v10 f0 n) y _ hnot
      exact this.trans (outAt_apply R v10 f0 n (by omega) y hlt)

/-- The bias vector is the sixteen copies, whatever the bias scratch held before. -/
theorem biasV_apply (B : Buf (Elt F) (bLoc d)) (fsb : Buf (Elt F) ((sB).view.loc (V d (cV L) (jV L)))) (x : S16.Idx) :
    biasV d L B fsb x = B x := by
  unfold biasV
  rw [View.readAt_apply]
  simp only [Memref.view_whole, View.write_whole_univ, View.read_whole]
  refine congrArg B ((eq_ix1 (n := 16) _).trans ((congrArg ix1 (Fin.ext ?_)).trans (eq_ix1 (n := 16) x).symm))
  show 0 + 1 * (x 0).val = (x 0).val
  omega

/-- The tile's number: worker `2 s + c`. -/
abbrev wid (L : grid0.Coords) : ℕ := 2 * (L 1).val + (L 0).val

theorem wid_lt (L : grid0.Coords) : wid L < 32 := by
  have h0 : (L 0).val < 2 := (L 0).isLt
  have h1 : (L 1).val < 16 := (L 1).isLt
  show 2 * (L 1).val + (L 0).val < 32
  omega

theorem off1_val (L : grid0.Coords) : k0_off1 L 0 = 13312 * wid L := by
  rw [k0_off1_eq]; show 26624 * (L 1).val + 13312 * (L 0).val = 13312 * (2 * (L 1).val + (L 0).val); omega
theorem off3_val (L : grid0.Coords) : k0_off3 L 0 = 512 * wid L := by
  rw [k0_off3_eq]; show 1024 * (L 1).val + 512 * (L 0).val = 512 * (2 * (L 1).val + (L 0).val); omega

/-- The fetched words are the tile's slice of the flat indices. -/
theorem idxP_apply (X : Buf (Elt F) (xLoc d)) (j : S13312.Idx) :
    idxP d L X j = X (ix1 ⟨(13312 * wid L + (j 0).val) % 425984, Nat.mod_lt _ (by decide)⟩) := by
  have hw := wid_lt L
  have hj : (j 0).val < 13312 := (j 0).isLt
  show (xSl L).view.read (Elt F) X j = _
  rw [View.read_apply]
  refine (cast_eq _ _).trans (congrArg X ((eq_ix1 (n := 425984) _).trans (congrArg ix1 (Fin.ext ?_))))
  show k0_off1 L 0 + 1 * (j 0).val = (13312 * wid L + (j 0).val) % 425984
  rw [off1_val]
  have := Nat.mod_eq_of_lt (show 13312 * wid L + (j 0).val < 425984 by omega)
  omega

/-- The gathered rows: entry `z` is the table's row named by the tile's `z`-th flat index. -/
theorem rowsBuf_apply (X : Buf (Elt F) (xLoc d)) (Wf : Buf (Elt F) (wLoc d))
    (fi : Buf (Elt F) ((sI).view.loc (V d (cV L) (jV L))))
    (hin : ∀ (g : Buf (Elt F) ((sI).view.loc (V d (cV L) (jV L)))) (x : S13312.Idx),
      ((sI).view.read (Elt F) ((sI).view.write (Elt F) g (idxP d L X) Finset.univ) x).toNat < S1040384.size gathers_S1040384_S13312.axis)
    (hX : ∀ i, (X i).toNat < 1040384) (z : S13312.Idx) :
    rowsBuf d L X Wf fi hin z
      = Wf (ix1 ⟨(X (ix1 ⟨(13312 * wid L + (z 0).val) % 425984, Nat.mod_lt _ (by decide)⟩)).toNat % 1040384, Nat.mod_lt _ (by decide)⟩) := by
  have h1 : rowsBuf d L X Wf fi hin z = rowsP d L X Wf fi hin z := by
    have := View.read_writes_cons_emb (sR).view ((sR).view.junk (Val := Elt F)) (Rect.whole _) (rowsP d L X Wf fi hin) [] z
    rw [Rect.emb_whole_apply, Memref.view_whole, View.read_whole] at this
    exact this
  rw [h1]
  unfold rowsP SparseCore.gatherPayload
  rw [View.read_apply]
  refine (cast_eq _ _).trans (congrArg Wf ((eq_ix1 (n := 1040384) _).trans (congrArg ix1 (Fin.ext ?_))))
  show 0 + 1 * ((gathers_S1040384_S13312.idx _ z) 0).val = _
  have hax : (gathers_S1040384_S13312.idx (SparseCore.rows ((sI).view.read (Elt F) ((sI).view.write (Elt F) fi (idxP d L X) Finset.univ)) rfl (hin fi)) z) gathers_S1040384_S13312.axis
      = SparseCore.rows ((sI).view.read (Elt F) ((sI).view.write (Elt F) fi (idxP d L X) Finset.univ)) rfl (hin fi) (z gathers_S1040384_S13312.axis') :=
    Shape.Gathers.idx_axis _ _ _
  have hax' := congrArg Fin.val hax
  have hz : (S13312.rowMajor.symm ((z gathers_S1040384_S13312.axis').cast rfl)) = z := by
    apply S13312.rowMajor.injective
    rw [Equiv.apply_symm_apply]
    apply Fin.ext
    rw [Shape.rowMajor_val_one]
    rfl
  have hrow : (SparseCore.rows ((sI).view.read (Elt F) ((sI).view.write (Elt F) fi (idxP d L X) Finset.univ)) rfl (hin fi) (z gathers_S1040384_S13312.axis')).val
      = (idxP d L X z).toNat := by
    unfold SparseCore.rows
    show ((sI).view.read (Elt F) ((sI).view.write (Elt F) fi (idxP d L X) Finset.univ) (S13312.rowMajor.symm ((z gathers_S1040384_S13312.axis').cast rfl))).toNat = _
    rw [hz, View.write_whole_univ]
    rfl
  rw [idxP_apply] at hrow
  have hlt := hX (ix1 ⟨(13312 * wid L + (z 0).val) % 425984, Nat.mod_lt _ (by decide)⟩)
  have := Nat.mod_eq_of_lt hlt
  show 0 + 1 * ((gathers_S1040384_S13312.idx _ z) gathers_S1040384_S13312.axis).val
    = (X (ix1 ⟨(13312 * wid L + (z 0).val) % 425984, Nat.mod_lt _ (by decide)⟩)).toNat % 1040384
  rw [hax', hrow, this]
  omega

theorem sum26_congr {α : Type} (add : α → α → α) {b b' : α} {v v' : ℕ → α} (hb : b = b') (hv : ∀ f, f < 26 → v f = v' f) :
    sum26 add b v = sum26 add b' v' := by
  subst hb
  unfold sum26
  exact List.foldl_ext _ _ _ (fun a f hf => by rw [hv f (List.mem_range.mp hf)])

/-- A tile's slice of the flat result starts at `512 w`. -/
theorem oSl_emb (y : S512.Idx) : ((oSl L).view.emb y) = ix1 ⟨512 * wid L + (y 0).val, by
    have := wid_lt L; have h : (y 0).val < 512 := (y 0).isLt; omega⟩ := by
  refine (eq_ix1 (n := 16384) _).trans (congrArg ix1 (Fin.ext ?_))
  show k0_off3 L 0 + 1 * (y 0).val = 512 * wid L + (y 0).val
  rw [off3_val]; omega

/-- The tile's 512 sums are the flat result's values on its slice, whatever the scratch buffers held before. -/
theorem tile_value (X : Buf (Elt F) (xLoc d)) (Wf : Buf (Elt F) (wLoc d)) (B : Buf (Elt F) (bLoc d))
    (fi : Buf (Elt F) ((sI).view.loc (V d (cV L) (jV L)))) (fso : Buf (Elt F) ((sO).view.loc (V d (cV L) (jV L))))
    (fsb : Buf (Elt F) ((sB).view.loc (V d (cV L) (jV L))))
    (hin : ∀ (g : Buf (Elt F) ((sI).view.loc (V d (cV L) (jV L)))) (x : S13312.Idx),
      ((sI).view.read (Elt F) ((sI).view.write (Elt F) g (idxP d L X) Finset.univ) x).toNat < S1040384.size gathers_S1040384_S13312.axis)
    (hX : ∀ i, (X i).toNat < 1040384) (y : S512.Idx) :
    outAt d L (rowsBuf d L X Wf fi hin) (biasV d L B fsb) fso 32 y = GOv X Wf B ((oSl L).view.emb y) := by
  have hw := wid_lt L
  have hy : (y 0).val < 512 := (y 0).isLt
  rw [outAt_apply d L _ _ _ 32 (le_refl _) y (by omega), stepPay_apply, oSl_emb]
  unfold GOv
  refine sum26_congr _ ?_ ?_
  · rw [biasV_apply]
    refine congrArg B (congrArg ix1 (Fin.ext ?_))
    show (y 0).val % 16 = (512 * wid L + (y 0).val) % 16
    omega
  · intro f hf
    rw [rowsBuf_apply d L X Wf fi hin hX]
    have e : (13312 * wid L + (416 * ((y 0).val / 16) + 26 * ((y 0).val % 16) + f) % 13312) % 425984
        = (26 * (512 * wid L + (y 0).val) + f) % 425984 := by
      have h1 : 416 * ((y 0).val / 16) + 26 * ((y 0).val % 16) + f < 13312 := by omega
      rw [Nat.mod_eq_of_lt h1]
      congr 1
      omega
    simp only [tripOf]
    refine congrArg Wf (congrArg ix1 (Fin.ext ?_))
    exact congrArg (fun j : Fin 425984 => (X (ix1 j)).toNat % 1040384) (Fin.ext e)

/-- On its slice, what the tile's last copy leaves in the flat result is the one function of the flat arrays. -/
theorem tile_agree (X : Buf (Elt F) (xLoc d)) (Wf : Buf (Elt F) (wLoc d)) (B : Buf (Elt F) (bLoc d)) (fo : Buf (Elt F) (oLoc d))
    (fi : Buf (Elt F) ((sI).view.loc (V d (cV L) (jV L)))) (fso : Buf (Elt F) ((sO).view.loc (V d (cV L) (jV L))))
    (fsb : Buf (Elt F) ((sB).view.loc (V d (cV L) (jV L))))
    (hin : ∀ (g : Buf (Elt F) ((sI).view.loc (V d (cV L) (jV L)))) (x : S13312.Idx),
      ((sI).view.read (Elt F) ((sI).view.write (Elt F) g (idxP d L X) Finset.univ) x).toNat < S1040384.size gathers_S1040384_S13312.axis)
    (hX : ∀ i, (X i).toNat < 1040384) :
    ∀ i ∈ (oSl L).view.set,
      ((oSl L).view.writes (Elt F) fo [⟨Rect.whole S512, ReadAs.same.apply ((sO).view.read (Elt F)
        (outAt d L (rowsBuf d L X Wf fi hin) (biasV d L B fsb) fso (Scf.trips k0_t1_loop.lb k0_t1_loop.ub k0_t1_loop.st)))⟩]) i
        = GOv X Wf B i := by
  intro i hi
  obtain ⟨y, -, rfl⟩ := Finset.mem_map.mp hi
  have h1 := View.read_writes_cons_emb (oSl L).view fo (Rect.whole S512) (ReadAs.same.apply ((sO).view.read (Elt F)
        (outAt d L (rowsBuf d L X Wf fi hin) (biasV d L B fsb) fso (Scf.trips k0_t1_loop.lb k0_t1_loop.ub k0_t1_loop.st)))) [] y
  rw [Rect.emb_whole_apply, View.read_apply] at h1
  have h2 := (cast_eq _ _).symm.trans h1
  rw [h2]
  show outAt d L (rowsBuf d L X Wf fi hin) (biasV d L B fsb) fso (Scf.trips k0_t1_loop.lb k0_t1_loop.ub k0_t1_loop.st) y = _
  have ht : Scf.trips k0_t1_loop.lb k0_t1_loop.ub k0_t1_loop.st = 32 := by decide
  rw [ht]
  exact tile_value d L X Wf B fi fso fsb hin hX y

end Tile

end Cert.Proof.KB

end
-- ==== Proof.KBTile.lean ====
/-
  One tile's task, run once at a symbolic tile. The fetch of the tile's flat indices and of the bias copies, the gather
  of the table's rows the indices name (every index names a row: the hypothesis on the flat indices), the loop of 32
  trips under the invariant "the gathered rows are untouched and the out scratch holds its first n trips' sums", and the
  copy of the 512 sums to the tile's slice of the flat result — which is then the one function of the flat arrays there.
  The tile returns the three arrays it read at the shares it was given, its scratch buffers and its semaphores at zero.
-/
import proofs.«207406_g23510650978335_cont_sun_m_507_26_alg».proof.Proof.KBValue

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's memrefs, spelt as the body table passes them
local notation "xW" => (Memref.whole Cert.Kernel.main_v0_scv : Memref Cert.Kernel.sig Kind.scVector Space.hbm Cert.Kernel.S425984 EltTy.i32)
local notation "wW" => (Memref.whole Cert.Kernel.main_v2_scv : Memref Cert.Kernel.sig Kind.scVector Space.hbm Cert.Kernel.S1040384 EltTy.f32)
local notation "bW" => (Memref.whole Cert.Kernel.main_v3_scv : Memref Cert.Kernel.sig Kind.scVector Space.hbm Cert.Kernel.S16 EltTy.f32)
local notation "oW" => (Memref.whole Cert.Kernel.main_v4_scv : Memref Cert.Kernel.sig Kind.scVector Space.hbm Cert.Kernel.S16384 EltTy.f32)
local notation "sI" => (Memref.whole Cert.Kernel.cc0_scratch0 : Memref Cert.Kernel.sig Kind.scVector Space.vmem Cert.Kernel.S13312 EltTy.i32)
local notation "sR" => (Memref.whole Cert.Kernel.cc0_scratch1 : Memref Cert.Kernel.sig Kind.scVector Space.vmem Cert.Kernel.S13312 EltTy.f32)
local notation "sO" => (Memref.whole Cert.Kernel.cc0_scratch2 : Memref Cert.Kernel.sig Kind.scVector Space.vmem Cert.Kernel.S512 EltTy.f32)
local notation "sB" => (Memref.whole Cert.Kernel.cc0_scratch3 : Memref Cert.Kernel.sig Kind.scVector Space.vmem Cert.Kernel.S16 EltTy.f32)

variable [FloatOps F]

section Tile

variable (d : Dev nD) (L : grid0.Coords)

abbrev thr (d : Dev nD) (L : grid0.Coords) : Thread nD τ := V d (cV L) (jV L)

abbrev cAcell (d : Dev nD) (c : Fin τ.nSC) (i : Fin τ.nSub) : GSem nD τ sig := (V d c i, .dma cc0_scratch4.sem)
abbrev cGcell (d : Dev nD) (c : Fin τ.nSC) (i : Fin τ.nSub) : GSem nD τ sig := (V d c i, .dma cc0_scratch5.sem)
abbrev cBcell (d : Dev nD) (c : Fin τ.nSC) (i : Fin τ.nSub) : GSem nD τ sig := (V d c i, .dma cc0_scoped0.sem)
abbrev cOcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cGcell d (cV L) (jV L)) 0 ∗ semVal (cBcell d (cV L) (jV L)) 0 ∗ semVal (cOcell d (cV L) (jV L)) 0
          ∗ bigSep (((((ownCells (V d (cV L) (jV L))).erase (cAcell d (cV L) (jV L))).erase (cGcell d (cV L) (jV L))).erase (cBcell d (cV L) (jV L))).erase (cOcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scratch4.sem : SemLoc sig).isScoped .scVector = true; decide⟩),
    SparseCore.bigSep_erase' (Finset.mem_erase.mpr ⟨by simp [cAcell, cGcell]; decide, (mem_ownCells (g := cGcell d (cV L) (jV L))).mpr ⟨rfl, by
      show (SemLoc.dma cc0_scratch5.sem : SemLoc sig).isScoped .scVector = true; decide⟩⟩),
    SparseCore.bigSep_erase' (Finset.mem_erase.mpr ⟨by simp [cGcell, cBcell]; decide, Finset.mem_erase.mpr ⟨by simp [cAcell, cBcell]; decide,
      (mem_ownCells (g := cBcell d (cV L) (jV L))).mpr ⟨rfl, by show (SemLoc.dma cc0_scoped0.sem : SemLoc sig).isScoped .scVector = true; decide⟩⟩⟩),
    SparseCore.bigSep_erase' (Finset.mem_erase.mpr ⟨by simp [cBcell, cOcell]; decide, Finset.mem_erase.mpr ⟨by simp [cGcell, cOcell]; decide, Finset.mem_erase.mpr ⟨by simp [cAcell, cOcell]; decide,
      (mem_ownCells (g := cOcell d (cV L) (jV L))).mpr ⟨rfl, by show (SemLoc.dma cc0_scoped1.sem : SemLoc sig).isScoped .scVector = true; decide⟩⟩⟩⟩)]

omit [FloatOps F] in
/-- Among the tile's own buffers: the index list, the gathered rows, the 512 sums, the bias copies — and whatever else it owns. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

/-- The loop's invariant: the gathered rows untouched, the out scratch at its first `n` trips' sums. -/
def inv (L : grid0.Coords) (R : Buf (Elt F) ((sR).view.loc (V d (cV L) (jV L)))) (v10 : Vec F S16 .f32)
    (f0 : Buf (Elt F) ((sO).view.loc (V d (cV L) (jV L)))) (n : ℕ) (_ : Unit) : sProp 𝕄 :=
  iprop(((sR).view.loc (V d (cV L) (jV L)) ↦{fullShare} R) ∗ ((sO).view.loc (V d (cV L) (jV L)) ↦{fullShare} outAt d L R v10 f0 n))

/-- One trip: twenty-six indexed loads of the rows, their sum from the bias, stored at the trip's sixteen lanes. -/
theorem region (R : Buf (Elt F) ((sR).view.loc (V d (cV L) (jV L)))) (v10 : Vec F S16 .f32)
    (f0 : Buf (Elt F) ((sO).view.loc (V d (cV L) (jV L)))) (k : Fin k0_t1_loop.trips) (acc : Unit) :
    inv d L R v10 f0 k.val acc
      ⊢ wp frame (wpE (defs₀ (F := F)) 𝒱₀ (V d (cV L) (jV L)) none) Set.univ
          (k0_t1_body L xW (Memref.isWhole_whole _) wW (Memref.isWhole_whole _) bW (Memref.isWhole_whole _) oW (Memref.isWhole_whole _)
            sI (Memref.isWhole_whole _) sR (Memref.isWhole_whole _) sO (Memref.isWhole_whole _) sB (Memref.isWhole_whole _) cc0_scratch4 cc0_scratch5 cc0_scoped0 cc0_scoped1 v10 k acc)
          (inv d L R v10 f0 (k.val + 1)) := by
  unfold inv
  rw [outAt_succ]
  iintro ⟨Hsr, Hso⟩
  unfold k0_t1_body
  sl_exec (disch := exact chk_c _ _ (by decide))
  iterate 26 (rw [SparseCore.vectorLoadIdx_bind (c := V d (cV L) (jV L))]; sl_exec (disch := exact chk_c _ _ (by decide)))
  sl_step
  isplitl [Hsr]; · iexact Hsr
  iexact Hso

/-- The task on the tile at grid point `L` of device `d`. -/
theorem tile_body (hF : (K (F := F)).Facts) (O : CellTallies nD τ sig (HIx 1)) (W : Waits sig (HIx 1)) (hO : ∀ g, O g none = 0)
    (q1 q2 q3 : PosShare TreeShare) (X : Buf (Elt F) (xLoc d)) (Wf : Buf (Elt F) (wLoc d)) (B : Buf (Elt F) (bLoc d)) (fo : Buf (Elt F) (oLoc d))
    (hX : ∀ i, (X i).toNat < 1040384) :
    iprop(levAts (K (F := F)).L (K (F := F)).lev ∗ emp
        ∗ ((xLoc d ↦{q1} X) ∗ (wLoc d ↦{q2} Wf) ∗ (bLoc d ↦{q3} B) ∗ (oLoc d ↦[(oSl L).view.set]{fullShare} fo))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__fm_linear_body L xW (Memref.isWhole_whole _) wW (Memref.isWhole_whole _) bW (Memref.isWhole_whole _) oW (Memref.isWhole_whole _)
            sI (Memref.isWhole_whole _) sR (Memref.isWhole_whole _) sO (Memref.isWhole_whole _) sB (Memref.isWhole_whole _) cc0_scratch4 cc0_scratch5 cc0_scoped0 cc0_scoped1)
          fun _ => (iprop(((xLoc d ↦{q1} X) ∗ (wLoc d ↦{q2} Wf) ∗ (bLoc d ↦{q3} B) ∗ (oLoc d ↦[(oSl L).view.set]{fullShare} GOv X Wf B))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  rw [cc0__fm_linear_body_eq_skeleton]; unfold cc0__fm_linear_body_skel
  rw [(K (F := F)).scopedBufs_V hF d (cV L) (jV L), SparseCore.Cfg.scopedSems0_V (Val := Elt F) d (cV L) (jV L), ownSems0_V, ownBufs_V]
  iintro ⟨#Hlv, -, ⟨Hx, Hw, Hb, Ho⟩, ⟨⟨%fi, Hsi⟩, ⟨%fr, Hsr⟩, ⟨%fso, Hso⟩, ⟨%fsb, Hsb⟩, Hbufs⟩, ⟨HsemA, HsemG, HsemB, HsemO, Hsems⟩, HO⟩
  ihave Hmw := ((K (F := F)).mayWaits_none (thr := V d (cV L) (jV L)) hO) $$ Hlv
  -- the arrays and the scratch buffers as the tile's memrefs address them
  ihave Hx := (Entails.of_eq (show (xLoc d ↦{q1} X : sProp 𝕄) = ((xW).view.loc (V d (cV L) (jV L)) ↦{q1} X) from rfl)) $$ Hx
  ihave Hw := (Entails.of_eq (show (wLoc d ↦{q2} Wf : sProp 𝕄) = ((wW).view.loc (V d (cV L) (jV L)) ↦{q2} Wf) from rfl)) $$ Hw
  ihave Hb := (Entails.of_eq (show (bLoc d ↦{q3} B : sProp 𝕄) = ((bW).view.loc (V d (cV L) (jV L)) ↦{q3} B) from rfl)) $$ Hb
  ihave Ho := (Entails.of_eq (show (oLoc d ↦[(oSl L).view.set]{fullShare} fo : sProp 𝕄) = ((oSl L).view.loc (V d (cV L) (jV L)) ↦[(oSl L).view.set]{fullShare} fo) from rfl)) $$ Ho
  ihave Hsi := (Entails.of_eq (show ((V d (cV L) (jV L)).loc cc0_scratch0 ↦{fullShare} fi : sProp 𝕄) = ((sI).view.loc (V d (cV L) (jV L)) ↦{fullShare} fi) from rfl)) $$ Hsi
  ihave Hsr := (Entails.of_eq (show ((V d (cV L) (jV L)).loc cc0_scratch1 ↦{fullShare} fr : sProp 𝕄) = ((sR).view.loc (V d (cV L) (jV L)) ↦{fullShare} fr) from rfl)) $$ Hsr
  ihave Hso := (Entails.of_eq (show ((V d (cV L) (jV L)).loc cc0_scratch2 ↦{fullShare} fso : sProp 𝕄) = ((sO).view.loc (V d (cV L) (jV L)) ↦{fullShare} fso) from rfl)) $$ Hso
  ihave Hsb := (Entails.of_eq (show ((V d (cV L) (jV L)).loc cc0_scratch3 ↦{fullShare} fsb : sProp 𝕄) = ((sB).view.loc (V d (cV L) (jV L)) ↦{fullShare} fsb) from rfl)) $$ Hsb
  have hin := idx_inb d L X hX
  -- the two fetches, the gather, the load of the bias copies
  sl_exec
  -- the 32 trips
  sl_for (inv d L (rowsBuf d L X Wf fi hin) (biasV d L B fsb) fso) $$ [Hsr Hso]
  case region => exact region d L _ _ _
  · unfold inv outAt
    isplitl [Hsr]; · iexact Hsr
    iexact Hso
  iintro %_ HI
  unfold inv
  icases HI with ⟨Hsr, Hso⟩
  -- the copy of the sums to the tile's slice of the flat result
  sl_exec
  sl_step
  ihave Ho := (Entails.of_eq (pointsTo_congr (tile_agree d L X Wf B fo fi fso fsb hin hX))) $$ Ho
  isplitl [Hx Hw Hb Ho]
  · isplitl [Hx]; · iexact Hx
    isplitl [Hw]; · iexact Hw
    isplitl [Hb]; · iexact Hb
    iexact Ho
  isplitl [Hsi Hsr Hso Hsb Hbufs]
  · isplitl [Hsi]; · iexists _; iexact Hsi
    isplitl [Hsr]; · iexists _; iexact Hsr
    isplitl [Hso]; · iexists _; iexact Hso
    isplitl [Hsb]; · iexists _; iexact Hsb
    iexact Hbufs
  isplitl [HsemA HsemG HsemB HsemO Hsems]
  · isplitl [HsemA]; · iexact HsemA
    isplitl [HsemG]; · iexact HsemG
    isplitl [HsemB]; · iexact HsemB
    isplitl [HsemO]; · iexact HsemO
    iexact Hsems
  iexists _; isplitr
  swap
  · iexact HO
  ipureintro; intro p hp
  rcases Finset.mem_insert.mp hp with hp | hp
  · exact .inr (by subst hp; rfl)
  rcases Finset.mem_insert.mp hp with hp | hp
  · exact .inr (by subst hp; rfl)
  rcases Finset.mem_insert.mp hp with hp | hp
  · exact .inr (by subst hp; rfl)
  rcases Finset.mem_insert.mp hp with hp | hp
  · exact .inr (by subst hp; rfl)
  · exact .inl hp

end Tile

end Cert.Proof.KB

end
-- ==== Proof.KBLaunch.lean ====
/-
  The launch. @main reshapes the indices to a flat array, pads the table by 384 zero rows and flattens it, copies the bias
  sixteen times, starts the kernel on 2 SparseCores × 16 tiles and reshapes the flat result. The three arrays the tiles only
  read go out as read shares, one per SparseCore and then one per tile; the flat result goes out in the 32 slices the tiles
  write, and comes back, slice by slice, at the one function of the flat arrays. What remains with the TensorCore at the
  end: the three arguments at their launch contents and the result at that function, reshaped.
-/
import proofs.«207406_g23510650978335_cont_sun_m_507_26_alg».proof.Proof.KBTile
import Idealize.ShloMosaic.Lib.Pipeline.Frame

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.TcCoe
open Idealize.ShloMosaic.StableHlo (held held_sub_split held_congr)

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The host operations around the call -/

/-- Before the call: the flat indices, the zero to pad with, the padded table and its flattening, the bias copies. -/
abbrev ops1 : List (HloOp τ sig (Elt F)) :=
  [ StableHlo.reshape main_arg0 main_v0 rfl shapeCasts_S16384x26_S425984,
    StableHlo.nullary main_c (constantI S_ 32 0#32),
    StableHlo.TRef.unary (.of main_c : StableHlo.TRef sig ⟨S_, .i32⟩) main_call0.v0 (sitofp .f32),
    StableHlo.TRef.binary (.of main_arg1 : StableHlo.TRef sig ⟨S1040000x1, .f32⟩) main_call0.v0 main_call0.v1
      (fun (x : (⟨S1040000x1, .f32⟩ : BufTy).Contents (Elt F)) (v : (⟨S_, .f32⟩ : BufTy).Contents (Elt F)) =>
        pad S1040384x1 ![0, 0] ![384, 0] ![0, 0] x v pads_S1040000x1_S1040384x1_03840_000 h_S_),
    StableHlo.reshape main_v1 main_v2 rfl shapeCasts_S1040384x1_S1040384,
    StableHlo.unary main_arg2 main_v3 (broadcastInDim S16 ![0] bcast_S1_S16_0 : (⟨S1, .f32⟩ : BufTy).Contents (Elt F) → (⟨S16, .f32⟩ : BufTy).Contents (Elt F)) ]

/-- After the call: the flat result as a column. -/
abbrev ops2 : List (HloOp τ sig (Elt F)) :=
  [ StableHlo.reshape main_v4 main_v5 rfl shapeCasts_S16384_S16384x1 ]

theorem main_eq (d : Dev nD) :
    main (F := F) d = (StableHlo.seq ops1 >>= fun _ => (sc (F := F)).run d 0 >>= fun _ => StableHlo.seq ops2) := by
  simp only [main, fn_pad.body, StableHlo.seq, bind_assoc, pure_bind]

theorem hops1 : ∀ op ∈ (ops1 : List (HloOp τ sig (Elt F))), op.bufs ⊆ Pipeline.ucRefs τ sig := by
  intro op hop
  simp only [List.mem_cons, List.mem_nil_iff, _root_.or_false] at hop
  rcases hop with rfl | rfl | rfl | rfl | rfl | rfl
  · exact Pipeline.sub_ucRefs _ (StableHlo.reshape_bufs_sub ..)
  · exact Pipeline.sub_ucRefs _ (StableHlo.nullary_bufs_sub ..)
  · exact Pipeline.sub_ucRefs _ (StableHlo.unary_bufs_sub ..)
  · exact Pipeline.sub_ucRefs _ (StableHlo.binary_bufs_sub ..)
  · exact Pipeline.sub_ucRefs _ (StableHlo.reshape_bufs_sub ..)
  · exact Pipeline.sub_ucRefs _ (StableHlo.unary_bufs_sub ..)
theorem hfresh1 : ∀ op ∈ (ops1 : List (HloOp τ sig (Elt F))), op.fresh = ∅ := by
  intro op hop
  simp only [List.mem_cons, List.mem_nil_iff, _root_.or_false] at hop
  rcases hop with rfl | rfl | rfl | rfl | rfl | rfl <;> rfl
theorem hops2 : ∀ op ∈ (ops2 : List (HloOp τ sig (Elt F))), op.bufs ⊆ Pipeline.ucRefs τ sig := by
  intro op hop
  obtain rfl := List.mem_singleton.mp hop
  exact Pipeline.sub_ucRefs _ (StableHlo.reshape_bufs_sub ..)
theorem hfresh2 : ∀ op ∈ (ops2 : List (HloOp τ sig (Elt F))), op.fresh = ∅ := by
  intro op hop
  obtain rfl := List.mem_singleton.mp hop
  rfl

/-! ## The arrays' contents -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev x' : DevRef τ sig := Proc.devRef .tc (main_v0 : Ref sig .tc)
abbrev w' : DevRef τ sig := Proc.devRef .tc (main_v2 : Ref sig .tc)
abbrev b' : DevRef τ sig := Proc.devRef .tc (main_v3 : Ref sig .tc)
abbrev o' : DevRef τ sig := Proc.devRef .tc (main_v4 : Ref sig .tc)
abbrev r' : DevRef τ sig := Proc.devRef .tc (main_v5 : Ref sig .tc)

/-- The launch contents, after the first host stretch, after the call, and at the end. -/
def V0 (d : Dev nD) : Valuation τ sig (Elt F) := fun b => m (d, b)
def VA (d : Dev nD) : Valuation τ sig (Elt F) := StableHlo.after ops1 (V0 m d)
/-- The flat indices, the padded flat table, the bias copies, the flat result. -/
def Xf (d : Dev nD) : Buf (Elt F) (xLoc d) := VA m d x'
def Wff (d : Dev nD) : Buf (Elt F) (wLoc d) := VA m d w'
def Bf (d : Dev nD) : Buf (Elt F) (bLoc d) := VA m d b'
def GOf (d : Dev nD) : Buf (Elt F) (oLoc d) := GOv (Xf m d) (Wff m d) (Bf m d)
def VB (d : Dev nD) : Valuation τ sig (Elt F) := Function.update (VA m d) o' (GOf m d)
def VC (d : Dev nD) : Valuation τ sig (Elt F) := StableHlo.after ops2 (VB m d)

/-- What the proof asks of the launch memory: every flat index names a row of the padded table. -/
def PreOK : Prop := ∀ (d : Dev nD) (i : S425984.Idx), (Xf m d i).toNat < 1040384

/-! ## What the handshakes carry -/

abbrev qC (c : Fin 2) : PosShare TreeShare := Transfers.shareTok fullShare 2 c
abbrev qT (c : Fin 2) (i : Fin 16) : PosShare TreeShare := Transfers.shareTok (qC c) 16 i
/-- Tile (c, i)'s slice of the flat result, and a SparseCore's sixteen slices. -/
abbrev blk (c : Fin 2) (i : Fin 16) : Finset S16384.Idx := (oSl (coordsV c i)).view.set
abbrev coreSet (c : Fin 2) : Finset S16384.Idx := Finset.univ.biUnion (blk c)

theorem bound_zero : grid0.bound 0 = 2 := rfl
theorem bound_one : grid0.bound 1 = 16 := rfl

/-- The call takes, per SparseCore, a read share of the three flat arrays and the SparseCore's slices of the flat result;
    each tile a read share of the three and its slice; and brings them back, the result's slices at the one function. -/
def P : (K (F := F)).Pay (nD := nD) (Val := Elt F) (Name := ℕ) (U := UU) where
  st := fun q d c => match q with
    | 0 => iprop((xLoc d ↦{qC (Fin.cast nCore_zero c)} Xf m d) ∗ (wLoc d ↦{qC (Fin.cast nCore_zero c)} Wff m d)
        ∗ (bLoc d ↦{qC (Fin.cast nCore_zero c)} Bf m d) ∗ (oLoc d ↦[coreSet (Fin.cast nCore_zero c)]{fullShare} VA m d o'))
  dn := fun q d c => match q with
    | 0 => iprop((xLoc d ↦{qC (Fin.cast nCore_zero c)} Xf m d) ∗ (wLoc d ↦{qC (Fin.cast nCore_zero c)} Wff m d)
        ∗ (bLoc d ↦{qC (Fin.cast nCore_zero c)} Bf m d) ∗ (oLoc d ↦[coreSet (Fin.cast nCore_zero c)]{fullShare} GOf m d))
  go := fun q d c i => match q with
    | 0 => iprop((xLoc d ↦{qT (Fin.cast nCore_zero c) (Fin.cast nSub_zero i)} Xf m d) ∗ (wLoc d ↦{qT (Fin.cast nCore_zero c) (Fin.cast nSub_zero i)} Wff m d)
        ∗ (bLoc d ↦{qT (Fin.cast nCore_zero c) (Fin.cast nSub_zero i)} Bf m d)
        ∗ (oLoc d ↦[blk (Fin.cast nCore_zero c) (Fin.cast nSub_zero i)]{fullShare} VA m d o'))
  td := fun q d c i => match q with
    | 0 => iprop((xLoc d ↦{qT (Fin.cast nCore_zero c) (Fin.cast nSub_zero i)} Xf m d) ∗ (wLoc d ↦{qT (Fin.cast nCore_zero c) (Fin.cast nSub_zero i)} Wff m d)
        ∗ (bLoc d ↦{qT (Fin.cast nCore_zero c) (Fin.cast nSub_zero i)} Bf m d)
        ∗ (oLoc d ↦[blk (Fin.cast nCore_zero c) (Fin.cast nSub_zero i)]{fullShare} GOf m d))
  x := fun _ _ => iprop(emp)

instance P_storable : (P (F := F) m).IsStorable where
  st q d c := match q with
    | 0 => (inferInstance : BI.Storable (upEmb : UEmb _ 𝕄) iprop((xLoc d ↦{qC (Fin.cast nCore_zero c)} Xf m d) ∗ (wLoc d ↦{qC (Fin.cast nCore_zero c)} Wff m d)
        ∗ (bLoc d ↦{qC (Fin.cast nCore_zero c)} Bf m d) ∗ (oLoc d ↦[coreSet (Fin.cast nCore_zero c)]{fullShare} VA m d o')))
  dn q d c := match q with
    | 0 => (inferInstance : BI.Storable (upEmb : UEmb _ 𝕄) iprop((xLoc d ↦{qC (Fin.cast nCore_zero c)} Xf m d) ∗ (wLoc d ↦{qC (Fin.cast nCore_zero c)} Wff m d)
        ∗ (bLoc d ↦{qC (Fin.cast nCore_zero c)} Bf m d) ∗ (oLoc d ↦[coreSet (Fin.cast nCore_zero c)]{fullShare} GOf m d)))
  go q d c i := match q with
    | 0 => (inferInstance : BI.Storable (upEmb : UEmb _ 𝕄) iprop((xLoc d ↦{qT (Fin.cast nCore_zero c) (Fin.cast nSub_zero i)} Xf m d) ∗ (wLoc d ↦{qT (Fin.cast nCore_zero c) (Fin.cast nSub_zero i)} Wff m d)
        ∗ (bLoc d ↦{qT (Fin.cast nCore_zero c) (Fin.cast nSub_zero i)} Bf m d)
        ∗ (oLoc d ↦[blk (Fin.cast nCore_zero c) (Fin.cast nSub_zero i)]{fullShare} VA m d o')))
  td q d c i := match q with
    | 0 => (inferInstance : BI.Storable (upEmb : UEmb _ 𝕄) iprop((xLoc d ↦{qT (Fin.cast nCore_zero c) (Fin.cast nSub_zero i)} Xf m d) ∗ (wLoc d ↦{qT (Fin.cast nCore_zero c) (Fin.cast nSub_zero i)} Wff m d)
        ∗ (bLoc d ↦{qT (Fin.cast nCore_zero c) (Fin.cast nSub_zero i)} Bf m d)
        ∗ (oLoc d ↦[blk (Fin.cast nCore_zero c) (Fin.cast nSub_zero i)]{fullShare} GOf m d)))

/-! ## The tile's obligation -/

local notation "xW" => (Memref.whole Cert.Kernel.main_v0_scv : Memref Cert.Kernel.sig Kind.scVector Space.hbm Cert.Kernel.S425984 EltTy.i32)
local notation "wW" => (Memref.whole Cert.Kernel.main_v2_scv : Memref Cert.Kernel.sig Kind.scVector Space.hbm Cert.Kernel.S1040384 EltTy.f32)
local notation "bW" => (Memref.whole Cert.Kernel.main_v3_scv : Memref Cert.Kernel.sig Kind.scVector Space.hbm Cert.Kernel.S16 EltTy.f32)
local notation "oW" => (Memref.whole Cert.Kernel.main_v4_scv : Memref Cert.Kernel.sig Kind.scVector Space.hbm Cert.Kernel.S16384 EltTy.f32)
local notation "sI" => (Memref.whole Cert.Kernel.cc0_scratch0 : Memref Cert.Kernel.sig Kind.scVector Space.vmem Cert.Kernel.S13312 EltTy.i32)
local notation "sR" => (Memref.whole Cert.Kernel.cc0_scratch1 : Memref Cert.Kernel.sig Kind.scVector Space.vmem Cert.Kernel.S13312 EltTy.f32)
local notation "sO" => (Memref.whole Cert.Kernel.cc0_scratch2 : Memref Cert.Kernel.sig Kind.scVector Space.vmem Cert.Kernel.S512 EltTy.f32)
local notation "sB" => (Memref.whole Cert.Kernel.cc0_scratch3 : Memref Cert.Kernel.sig Kind.scVector Space.vmem Cert.Kernel.S16 EltTy.f32)

theorem defs₀_vector (c : Fin τ.nSC) (s : Fin τ.nSub) :
    defs₀ (F := F) (.scVector c s) 0 ()
      = SparseCore.onTile hcore0 hsub0 (fun c s => cc0__fm_linear_body (coordsV c s)
          xW (Memref.isWhole_whole _) wW (Memref.isWhole_whole _) bW (Memref.isWhole_whole _) oW (Memref.isWhole_whole _)
          sI (Memref.isWhole_whole _) sR (Memref.isWhole_whole _) sO (Memref.isWhole_whole _) sB (Memref.isWhole_whole _)
          cc0_scratch4 cc0_scratch5 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  -- the tiles signal nobody: nothing is owed beyond the launch's own handshakes
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF O W hO _ _ _ (Xf m d) (Wff m d) (Bf m d) (VA m d o') (hpre d)).trans
    (wp_mono frame _ _ fun _ => obl_post)

/-! ## The slices of the flat result -/

omit [FloatOps F] in
/-- Tile (c, s) writes the 512 entries whose block number is `2 s + c`. -/
theorem mem_blk (c : Fin 2) (s : Fin 16) (i : S16384.Idx) : i ∈ blk c s ↔ (i 0).val / 512 = 2 * s.val + c.val := by
  have hw : wid (coordsV c s) = 2 * s.val + c.val := rfl
  have h512 : S512.size 0 = 512 := rfl
  show i ∈ ((View.whole main_v4_scv).slice (Rect.unit (s := S16384) (k0_off3 (coordsV c s)) S512.size (k0_off3_inb _))).set ↔ _
  rw [View.set_slice_whole, Rect.mem_set_unit]
  constructor
  · intro h
    have h0 := h (0 : Fin 1)
    rw [off3_val, hw] at h0
    omega
  · intro h a
    match a with
    | ⟨0, _⟩ =>
      show k0_off3 (coordsV c s) 0 ≤ (i 0).val ∧ (i 0).val < k0_off3 (coordsV c s) 0 + S512.size 0
      rw [off3_val, hw]
      omega

omit [FloatOps F] in
theorem blk_disj (c : Fin 2) : ∀ i ∈ (Finset.univ : Finset (Fin 16)), ∀ j ∈ (Finset.univ : Finset (Fin 16)), i ≠ j → Disjoint (blk c i) (blk c j) := by
  intro i _ j _ hij
  refine Finset.disjoint_left.mpr fun x hi hj => hij (Fin.ext ?_)
  have h1 := (mem_blk c i x).mp hi
  have h2 := (mem_blk c j x).mp hj
  omega

omit [FloatOps F] in
theorem mem_coreSet (c : Fin 2) (x : S16384.Idx) : x ∈ coreSet c ↔ ((x 0).val / 512) % 2 = c.val := by
  have hx : (x 0).val < 16384 := (x 0).isLt
  have hc : c.val < 2 := c.isLt
  unfold coreSet
  rw [Finset.mem_biUnion]
  constructor
  · rintro ⟨s, -, hs⟩
    have := (mem_blk c s x).mp hs
    omega
  · intro h
    refine ⟨⟨(x 0).val / 512 / 2, by omega⟩, Finset.mem_univ _, (mem_blk c _ x).mpr ?_⟩
    show (x 0).val / 512 = 2 * ((x 0).val / 512 / 2) + c.val
    omega

omit [FloatOps F] in
theorem core_disj : ∀ c ∈ (Finset.univ : Finset (Fin 2)), ∀ c' ∈ (Finset.univ : Finset (Fin 2)), c ≠ c' → Disjoint (coreSet c) (coreSet c') := by
  intro c _ c' _ hcc
  refine Finset.disjoint_left.mpr fun x h1 h2 => hcc (Fin.ext ?_)
  have := (mem_coreSet c x).mp h1
  have := (mem_coreSet c' x).mp h2
  omega

omit [FloatOps F] in
theorem core_cover : (Finset.univ : Finset (Fin 2)).biUnion coreSet = Finset.univ := by
  refine Finset.eq_univ_iff_forall.mpr fun x => Finset.mem_biUnion.mpr
    ⟨⟨((x 0).val / 512) % 2, Nat.mod_lt _ (by decide)⟩, Finset.mem_univ _, (mem_coreSet _ x).mpr rfl⟩

/-! ## A SparseCore's operands split among its tiles -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show iprop((xLoc d ↦{qC (Fin.cast nCore_zero c)} Xf m d) ∗ (wLoc d ↦{qC (Fin.cast nCore_zero c)} Wff m d)
        ∗ (bLoc d ↦{qC (Fin.cast nCore_zero c)} Bf m d) ∗ (oLoc d ↦[coreSet (Fin.cast nCore_zero c)]{fullShare} VA m d o'))
    ⊢ |={Set.univ}=> iprop(
      (bigSep Finset.univ fun i : Fin ((K (F := F)).nSub 0) =>
        iprop((xLoc d ↦{qT (Fin.cast nCore_zero c) (Fin.cast nSub_zero i)} Xf m d) ∗ (wLoc d ↦{qT (Fin.cast nCore_zero c) (Fin.cast nSub_zero i)} Wff m d)
          ∗ (bLoc d ↦{qT (Fin.cast nCore_zero c) (Fin.cast nSub_zero i)} Bf m d)
          ∗ (oLoc d ↦[blk (Fin.cast nCore_zero c) (Fin.cast nSub_zero i)]{fullShare} VA m d o')))
      ∗ ((bigSep Finset.univ fun i : Fin ((K (F := F)).nSub 0) =>
          iprop((xLoc d ↦{qT (Fin.cast nCore_zero c) (Fin.cast nSub_zero i)} Xf m d) ∗ (wLoc d ↦{qT (Fin.cast nCore_zero c) (Fin.cast nSub_zero i)} Wff m d)
            ∗ (bLoc d ↦{qT (Fin.cast nCore_zero c) (Fin.cast nSub_zero i)} Bf m d)
            ∗ (oLoc d ↦[blk (Fin.cast nCore_zero c) (Fin.cast nSub_zero i)]{fullShare} GOf m d)))
          -∗ iprop((xLoc d ↦{qC (Fin.cast nCore_zero c)} Xf m d) ∗ (wLoc d ↦{qC (Fin.cast nCore_zero c)} Wff m d)
            ∗ (bLoc d ↦{qC (Fin.cast nCore_zero c)} Bf m d) ∗ (oLoc d ↦[coreSet (Fin.cast nCore_zero c)]{fullShare} GOf m d))))
  generalize Fin.cast nCore_zero c = c'
  rw [bigSep_tasks (F := F) (fun i => iprop((xLoc d ↦{qT c' i} Xf m d) ∗ (wLoc d ↦{qT c' i} Wff m d) ∗ (bLoc d ↦{qT c' i} Bf m d) ∗ (oLoc d ↦[blk c' i]{fullShare} VA m d o'))),
    bigSep_tasks (F := F) (fun i => iprop((xLoc d ↦{qT c' i} Xf m d) ∗ (wLoc d ↦{qT c' i} Wff m d) ∗ (bLoc d ↦{qT c' i} Bf m d) ∗ (oLoc d ↦[blk c' i]{fullShare} GOf m d))),
    bigSep_sep', bigSep_sep', bigSep_sep', bigSep_sep', bigSep_sep', bigSep_sep']
  unfold coreSet
  rw [pointsTo_biUnion Finset.univ (ℓ := oLoc d) (blk c') (blk_disj c'), pointsTo_biUnion Finset.univ (ℓ := oLoc d) (blk c') (blk_disj c')]
  iintro ⟨Hx, Hw, Hb, Ho⟩
  ihave Hx := (Transfers.pointsTo_toks_split (qC c') 16) $$ Hx
  ihave Hw := (Transfers.pointsTo_toks_split (qC c') 16) $$ Hw
  ihave Hb := (Transfers.pointsTo_toks_split (qC c') 16) $$ Hb
  icases Hx with ⟨Hxd, Hxs⟩
  icases Hw with ⟨Hwd, Hws⟩
  icases Hb with ⟨Hbd, Hbs⟩
  imodintro
  isplitl [Hxs Hws Hbs Ho]
  · isplitl [Hxs]; · iexact Hxs
    isplitl [Hws]; · iexact Hws
    isplitl [Hbs]; · iexact Hbs
    iexact Ho
  iintro ⟨Hxs, Hws, Hbs, Ho⟩
  isplitl [Hxd Hxs]
  · iapply (Transfers.pointsTo_toks_join (qC c') 16); isplitl [Hxd]; · iexact Hxd
    iexact Hxs
  isplitl [Hwd Hws]
  · iapply (Transfers.pointsTo_toks_join (qC c') 16); isplitl [Hwd]; · iexact Hwd
    iexact Hws
  isplitl [Hbd Hbs]
  · iapply (Transfers.pointsTo_toks_join (qC c') 16); isplitl [Hbd]; · iexact Hbd
    iexact Hbs
  iexact Ho

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The four arrays the call takes and the four the claim speaks of. -/
abbrev T4 : Finset (DevRef τ sig) := {x', w', b', o'}
abbrev A4 : Finset (DevRef τ sig) := {a0', a1', a2', r'}

omit [FloatOps F] in
theorem T4_sub : T4 ⊆ Pipeline.ucRefs τ sig := by decide
omit [FloatOps F] in
theorem A4_sub : A4 ⊆ Pipeline.ucRefs τ sig := by decide

omit [FloatOps F] in
theorem held_T4 (d : Dev nD) (W : Valuation τ sig (Elt F)) :
    (held (T d) T4 W : sProp 𝕄) = iprop((xLoc d ↦{fullShare} W x') ∗ (wLoc d ↦{fullShare} W w') ∗ (bLoc d ↦{fullShare} W b') ∗ (oLoc d ↦{fullShare} W o')) := by
  unfold held T4
  rw [SparseCore.bigSep_insert' (by decide), SparseCore.bigSep_insert' (by decide), SparseCore.bigSep_insert' (by decide), bigSep_singleton]
omit [FloatOps F] in
theorem held_A4 (d : Dev nD) (W : Valuation τ sig (Elt F)) :
    (held (T d) A4 W : sProp 𝕄) = iprop((a0Loc d ↦{fullShare} W a0') ∗ (a1Loc d ↦{fullShare} W a1') ∗ (a2Loc d ↦{fullShare} W a2') ∗ (rLoc d ↦{fullShare} W r')) := by
  unfold held A4
  rw [SparseCore.bigSep_insert' (by decide), SparseCore.bigSep_insert' (by decide), SparseCore.bigSep_insert' (by decide), bigSep_singleton]

theorem VB_x (d : Dev nD) : VB m d x' = Xf m d := Function.update_of_ne (show x' ≠ o' by decide) _ _
theorem VB_w (d : Dev nD) : VB m d w' = Wff m d := Function.update_of_ne (show w' ≠ o' by decide) _ _
theorem VB_b (d : Dev nD) : VB m d b' = Bf m d := Function.update_of_ne (show b' ≠ o' by decide) _ _
theorem VB_o (d : Dev nD) : VB m d o' = GOf m d := Function.update_self _ _ _

theorem held_rest (d : Dev nD) : (held (T d) (Pipeline.ucRefs τ sig \ T4) (VB m d) : sProp 𝕄) = held (T d) (Pipeline.ucRefs τ sig \ T4) (VA m d) :=
  held_congr (T d) fun b hb => Function.update_of_ne (fun e => (Finset.mem_sdiff.mp hb).2 (by rw [e]; decide)) _ _

/-- The arguments are untouched by the host operations; the kernel's call does not name them. -/
theorem VC_a0 (d : Dev nD) : VC m d a0' = m (a0Loc d) := by
  unfold VC VB VA V0
  simp only [StableHlo.after_cons, StableHlo.after_nil]
  rfl
theorem VC_a1 (d : Dev nD) : VC m d a1' = m (a1Loc d) := by
  unfold VC VB VA V0
  simp only [StableHlo.after_cons, StableHlo.after_nil]
  rfl
theorem VC_a2 (d : Dev nD) : VC m d a2' = m (a2Loc d) := by
  unfold VC VB VA V0
  simp only [StableHlo.after_cons, StableHlo.after_nil]
  rfl

theorem st0_eq (d : Dev nD) :
    (bigSep Finset.univ fun c : Fin ((K (F := F)).nCore 0) => (P m).st 0 d c)
      = bigSep Finset.univ fun c : Fin 2 => iprop((xLoc d ↦{qC c} Xf m d) ∗ (wLoc d ↦{qC c} Wff m d) ∗ (bLoc d ↦{qC c} Bf m d) ∗ (oLoc d ↦[coreSet c]{fullShare} VA m d o')) :=
  bigSep_cores (F := F) (fun c => iprop((xLoc d ↦{qC c} Xf m d) ∗ (wLoc d ↦{qC c} Wff m d) ∗ (bLoc d ↦{qC c} Bf m d) ∗ (oLoc d ↦[coreSet c]{fullShare} VA m d o')))
theorem dn0_eq (d : Dev nD) :
    (bigSep Finset.univ fun c : Fin ((K (F := F)).nCore 0) => (P m).dn 0 d c)
      = bigSep Finset.univ fun c : Fin 2 => iprop((xLoc d ↦{qC c} Xf m d) ∗ (wLoc d ↦{qC c} Wff m d) ∗ (bLoc d ↦{qC c} Bf m d) ∗ (oLoc d ↦[coreSet c]{fullShare} GOf m d)) :=
  bigSep_cores (F := F) (fun c => iprop((xLoc d ↦{qC c} Xf m d) ∗ (wLoc d ↦{qC c} Wff m d) ∗ (bLoc d ↦{qC c} Bf m d) ∗ (oLoc d ↦[coreSet c]{fullShare} GOf m d)))

omit [FloatOps F] in
theorem o_cores (d : Dev nD) (f : Buf (Elt F) (oLoc d)) :
    (oLoc d ↦{fullShare} f : sProp 𝕄) = bigSep Finset.univ fun c : Fin 2 => oLoc d ↦[coreSet c]{fullShare} f := by
  rw [← pointsTo_biUnion Finset.univ (ℓ := oLoc d) coreSet core_disj, core_cover]; try rfl

/-- What @main leaves the claim: the three arguments at their launch contents, the result at the reshaped flat result. -/
abbrev FIN (d : Dev nD) : sProp 𝕄 :=
  iprop((a0Loc d ↦{fullShare} m (a0Loc d)) ∗ (a1Loc d ↦{fullShare} m (a1Loc d)) ∗ (a2Loc d ↦{fullShare} m (a2Loc d)) ∗ (rLoc d ↦{fullShare} VC m d r'))

set_option backward.isDefEq.respectTransparency.types false in
/-- @main on device `d`'s TensorCore: the host operations before the call, the call, the reshape after it. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [main_eq]
  iintro ⟨#Hctx, Hst, ⟨Hb, Hu, -, -⟩, -⟩
  ihave Hheld := (Entails.of_eq ((show (unscopedBufs d (fun b => m ((SparseCore.T d).loc b)) : sProp 𝕄) = unscopedBufs d (fun b => V0 m d b) from rfl).trans
    (Pipeline.unscopedBufs_held (Ix := HIx 1) (Name := ℕ) (U := UU) (Lvl := ℕ) d (V0 m d)))) $$ Hu
  -- the host operations before the call
  iapply (StableHlo.wp_seq 𝒱 none Set.univ d (Pipeline.ucRefs τ sig) _ ops1 hops1 hfresh1 (V0 m d)) $$ [Hb Hheld]
  · isplitl [Hb]; · iexact Hb
    iexact Hheld
  iintro ⟨Hb, Hheld⟩
  ihave Hheld := (Entails.of_eq (show (held (SparseCore.T d) (Pipeline.ucRefs τ sig) (StableHlo.after ops1 (V0 m d)) : sProp 𝕄)
    = held (T d) (Pipeline.ucRefs τ sig) (VA m d) from rfl)) $$ Hheld
  ihave Hh := (Entails.of_eq ((held_sub_split (T d) T4_sub (VA m d)).trans (congrArg (fun A => iprop(A ∗ held (T d) (Pipeline.ucRefs τ sig \ T4) (VA m d))) (held_T4 d (VA m d))))) $$ Hheld
  icases Hh with ⟨⟨Hx, Hw, Hbb, Ho⟩, Hrest⟩
  -- the three read arrays as a share per SparseCore, the flat result as the SparseCores' slices
  ihave Hx := (Transfers.pointsTo_toks_split fullShare 2) $$ Hx
  ihave Hw := (Transfers.pointsTo_toks_split fullShare 2) $$ Hw
  ihave Hbb := (Transfers.pointsTo_toks_split fullShare 2) $$ Hbb
  icases Hx with ⟨Hxd, Hxs⟩
  icases Hw with ⟨Hwd, Hws⟩
  icases Hbb with ⟨Hbd, Hbs⟩
  ihave Ho := (Entails.of_eq (o_cores d _)) $$ Ho
  -- the call
  rw [wp_bind]
  iapply ((K (F := F)).wp_run (D (F := F)) 𝒱 (EH := EH) (P := P m) κ d 0) $$ [Hst Hxs Hws Hbs Ho Hb Hrest Hxd Hwd Hbd]
  isplitr; · iexact Hctx
  isplitl [Hst]; · iexact Hst
  isplitl [Hxs Hws Hbs Ho]
  · rw [st0_eq, bigSep_sep', bigSep_sep', bigSep_sep']
    isplitl [Hxs]; · iexact Hxs
    isplitl [Hws]; · iexact Hws
    isplitl [Hbs]; · iexact Hbs
    iexact Ho
  iintro ⟨Hst, Hdn⟩
  ihave Hdn := (Entails.of_eq ((dn0_eq m d).trans (by rw [bigSep_sep', bigSep_sep', bigSep_sep']))) $$ Hdn
  icases Hdn with ⟨Hxs, Hws, Hbs, Ho⟩
  ihave Ho := (Entails.of_eq (o_cores d _).symm) $$ Ho
  ihave Hx := (Transfers.pointsTo_toks_join fullShare 2) $$ [Hxd Hxs]
  · isplitl [Hxd]; · iexact Hxd
    iexact Hxs
  ihave Hw := (Transfers.pointsTo_toks_join fullShare 2) $$ [Hwd Hws]
  · isplitl [Hwd]; · iexact Hwd
    iexact Hws
  ihave Hbb := (Transfers.pointsTo_toks_join fullShare 2) $$ [Hbd Hbs]
  · isplitl [Hbd]; · iexact Hbd
    iexact Hbs
  -- all the arrays again, the flat result at what the tiles left
  ihave Hheld := (Entails.of_eq ((held_sub_split (T d) T4_sub (VB m d)).trans (congrArg₂ (fun A B => iprop(A ∗ B)) (held_T4 d (VB m d)) (held_rest m d))).symm) $$ [Hx Hw Hbb Ho Hrest]
  · rw [VB_x, VB_w, VB_b, VB_o]
    isplitl [Hx Hw Hbb Ho]
    · isplitl [Hx]; · iexact Hx
      isplitl [Hw]; · iexact Hw
      isplitl [Hbb]; · iexact Hbb
      iexact Ho
    iexact Hrest
  -- the reshape after the call
  rw [show (StableHlo.seq ops2 : Prog (TpuEff nD τ sig (Elt F) _ .tc) PUnit) = StableHlo.seq ops2 >>= pure from (bind_pure _).symm]
  iapply (StableHlo.wp_seq 𝒱 none Set.univ d (Pipeline.ucRefs τ sig) _ ops2 hops2 hfresh2 (VB m d)) $$ [Hb Hheld]
  · isplitl [Hb]; · iexact Hb
    iexact Hheld
  iintro ⟨Hb, Hheld⟩
  ihave Hheld := (Entails.of_eq (show (held (SparseCore.T d) (Pipeline.ucRefs τ sig) (StableHlo.after ops2 (VB m d)) : sProp 𝕄)
    = held (T d) (Pipeline.ucRefs τ sig) (VC m d) from rfl)) $$ Hheld
  ihave Hh := (Entails.of_eq ((held_sub_split (T d) A4_sub (VC m d)).trans (congrArg (fun A => iprop(A ∗ held (T d) (Pipeline.ucRefs τ sig \ A4) (VC m d))) (held_A4 d (VC m d))))) $$ Hheld
  icases Hh with ⟨⟨Ha0, Ha1, Ha2, Hr⟩, -⟩
  rw [VC_a0, VC_a1, VC_a2]
  rw [wp_pure]; imodintro
  isplitl [Hst]; · iexact Hst
  isplitl [Ha0]; · iexact Ha0
  isplitl [Ha1]; · iexact Ha1
  isplitl [Ha2]; · iexact Ha2
  iexact Hr

def fq (d : Dev nD) (s' : Phys nD τ sig (Elt F)) : Prop :=
  s'.mem.mem (a0Loc d) = m (a0Loc d) ∧ s'.mem.mem (a1Loc d) = m (a1Loc d) ∧ s'.mem.mem (a2Loc d) = m (a2Loc d) ∧ s'.mem.mem (rLoc d) = VC m d r'

theorem hfin (d : Dev nD) (s' : Phys nD τ sig (Elt F)) : iprop(FIN m d ∗ SI s') ⊢ (⌜fq m d s'⌝ : sProp 𝕄) := by
  iintro ⟨⟨H0, H1, H2, Hr⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (SI_pointsTo_agree (st := s') (ℓ := rLoc d) (I := Finset.univ) (q := fullShare) (f := VC m d r')) $$ [HSI Hr]
  · isplitl [HSI] <;> iassumption
  icases H with %h3
  ipureintro
  exact ⟨funext fun i => h0 i (Finset.mem_univ i), funext fun i => h1 i (Finset.mem_univ i), funext fun i => h2 i (Finset.mem_univ i),
    funext fun i => h3 i (Finset.mem_univ i)⟩

/-! ## The program's run -/

def QC : PUnit × MemSt nD τ sig (Elt F) → Prop := fun r => ∀ c : Dev nD,
  r.2.mem (a0Loc c) = m (a0Loc c) ∧ r.2.mem (a1Loc c) = m (a1Loc c) ∧ r.2.mem (a2Loc c) = m (a2Loc c) ∧ r.2.mem (rLoc c) = VC m c r'

/-- Every weakly fair execution of the device's threads terminates, nothing faulting, the arguments unchanged and the
    result at the reshaped flat result. -/
theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

/-! ## The result as a pure term of the arguments -/

/-- The kernel's result: the flat result over the flattened indices, the padded flattened table and the bias copies, as a column. -/
def kOut (x : IVec S16384x26 32) (w : FVec F S1040000x1 .f32) (b : FVec F S1 .f32) : FVec F S16384x1 .f32 :=
  shapeCast S16384x1
    (GOv (F := F) (shapeCast S425984 x shapeCasts_S16384x26_S425984)
      (shapeCast S1040384 (pad S1040384x1 ![0, 0] ![384, 0] ![0, 0] w (sitofp .f32 (constantI S_ 32 0#32)) pads_S1040000x1_S1040384x1_03840_000 h_S_)
        shapeCasts_S1040384x1_S1040384)
      (broadcastInDim S16 ![0] bcast_S1_S16_0 b))
    shapeCasts_S16384_S16384x1

theorem Xf_eq (d : Dev nD) : Xf m d = shapeCast S425984 (m (a0Loc d)) shapeCasts_S16384x26_S425984 := by
  unfold Xf VA V0
  simp only [StableHlo.after_cons, StableHlo.after_nil]
  rfl

attribute [local irreducible] GOv pad in
set_option maxRecDepth 8192 in
theorem VC_r (d : Dev nD) : VC m d r' = kOut (m (a0Loc d)) (m (a1Loc d)) (m (a2Loc d)) := by
  unfold VC VB GOf Xf Wff Bf VA V0 kOut
  simp only [StableHlo.after_cons, StableHlo.after_nil]
  rfl

/-- Indices in the table's range give flat indices in the padded table's. -/
theorem preOK_of_range (h : ∀ (d : Dev nD) (j : S16384x26.Idx), (m (a0Loc d) j).toNat < 1040000) : PreOK m := by
  intro d i
  rw [Xf_eq]
  unfold shapeCast
  exact lt_trans (h d _) (by decide)

end Cert.Proof.KB

end
-- ==== Proof.KISetup.lean ====
/-
  The program as the launch theorem reads it, the ghost state, and the names shared by the tile's task and the launch.
-/
import proofs.«207406_g23510650978335_cont_sun_m_507_26_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207406_g23510650978335_cont_sun_m_507_26_alg».proof.Proof.Gen.KernelIdeal
import proofs.«207406_g23510650978335_cont_sun_m_507_26_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

abbrev EH : Emb UH (MT nD τ sig (HIx 1) (Elt F) ℕ UU ℕ) := embL

/-! ## The device's arrays -/

/-- The three arguments, the flattened indices, the padded flat table, the sixteen copies of the bias, the kernel's
    flat result and the program's result, as locations of device `d`. -/
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev xLoc (d : Dev nD) : Loc nD τ sig := (SparseCore.T d).loc main_v0
abbrev wLoc (d : Dev nD) : Loc nD τ sig := (SparseCore.T d).loc main_v2
abbrev bLoc (d : Dev nD) : Loc nD τ sig := (SparseCore.T d).loc main_v3
abbrev oLoc (d : Dev nD) : Loc nD τ sig := (SparseCore.T d).loc main_v4
abbrev rLoc (d : Dev nD) : Loc nD τ sig := (SparseCore.T d).loc main_v5

/-- The grid point of a tile as its SparseCore and its vector subcore. -/
abbrev cV (L : grid0.Coords) : Fin τ.nSC := (L 0).castLE hcore0
abbrev jV (L : grid0.Coords) : Fin τ.nSub := (L 1).castLE hsub0

def coordsV (c : Fin (grid0.bound 0)) (s : Fin (grid0.bound 1)) : grid0.Coords :=
  fun | 0 => c | 1 => s | ⟨_ + 2, h⟩ => absurd h (Nat.not_lt.2 (Nat.le_add_left _ _))

end Cert.Proof.KI

end
-- ==== Proof.KIDefs.lean ====
/-
  One tile's task, as values. Tile (c, s) is worker w = 2 s + c. It fetches the 13312 flat indices of its 512 batch rows,
  gathers the padded table's row for each, and for each of 32 blocks of 16 batch rows adds, lane by lane, the bias and the
  26 gathered rows of that batch row, left to right; the 512 sums go to its slice of the flat result. Here: the slices as
  the program cuts them, that every index vector the loop builds stays inside the gathered rows, and the contents of each
  scratch buffer as the run leaves them, named.
-/
import proofs.«207406_g23510650978335_cont_sun_m_507_26_alg».proof.Proof.KISetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's memrefs, spelt as the body table passes them
local notation "xW" => (Memref.whole Cert.KernelIdeal.main_v0_scv : Memref Cert.KernelIdeal.sig Kind.scVector Space.hbm Cert.KernelIdeal.S425984 EltTy.i32)
local notation "wW" => (Memref.whole Cert.KernelIdeal.main_v2_scv : Memref Cert.KernelIdeal.sig Kind.scVector Space.hbm Cert.KernelIdeal.S1040384 EltTy.f32)
local notation "bW" => (Memref.whole Cert.KernelIdeal.main_v3_scv : Memref Cert.KernelIdeal.sig Kind.scVector Space.hbm Cert.KernelIdeal.S16 EltTy.f32)
local notation "oW" => (Memref.whole Cert.KernelIdeal.main_v4_scv : Memref Cert.KernelIdeal.sig Kind.scVector Space.hbm Cert.KernelIdeal.S16384 EltTy.f32)
local notation "sI" => (Memref.whole Cert.KernelIdeal.cc0_scratch0 : Memref Cert.KernelIdeal.sig Kind.scVector Space.vmem Cert.KernelIdeal.S13312 EltTy.i32)
local notation "sR" => (Memref.whole Cert.KernelIdeal.cc0_scratch1 : Memref Cert.KernelIdeal.sig Kind.scVector Space.vmem Cert.KernelIdeal.S13312 EltTy.f32)
local notation "sO" => (Memref.whole Cert.KernelIdeal.cc0_scratch2 : Memref Cert.KernelIdeal.sig Kind.scVector Space.vmem Cert.KernelIdeal.S512 EltTy.f32)
local notation "sB" => (Memref.whole Cert.KernelIdeal.cc0_scratch3 : Memref Cert.KernelIdeal.sig Kind.scVector Space.vmem Cert.KernelIdeal.S16 EltTy.f32)

variable [FloatOps F]

section Tile

variable (d : Dev nD) (L : grid0.Coords)

/-- The slice of the flat indices a tile fetches and the slice of the flat result it writes, as the program slices them. -/
abbrev xSl (L : grid0.Coords) : Memref sig .scVector .hbm S13312 .i32 :=
  (xW).slice (Rect.unit (s := S425984) (k0_off1 L) S13312.size (k0_off1_inb L)) (fun _ => rfl)
abbrev oSl (L : grid0.Coords) : Memref sig .scVector .hbm S512 .f32 :=
  (oW).slice (Rect.unit (s := S16384) (k0_off3 L) S512.size (k0_off3_inb L)) (fun _ => rfl)

/-- The words a tile fetches: its slice of the flat indices. -/
abbrev idxP (L : grid0.Coords) (X : Buf (Elt F) (xLoc d)) : S13312.Idx → Elt F .i32 :=
  ReadAs.same.apply ((xSl L).view.read (Elt F) X)

omit [FloatOps F] in
/-- Every fetched word names a row of the padded table, whatever the index scratch held before. -/
theorem idx_inb (X : Buf (Elt F) (xLoc d)) (hX : ∀ i, (X i).toNat < 1040384)
    (g : Buf (Elt F) ((sI).view.loc (V d (cV L) (jV L)))) (x : S13312.Idx) :
    ((sI).view.read (Elt F) ((sI).view.write (Elt F) g (idxP d L X) Finset.univ) x).toNat < S1040384.size gathers_S1040384_S13312.axis := by
  rw [View.write_whole_univ]
  simp only [Memref.view_whole, View.read_whole]
  exact hX _

/-- The index vector of field `c` at trip `t` stays inside the gathered rows. -/
theorem chk_all : ∀ (t : Fin k0_t1_loop.trips) (f : Fin 26) (a : Fin 1) (x : S16.Idx),
    ((![addi (k0_pay10 k0_pay1 0#32 1#32 t) (broadcast S16 (BitVec.ofNat 32 f.val))] : Fin 1 → IVec S16 32) a x).toNat < S13312.size a := by
  decide +kernel

/-- The same for any word below 26 in place of the field's number. -/
theorem chk_c (t : Fin k0_t1_loop.trips) (c : BitVec 32) (hc : c.toNat < 26) : ∀ (a : Fin 1) (x : S16.Idx),
    ((![addi (k0_pay10 k0_pay1 0#32 1#32 t) (broadcast S16 c)] : Fin 1 → IVec S16 32) a x).toNat < S13312.size a := by
  have h := chk_all t ⟨c.toNat, hc⟩
  have e : BitVec.ofNat 32 (⟨c.toNat, hc⟩ : Fin 26).val = c := by simp
  rwa [e] at h

/-- The padded table as the gather addresses it. -/
abbrev wSl : Memref sig .scVector .hbm S1040384 .f32 :=
  (wW).slice (Rect.unit (s := S1040384) ![0] S1040384.size inb_S1040384_S1040384_0) (fun _ => rfl)

/-- The gathered rows: entry `j` is the table's row named by the `j`-th fetched word. -/
abbrev rowsP (L : grid0.Coords) (X : Buf (Elt F) (xLoc d)) (Wf : Buf (Elt F) (wLoc d))
    (fi : Buf (Elt F) ((sI).view.loc (V d (cV L) (jV L))))
    (hin : ∀ (g : Buf (Elt F) ((sI).view.loc (V d (cV L) (jV L)))) (x : S13312.Idx),
      ((sI).view.read (Elt F) ((sI).view.write (Elt F) g (idxP d L X) Finset.univ) x).toNat < S1040384.size gathers_S1040384_S13312.axis) :
    S13312.Idx → Elt F .f32 :=
  SparseCore.gatherPayload gathers_S1040384_S13312 ((wSl).view.read (Elt F) Wf)
    (SparseCore.rows ((sI).view.read (Elt F) ((sI).view.write (Elt F) fi (idxP d L X) Finset.univ)) rfl (hin fi))

/-- What the rows scratch holds after the gather. -/
abbrev rowsBuf (L : grid0.Coords) (X : Buf (Elt F) (xLoc d)) (Wf : Buf (Elt F) (wLoc d))
    (fi : Buf (Elt F) ((sI).view.loc (V d (cV L) (jV L))))
    (hin : ∀ (g : Buf (Elt F) ((sI).view.loc (V d (cV L) (jV L)))) (x : S13312.Idx),
      ((sI).view.read (Elt F) ((sI).view.write (Elt F) g (idxP d L X) Finset.univ) x).toNat < S1040384.size gathers_S1040384_S13312.axis) :
    Buf (Elt F) ((sR).view.loc (V d (cV L) (jV L))) :=
  (sR).view.writes (Elt F) (sR).view.junk [⟨Rect.whole _, rowsP d L X Wf fi hin⟩]

/-- The bias vector the loop starts every sum from: the sixteen copies, fetched and loaded. -/
abbrev biasV (L : grid0.Coords) (B : Buf (Elt F) (bLoc d)) (fsb : Buf (Elt F) ((sB).view.loc (V d (cV L) (jV L)))) : Vec F S16 .f32 :=
  (sB).view.readAt (Elt F) (Rect.unit (s := S16) ![0] S16.size inb_S16_S16_0).toLoadRect
    ((sB).view.write (Elt F) fsb (ReadAs.same.apply ((bW).view.read (Elt F) B)) Finset.univ)

/-- The indexed load of field `c` at trip `k`: lane `l` reads the gathered row `416 k + 26 l + c`. -/
def ldR (L : grid0.Coords) (R : Buf (Elt F) ((sR).view.loc (V d (cV L) (jV L)))) (k : Fin k0_t1_loop.trips) (c : BitVec 32) (hc : c.toNat < 26) :
    Vec F S16 .f32 :=
  loadIdx ((sR).view.readAt (Elt F) (LoadRect.whole S13312) R) ![addi (k0_pay10 k0_pay1 0#32 1#32 k) (broadcast S16 c)] (chk_c k c hc)

/-- What trip `k` stores: the bias plus the twenty-six fields' rows, added in the fields' order. -/
def stepPay (L : grid0.Coords) (R : Buf (Elt F) ((sR).view.loc (V d (cV L) (jV L)))) (v10 : Vec F S16 .f32) (k : Fin k0_t1_loop.trips) : FVec F S16 .f32 :=
  k0_pay9
    (k0_pay31
      (k0_pay20 v10 (ldR d L R k 0#32 (by decide)) (ldR d L R k 1#32 (by decide)) (ldR d L R k 2#32 (by decide)) (ldR d L R k 3#32 (by decide))
        (ldR d L R k 4#32 (by decide)) (ldR d L R k 5#32 (by decide)) (ldR d L R k 6#32 (by decide)) (ldR d L R k 7#32 (by decide)) (ldR d L R k 8#32 (by decide)))
      (ldR d L R k 9#32 (by decide)) (ldR d L R k 10#32 (by decide)) (ldR d L R k 11#32 (by decide)) (ldR d L R k 12#32 (by decide)) (ldR d L R k 13#32 (by decide))
      (ldR d L R k 14#32 (by decide)) (ldR d L R k 15#32 (by decide)) (ldR d L R k 16#32 (by decide)) (ldR d L R k 17#32 (by decide)) (ldR d L R k 18#32 (by decide)))
    (ldR d L R k 19#32 (by decide)) (ldR d L R k 20#32 (by decide)) (ldR d L R k 21#32 (by decide)) (ldR d L R k 22#32 (by decide)) (ldR d L R k 23#32 (by decide))
    (ldR d L R k 24#32 (by decide)) (ldR d L R k 25#32 (by decide))

/-- The out scratch after `n` trips: trip `k`'s sixteen sums written at lanes `16 k …` over what was there. -/
def outAt (L : grid0.Coords) (R : Buf (Elt F) ((sR).view.loc (V d (cV L) (jV L)))) (v10 : Vec F S16 .f32)
    (f0 : Buf (Elt F) ((sO).view.loc (V d (cV L) (jV L)))) : ℕ → Buf (Elt F) ((sO).view.loc (V d (cV L) (jV L)))
  | 0 => f0
  | n + 1 =>
    if h : n < k0_t1_loop.trips then
      (sO).view.writes (Elt F) (outAt L R v10 f0 n) [⟨Rect.unit (s := S512) (k0_off2 ⟨n, h⟩) S16.size (k0_off2_inb ⟨n, h⟩), stepPay d L R v10 ⟨n, h⟩⟩]
    else outAt L R v10 f0 n

theorem outAt_succ (L : grid0.Coords) (R : Buf (Elt F) ((sR).view.loc (V d (cV L) (jV L)))) (v10 : Vec F S16 .f32)
    (f0 : Buf (Elt F) ((sO).view.loc (V d (cV L) (jV L)))) (k : Fin k0_t1_loop.trips) :
    outAt d L R v10 f0 (k.val + 1)
      = (sO).view.writes (Elt F) (outAt d L R v10 f0 k.val) [⟨Rect.unit (s := S512) (k0_off2 k) S16.size (k0_off2_inb k), stepPay d L R v10 k⟩] := by
  rw [outAt, dif_pos k.isLt]

end Tile

end Cert.Proof.KI

end
-- ==== Proof.KIValue.lean ====
/-
  The tile's values in closed form. The flat result at index j is the bias copy j mod 16 plus, in order, the table's rows
  named by the flat indices 26 j, 26 j + 1, …, 26 j + 25: the same function of the three flat arrays whatever the tile's
  scratch buffers held before, which is what lets the 32 tiles' slices be read as one array.
-/
import proofs.«207406_g23510650978335_cont_sun_m_507_26_alg».proof.Proof.KIDefs
import Idealize.ShloMosaic.Lib.ValueIdx
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx (ix1 eq_ix1)

variable {F : FTy → Type}

local notation "𝕄" => MT nD τ sig (HIx 1) (Elt F) ℕ UU ℕ

-- the kernel's memrefs, spelt as the body table passes them
local notation "xW" => (Memref.whole Cert.KernelIdeal.main_v0_scv : Memref Cert.KernelIdeal.sig Kind.scVector Space.hbm Cert.KernelIdeal.S425984 EltTy.i32)
local notation "wW" => (Memref.whole Cert.KernelIdeal.main_v2_scv : Memref Cert.KernelIdeal.sig Kind.scVector Space.hbm Cert.KernelIdeal.S1040384 EltTy.f32)
local notation "bW" => (Memref.whole Cert.KernelIdeal.main_v3_scv : Memref Cert.KernelIdeal.sig Kind.scVector Space.hbm Cert.KernelIdeal.S16 EltTy.f32)
local notation "oW" => (Memref.whole Cert.KernelIdeal.main_v4_scv : Memref Cert.KernelIdeal.sig Kind.scVector Space.hbm Cert.KernelIdeal.S16384 EltTy.f32)
local notation "sI" => (Memref.whole Cert.KernelIdeal.cc0_scratch0 : Memref Cert.KernelIdeal.sig Kind.scVector Space.vmem Cert.KernelIdeal.S13312 EltTy.i32)
local notation "sR" => (Memref.whole Cert.KernelIdeal.cc0_scratch1 : Memref Cert.KernelIdeal.sig Kind.scVector Space.vmem Cert.KernelIdeal.S13312 EltTy.f32)
local notation "sO" => (Memref.whole Cert.KernelIdeal.cc0_scratch2 : Memref Cert.KernelIdeal.sig Kind.scVector Space.vmem Cert.KernelIdeal.S512 EltTy.f32)
local notation "sB" => (Memref.whole Cert.KernelIdeal.cc0_scratch3 : Memref Cert.KernelIdeal.sig Kind.scVector Space.vmem Cert.KernelIdeal.S16 EltTy.f32)

variable [FloatOps F]

/-- Twenty-six terms added to a start value, in order. -/
def sum26 {α : Type} (add : α → α → α) (b : α) (v : ℕ → α) : α := (List.range 26).foldl (fun acc f => add acc (v f)) b

/-- The flat result as one function of the flat indices, the padded flat table and the sixteen copies of the bias. -/
def GOv (X : Vec F S425984 .i32) (Wf : Vec F S1040384 .f32) (B : Vec F S16 .f32) : Vec F S16384 .f32 := fun i =>
  sum26 (FloatOps.addf (F := F) (φ := .f32)) (B (ix1 ⟨(i 0).val % 16, Nat.mod_lt _ (by decide)⟩))
    (fun f => Wf (ix1 ⟨(X (ix1 ⟨(26 * (i 0).val + f) % 425984, Nat.mod_lt _ (by decide)⟩)).toNat % 1040384, Nat.mod_lt _ (by decide)⟩))

theorem trips_eq : k0_t1_loop.trips = 32 := by decide

section Tile

variable (d : Dev nD) (L : grid0.Coords)

/-- Lane `x` of field `f`'s index vector at trip `t` is `416 t + 26 x + f`. -/
theorem idx_val : ∀ (t : Fin k0_t1_loop.trips) (f : Fin 26) (x : S16.Idx),
    (addi (k0_pay10 k0_pay1 0#32 1#32 t) (broadcast S16 (BitVec.ofNat 32 f.val)) x).toNat = 416 * t.val + 26 * (x 0).val + f.val := by
  decide +kernel

theorem idx_val_c (t : Fin k0_t1_loop.trips) (c : BitVec 32) (hc : c.toNat < 26) (x : S16.Idx) :
    (addi (k0_pay10 k0_pay1 0#32 1#32 t) (broadcast S16 c) x).toNat = 416 * t.val + 26 * (x 0).val + c.toNat := by
  have h := idx_val t ⟨c.toNat, hc⟩ x
  have e : BitVec.ofNat 32 (⟨c.toNat, hc⟩ : Fin 26).val = c := by simp
  rwa [e] at h

/-- The indexed load, lane by lane. -/
theorem ldR_apply (R : Buf (Elt F) ((sR).view.loc (V d (cV L) (jV L)))) (k : Fin k0_t1_loop.trips) (c : BitVec 32) (hc : c.toNat < 26) (x : S16.Idx) :
    ldR d L R k c hc x = R (ix1 ⟨(416 * k.val + 26 * (x 0).val + c.toNat) % 13312, Nat.mod_lt _ (by decide)⟩) := by
  have hk : k.val < 32 := lt_of_lt_of_eq k.isLt trips_eq
  have hx : (x 0).val < 16 := (x 0).isLt
  unfold ldR loadIdx
  rw [View.readAt_apply]
  simp only [Memref.view_whole, View.read_whole]
  refine congrArg R ((eq_ix1 (n := 13312) _).trans (congrArg ix1 (Fin.ext ?_)))
  show 0 + 1 * (addi (k0_pay10 k0_pay1 0#32 1#32 k) (broadcast S16 c) x).toNat = (416 * k.val + 26 * (x 0).val + c.toNat) % 13312
  rw [idx_val_c k c hc x]
  have := Nat.mod_eq_of_lt (show 416 * k.val + 26 * (x 0).val + c.toNat < 13312 by omega)
  omega

/-- What a trip stores at lane `x`. -/
theorem stepPay_apply (R : Buf (Elt F) ((sR).view.loc (V d (cV L) (jV L)))) (v10 : Vec F S16 .f32) (k : Fin k0_t1_loop.trips) (x : S16.Idx) :
    stepPay d L R v10 k x
      = sum26 (FloatOps.addf (F := F) (φ := .f32)) (v10 x)
          (fun f => R (ix1 ⟨(416 * k.val + 26 * (x 0).val + f) % 13312, Nat.mod_lt _ (by decide)⟩)) := by
  unfold stepPay k0_pay9 k0_pay31 k0_pay20
  simp only [addf, ldR_apply]
  rfl

/-- Trip `k` stores at lanes `16 k … 16 k + 15`. -/
theorem off2_val (k : Fin k0_t1_loop.trips) : k0_off2 k 0 = 16 * k.val := by rw [k0_off2_eq]; rfl

/-- The trip that writes lane `y` of the out scratch. -/
def tripOf (y : S512.Idx) : Fin k0_t1_loop.trips :=
  ⟨(y 0).val / 16, by rw [trips_eq]; have h : (y 0).val < 512 := (y 0).isLt; omega⟩

/-- After `n` trips every lane below `16 n` holds its trip's sum, whatever the scratch held before. -/
theorem outAt_apply (R : Buf (Elt F) ((sR).view.loc (V d (cV L) (jV L)))) (v10 : Vec F S16 .f32)
    (f0 : Buf (Elt F) ((sO).view.loc (V d (cV L) (jV L)))) :
    ∀ (n : ℕ) (hn : n ≤ 32) (y : S512.Idx) (hy : (y 0).val < 16 * n),
      outAt d L R v10 f0 n y = stepPay d L R v10 (tripOf y) (ix1 ⟨(y 0).val % 16, Nat.mod_lt _ (by decide)⟩)
  | 0, _, y, hy => by omega
  | n + 1, hn, y, hy => by
    have hn' : n < k0_t1_loop.trips := by rw [trips_eq]; omega
    have e := outAt_succ d L R v10 f0 ⟨n, hn'⟩
    have h16 : S16.size 0 = 16 := rfl
    have e' : outAt d L R v10 f0 (n + 1)
        = (sO).view.writes (Elt F) (outAt d L R v10 f0 n) [⟨Rect.unit (s := S512) (k0_off2 ⟨n, hn'⟩) S16.size (k0_off2_inb ⟨n, hn'⟩), stepPay d L R v10 ⟨n, hn'⟩⟩] := e
    rw [e']
    by_cases hc : (y 0).val / 16 = n
    · have ht : tripOf y = ⟨n, hn'⟩ := Fin.ext hc
      rw [ht]
      subst hc
      have hy0 : y = (Rect.unit (s := S512) (k0_off2 ⟨(y 0).val / 16, hn'⟩) S16.size (k0_off2_inb ⟨(y 0).val / 16, hn'⟩)).emb
          (ix1 ⟨(y 0).val % 16, Nat.mod_lt _ (by decide)⟩) := by
        refine (eq_ix1 (n := 512) y).trans ((congrArg ix1 (Fin.ext ?_)).trans (eq_ix1 (n := 512) _).symm)
        show (y 0).val = k0_off2 ⟨(y 0).val / 16, hn'⟩ 0 + 1 * ((y 0).val % 16)
        rw [off2_val]; show (y 0).val = 16 * ((y 0).val / 16) + 1 * ((y 0).val % 16); omega
      have := View.read_writes_cons_emb (sO).view (outAt d L R v10 f0 ((y 0).val / 16))
        (Rect.unit (s := S512) (k0_off2 ⟨(y 0).val / 16, hn'⟩) S16.size (k0_off2_inb ⟨(y 0).val / 16, hn'⟩))
        (stepPay d L R v10 ⟨(y 0).val / 16, hn'⟩) [] (ix1 ⟨(y 0).val % 16, Nat.mod_lt _ (by decide)⟩)
      rw [← hy0] at this
      exact this
    · have hlt : (y 0).val < 16 * n := by omega
      have hnot : ∀ p ∈ ([⟨Rect.unit (s := S512) (k0_off2 ⟨n, hn'⟩) S16.size (k0_off2_inb ⟨n, hn'⟩), stepPay d L R v10 ⟨n, hn'⟩⟩] : List (View.Piece (Elt F) S512 .f32)),
          y ∉ p.1.set := by
        intro p hp hmem
        obtain rfl := List.mem_singleton.mp hp
        have h0 := (Rect.mem_set_unit (s := S512) (off := k0_off2 ⟨n, hn'⟩) (size := S16.size) (inb := k0_off2_inb ⟨n, hn'⟩) (i := y)).mp hmem (0 : Fin 1)
        rw [off2_val] at h0
        have h0' : 16 * n ≤ (y 0).val := h0.1
        omega
      have := View.read_writes_apply_of_forall_not_mem (sO).view (outAt d L R v10 f0 n) y _ hnot
      exact this.trans (outAt_apply R v10 f0 n (by omega) y hlt)

/-- The bias vector is the sixteen copies, whatever the bias scratch held before. -/
theorem biasV_apply (B : Buf (Elt F) (bLoc d)) (fsb : Buf (Elt F) ((sB).view.loc (V d (cV L) (jV L)))) (x : S16.Idx) :
    biasV d L B fsb x = B x := by
  unfold biasV
  rw [View.readAt_apply]
  simp only [Memref.view_whole, View.write_whole_univ, View.read_whole]
  refine congrArg B ((eq_ix1 (n := 16) _).trans ((congrArg ix1 (Fin.ext ?_)).trans (eq_ix1 (n := 16) x).symm))
  show 0 + 1 * (x 0).val = (x 0).val
  omega

/-- The tile's number: worker `2 s + c`. -/
abbrev wid (L : grid0.Coords) : ℕ := 2 * (L 1).val + (L 0).val

theorem wid_lt (L : grid0.Coords) : wid L < 32 := by
  have h0 : (L 0).val < 2 := (L 0).isLt
  have h1 : (L 1).val < 16 := (L 1).isLt
  show 2 * (L 1).val + (L 0).val < 32
  omega

theorem off1_val (L : grid0.Coords) : k0_off1 L 0 = 13312 * wid L := by
  rw [k0_off1_eq]; show 26624 * (L 1).val + 13312 * (L 0).val = 13312 * (2 * (L 1).val + (L 0).val); omega
theorem off3_val (L : grid0.Coords) : k0_off3 L 0 = 512 * wid L := by
  rw [k0_off3_eq]; show 1024 * (L 1).val + 512 * (L 0).val = 512 * (2 * (L 1).val + (L 0).val); omega

/-- The fetched words are the tile's slice of the flat indices. -/
theorem idxP_apply (X : Buf (Elt F) (xLoc d)) (j : S13312.Idx) :
    idxP d L X j = X (ix1 ⟨(13312 * wid L + (j 0).val) % 425984, Nat.mod_lt _ (by decide)⟩) := by
  have hw := wid_lt L
  have hj : (j 0).val < 13312 := (j 0).isLt
  show (xSl L).view.read (Elt F) X j = _
  rw [View.read_apply]
  refine (cast_eq _ _).trans (congrArg X ((eq_ix1 (n := 425984) _).trans (congrArg ix1 (Fin.ext ?_))))
  show k0_off1 L 0 + 1 * (j 0).val = (13312 * wid L + (j 0).val) % 425984
  rw [off1_val]
  have := Nat.mod_eq_of_lt (show 13312 * wid L + (j 0).val < 425984 by omega)
  omega

/-- The gathered rows: entry `z` is the table's row named by the tile's `z`-th flat index. -/
theorem rowsBuf_apply (X : Buf (Elt F) (xLoc d)) (Wf : Buf (Elt F) (wLoc d))
    (fi : Buf (Elt F) ((sI).view.loc (V d (cV L) (jV L))))
    (hin : ∀ (g : Buf (Elt F) ((sI).view.loc (V d (cV L) (jV L)))) (x : S13312.Idx),
      ((sI).view.read (Elt F) ((sI).view.write (Elt F) g (idxP d L X) Finset.univ) x).toNat < S1040384.size gathers_S1040384_S13312.axis)
    (hX : ∀ i, (X i).toNat < 1040384) (z : S13312.Idx) :
    rowsBuf d L X Wf fi hin z
      = Wf (ix1 ⟨(X (ix1 ⟨(13312 * wid L + (z 0).val) % 425984, Nat.mod_lt _ (by decide)⟩)).toNat % 1040384, Nat.mod_lt _ (by decide)⟩) := by
  have h1 : rowsBuf d L X Wf fi hin z = rowsP d L X Wf fi hin z := by
    have := View.read_writes_cons_emb (sR).view ((sR).view.junk (Val := Elt F)) (Rect.whole _) (rowsP d L X Wf fi hin) [] z
    rw [Rect.emb_whole_apply, Memref.view_whole, View.read_whole] at this
    exact this
  rw [h1]
  unfold rowsP SparseCore.gatherPayload
  rw [View.read_apply]
  refine (cast_eq _ _).trans (congrArg Wf ((eq_ix1 (n := 1040384) _).trans (congrArg ix1 (Fin.ext ?_))))
  show 0 + 1 * ((gathers_S1040384_S13312.idx _ z) 0).val = _
  have hax : (gathers_S1040384_S13312.idx (SparseCore.rows ((sI).view.read (Elt F) ((sI).view.write (Elt F) fi (idxP d L X) Finset.univ)) rfl (hin fi)) z) gathers_S1040384_S13312.axis
      = SparseCore.rows ((sI).view.read (Elt F) ((sI).view.write (Elt F) fi (idxP d L X) Finset.univ)) rfl (hin fi) (z gathers_S1040384_S13312.axis') :=
    Shape.Gathers.idx_axis _ _ _
  have hax' := congrArg Fin.val hax
  have hz : (S13312.rowMajor.symm ((z gathers_S1040384_S13312.axis').cast rfl)) = z := by
    apply S13312.rowMajor.injective
    rw [Equiv.apply_symm_apply]
    apply Fin.ext
    rw [Shape.rowMajor_val_one]
    rfl
  have hrow : (SparseCore.rows ((sI).view.read (Elt F) ((sI).view.write (Elt F) fi (idxP d L X) Finset.univ)) rfl (hin fi) (z gathers_S1040384_S13312.axis')).val
      = (idxP d L X z).toNat := by
    unfold SparseCore.rows
    show ((sI).view.read (Elt F) ((sI).view.write (Elt F) fi (idxP d L X) Finset.univ) (S13312.rowMajor.symm ((z gathers_S1040384_S13312.axis').cast rfl))).toNat = _
    rw [hz, View.write_whole_univ]
    rfl
  rw [idxP_apply] at hrow
  have hlt := hX (ix1 ⟨(13312 * wid L + (z 0).val) % 425984, Nat.mod_lt _ (by decide)⟩)
  have := Nat.mod_eq_of_lt hlt
  show 0 + 1 * ((gathers_S1040384_S13312.idx _ z) gathers_S1040384_S13312.axis).val
    = (X (ix1 ⟨(13312 * wid L + (z 0).val) % 425984, Nat.mod_lt _ (by decide)⟩)).toNat % 1040384
  rw [hax', hrow, this]
  omega

theorem sum26_congr {α : Type} (add : α → α → α) {b b' : α} {v v' : ℕ → α} (hb : b = b') (hv : ∀ f, f < 26 → v f = v' f) :
    sum26 add b v = sum26 add b' v' := by
  subst hb
  unfold sum26
  exact List.foldl_ext _ _ _ (fun a f hf => by rw [hv f (List.mem_range.mp hf)])

/-- A tile's slice of the flat result starts at `512 w`. -/
theorem oSl_emb (y : S512.Idx) : ((oSl L).view.emb y) = ix1 ⟨512 * wid L + (y 0).val, by
    have := wid_lt L; have h : (y 0).val < 512 := (y 0).isLt; omega⟩ := by
  refine (eq_ix1 (n := 16384) _).trans (congrArg ix1 (Fin.ext ?_))
  show k0_off3 L 0 + 1 * (y 0).val = 512 * wid L + (y 0).val
  rw [off3_val]; omega

/-- The tile's 512 sums are the flat result's values on its slice, whatever the scratch buffers held before. -/
theorem tile_value (X : Buf (Elt F) (xLoc d)) (Wf : Buf (Elt F) (wLoc d)) (B : Buf (Elt F) (bLoc d))
    (fi : Buf (Elt F) ((sI).view.loc (V d (cV L) (jV L)))) (fso : Buf (Elt F) ((sO).view.loc (V d (cV L) (jV L))))
    (fsb : Buf (Elt F) ((sB).view.loc (V d (cV L) (jV L))))
    (hin : ∀ (g : Buf (Elt F) ((sI).view.loc (V d (cV L) (jV L)))) (x : S13312.Idx),
      ((sI).view.read (Elt F) ((sI).view.write (Elt F) g (idxP d L X) Finset.univ) x).toNat < S1040384.size gathers_S1040384_S13312.axis)
    (hX : ∀ i, (X i).toNat < 1040384) (y : S512.Idx) :
    outAt d L (rowsBuf d L X Wf fi hin) (biasV d L B fsb) fso 32 y = GOv X Wf B ((oSl L).view.emb y) := by
  have hw := wid_lt L
  have hy : (y 0).val < 512 := (y 0).isLt
  rw [outAt_apply d L _ _ _ 32 (le_refl _) y (by omega), stepPay_apply, oSl_emb]
  unfold GOv
  refine sum26_congr _ ?_ ?_
  · rw [biasV_apply]
    refine congrArg B (congrArg ix1 (Fin.ext ?_))
    show (y 0).val % 16 = (512 * wid L + (y 0).val) % 16
    omega
  · intro f hf
    rw [rowsBuf_apply d L X Wf fi hin hX]
    have e : (13312 * wid L + (416 * ((y 0).val / 16) + 26 * ((y 0).val % 16) + f) % 13312) % 425984
        = (26 * (512 * wid L + (y 0).val) + f) % 425984 := by
      have h1 : 416 * ((y 0).val / 16) + 26 * ((y 0).val % 16) + f < 13312 := by omega
      rw [Nat.mod_eq_of_lt h1]
      congr 1
      omega
    simp only [tripOf]
    refine congrArg Wf (congrArg ix1 (Fin.ext ?_))
    exact congrArg (fun j : Fin 425984 => (X (ix1 j)).toNat % 1040384) (Fin.ext e)

/-- On its slice, what the tile's last copy leaves in the flat result is the one function of the flat arrays. -/
theorem tile_agree (X : Buf (Elt F) (xLoc d)) (Wf : Buf (Elt F) (wLoc d)) (B : Buf (Elt F) (bLoc d)) (fo : Buf (Elt F) (oLoc d))
    (fi : Buf (Elt F) ((sI).view.loc (V d (cV L) (jV L)))) (fso : Buf (Elt F) ((sO).view.loc (V d (cV L) (jV L))))
    (fsb : Buf (Elt F) ((sB).view.loc (V d (cV L) (jV L))))
    (hin : ∀ (g : Buf (Elt F) ((sI).view.loc (V d (cV L) (jV L)))) (x : S13312.Idx),
      ((sI).view.read (Elt F) ((sI).view.write (Elt F) g (idxP d L X) Finset.univ) x).toNat < S1040384.size gathers_S1040384_S13312.axis)
    (hX : ∀ i, (X i).toNat < 1040384) :
    ∀ i ∈ (oSl L).view.set,
      ((oSl L).view.writes (Elt F) fo [⟨Rect.whole S512, ReadAs.same.apply ((sO).view.read (Elt F)
        (outAt d L (rowsBuf d L X Wf fi hin) (biasV d L B fsb) fso (Scf.trips k0_t1_loop.lb k0_t1_loop.ub k0_t1_loop.st)))⟩]) i
        = GOv X Wf B i := by
  intro i hi
  obtain ⟨y, -, rfl⟩ := Finset.mem_map.mp hi
  have h1 := View.read_writes_cons_emb (oSl L).view fo (Rect.whole S512) (ReadAs.same.apply ((sO).view.read (Elt F)
        (outAt d L (rowsBuf d L X Wf fi hin) (biasV d L B fsb) fso (Scf.trips k0_t1_loop.lb k0_t1_loop.ub k0_t1_loop.st)))) [] y
  rw [Rect.emb_whole_apply, View.read_apply] at h1
  have h2 := (cast_eq _ _).symm.trans h1
  rw [h2]
  show outAt d L (rowsBuf d L X Wf fi hin) (biasV d L B fsb) fso (Scf.trips k0_t1_loop.lb k0_t1_loop.ub k0_t1_loop.st) y = _
  have ht : Scf.trips k0_t1_loop.lb k0_t1_loop.ub k0_t1_loop.st = 32 := by decide
  rw [ht]
  exact tile_value d L X Wf B fi fso fsb hin hX y

end Tile

end Cert.Proof.KI

end
-- ==== Proof.KITile.lean ====
/-
  One tile's task, run once at a symbolic tile. The fetch of the tile's flat indices and of the bias copies, the gather
  of the table's rows the indices name (every index names a row: the hypothesis on the flat indices), the loop of 32
  trips under the invariant "the gathered rows are untouched and the out scratch holds its first n trips' sums", and the
  copy of the 512 sums to the tile's slice of the flat result — which is then the one function of the flat arrays there.
  The tile returns the three arrays it read at the shares it was given, its scratch buffers and its semaphores at zero.
-/
import proofs.«207406_g23510650978335_cont_sun_m_507_26_alg».proof.Proof.KIValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's memrefs, spelt as the body table passes them
local notation "xW" => (Memref.whole Cert.KernelIdeal.main_v0_scv : Memref Cert.KernelIdeal.sig Kind.scVector Space.hbm Cert.KernelIdeal.S425984 EltTy.i32)
local notation "wW" => (Memref.whole Cert.KernelIdeal.main_v2_scv : Memref Cert.KernelIdeal.sig Kind.scVector Space.hbm Cert.KernelIdeal.S1040384 EltTy.f32)
local notation "bW" => (Memref.whole Cert.KernelIdeal.main_v3_scv : Memref Cert.KernelIdeal.sig Kind.scVector Space.hbm Cert.KernelIdeal.S16 EltTy.f32)
local notation "oW" => (Memref.whole Cert.KernelIdeal.main_v4_scv : Memref Cert.KernelIdeal.sig Kind.scVector Space.hbm Cert.KernelIdeal.S16384 EltTy.f32)
local notation "sI" => (Memref.whole Cert.KernelIdeal.cc0_scratch0 : Memref Cert.KernelIdeal.sig Kind.scVector Space.vmem Cert.KernelIdeal.S13312 EltTy.i32)
local notation "sR" => (Memref.whole Cert.KernelIdeal.cc0_scratch1 : Memref Cert.KernelIdeal.sig Kind.scVector Space.vmem Cert.KernelIdeal.S13312 EltTy.f32)
local notation "sO" => (Memref.whole Cert.KernelIdeal.cc0_scratch2 : Memref Cert.KernelIdeal.sig Kind.scVector Space.vmem Cert.KernelIdeal.S512 EltTy.f32)
local notation "sB" => (Memref.whole Cert.KernelIdeal.cc0_scratch3 : Memref Cert.KernelIdeal.sig Kind.scVector Space.vmem Cert.KernelIdeal.S16 EltTy.f32)

variable [FloatOps F]

section Tile

variable (d : Dev nD) (L : grid0.Coords)

abbrev thr (d : Dev nD) (L : grid0.Coords) : Thread nD τ := V d (cV L) (jV L)

abbrev cAcell (d : Dev nD) (c : Fin τ.nSC) (i : Fin τ.nSub) : GSem nD τ sig := (V d c i, .dma cc0_scratch4.sem)
abbrev cGcell (d : Dev nD) (c : Fin τ.nSC) (i : Fin τ.nSub) : GSem nD τ sig := (V d c i, .dma cc0_scratch5.sem)
abbrev cBcell (d : Dev nD) (c : Fin τ.nSC) (i : Fin τ.nSub) : GSem nD τ sig := (V d c i, .dma cc0_scoped0.sem)
abbrev cOcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cGcell d (cV L) (jV L)) 0 ∗ semVal (cBcell d (cV L) (jV L)) 0 ∗ semVal (cOcell d (cV L) (jV L)) 0
          ∗ bigSep (((((ownCells (V d (cV L) (jV L))).erase (cAcell d (cV L) (jV L))).erase (cGcell d (cV L) (jV L))).erase (cBcell d (cV L) (jV L))).erase (cOcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scratch4.sem : SemLoc sig).isScoped .scVector = true; decide⟩),
    SparseCore.bigSep_erase' (Finset.mem_erase.mpr ⟨by simp [cAcell, cGcell]; decide, (mem_ownCells (g := cGcell d (cV L) (jV L))).mpr ⟨rfl, by
      show (SemLoc.dma cc0_scratch5.sem : SemLoc sig).isScoped .scVector = true; decide⟩⟩),
    SparseCore.bigSep_erase' (Finset.mem_erase.mpr ⟨by simp [cGcell, cBcell]; decide, Finset.mem_erase.mpr ⟨by simp [cAcell, cBcell]; decide,
      (mem_ownCells (g := cBcell d (cV L) (jV L))).mpr ⟨rfl, by show (SemLoc.dma cc0_scoped0.sem : SemLoc sig).isScoped .scVector = true; decide⟩⟩⟩),
    SparseCore.bigSep_erase' (Finset.mem_erase.mpr ⟨by simp [cBcell, cOcell]; decide, Finset.mem_erase.mpr ⟨by simp [cGcell, cOcell]; decide, Finset.mem_erase.mpr ⟨by simp [cAcell, cOcell]; decide,
      (mem_ownCells (g := cOcell d (cV L) (jV L))).mpr ⟨rfl, by show (SemLoc.dma cc0_scoped1.sem : SemLoc sig).isScoped .scVector = true; decide⟩⟩⟩⟩)]

omit [FloatOps F] in
/-- Among the tile's own buffers: the index list, the gathered rows, the 512 sums, the bias copies — and whatever else it owns. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

/-- The loop's invariant: the gathered rows untouched, the out scratch at its first `n` trips' sums. -/
def inv (L : grid0.Coords) (R : Buf (Elt F) ((sR).view.loc (V d (cV L) (jV L)))) (v10 : Vec F S16 .f32)
    (f0 : Buf (Elt F) ((sO).view.loc (V d (cV L) (jV L)))) (n : ℕ) (_ : Unit) : sProp 𝕄 :=
  iprop(((sR).view.loc (V d (cV L) (jV L)) ↦{fullShare} R) ∗ ((sO).view.loc (V d (cV L) (jV L)) ↦{fullShare} outAt d L R v10 f0 n))

/-- One trip: twenty-six indexed loads of the rows, their sum from the bias, stored at the trip's sixteen lanes. -/
theorem region (R : Buf (Elt F) ((sR).view.loc (V d (cV L) (jV L)))) (v10 : Vec F S16 .f32)
    (f0 : Buf (Elt F) ((sO).view.loc (V d (cV L) (jV L)))) (k : Fin k0_t1_loop.trips) (acc : Unit) :
    inv d L R v10 f0 k.val acc
      ⊢ wp frame (wpE (defs₀ (F := F)) 𝒱₀ (V d (cV L) (jV L)) none) Set.univ
          (k0_t1_body L xW (Memref.isWhole_whole _) wW (Memref.isWhole_whole _) bW (Memref.isWhole_whole _) oW (Memref.isWhole_whole _)
            sI (Memref.isWhole_whole _) sR (Memref.isWhole_whole _) sO (Memref.isWhole_whole _) sB (Memref.isWhole_whole _) cc0_scratch4 cc0_scratch5 cc0_scoped0 cc0_scoped1 v10 k acc)
          (inv d L R v10 f0 (k.val + 1)) := by
  unfold inv
  rw [outAt_succ]
  iintro ⟨Hsr, Hso⟩
  unfold k0_t1_body
  sl_exec (disch := exact chk_c _ _ (by decide))
  iterate 26 (rw [SparseCore.vectorLoadIdx_bind (c := V d (cV L) (jV L))]; sl_exec (disch := exact chk_c _ _ (by decide)))
  sl_step
  isplitl [Hsr]; · iexact Hsr
  iexact Hso

/-- The task on the tile at grid point `L` of device `d`. -/
theorem tile_body (hF : (K (F := F)).Facts) (O : CellTallies nD τ sig (HIx 1)) (W : Waits sig (HIx 1)) (hO : ∀ g, O g none = 0)
    (q1 q2 q3 : PosShare TreeShare) (X : Buf (Elt F) (xLoc d)) (Wf : Buf (Elt F) (wLoc d)) (B : Buf (Elt F) (bLoc d)) (fo : Buf (Elt F) (oLoc d))
    (hX : ∀ i, (X i).toNat < 1040384) :
    iprop(levAts (K (F := F)).L (K (F := F)).lev ∗ emp
        ∗ ((xLoc d ↦{q1} X) ∗ (wLoc d ↦{q2} Wf) ∗ (bLoc d ↦{q3} B) ∗ (oLoc d ↦[(oSl L).view.set]{fullShare} fo))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__fm_linear_body L xW (Memref.isWhole_whole _) wW (Memref.isWhole_whole _) bW (Memref.isWhole_whole _) oW (Memref.isWhole_whole _)
            sI (Memref.isWhole_whole _) sR (Memref.isWhole_whole _) sO (Memref.isWhole_whole _) sB (Memref.isWhole_whole _) cc0_scratch4 cc0_scratch5 cc0_scoped0 cc0_scoped1)
          fun _ => (iprop(((xLoc d ↦{q1} X) ∗ (wLoc d ↦{q2} Wf) ∗ (bLoc d ↦{q3} B) ∗ (oLoc d ↦[(oSl L).view.set]{fullShare} GOv X Wf B))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  rw [cc0__fm_linear_body_eq_skeleton]; unfold cc0__fm_linear_body_skel
  rw [(K (F := F)).scopedBufs_V hF d (cV L) (jV L), SparseCore.Cfg.scopedSems0_V (Val := Elt F) d (cV L) (jV L), ownSems0_V, ownBufs_V]
  iintro ⟨#Hlv, -, ⟨Hx, Hw, Hb, Ho⟩, ⟨⟨%fi, Hsi⟩, ⟨%fr, Hsr⟩, ⟨%fso, Hso⟩, ⟨%fsb, Hsb⟩, Hbufs⟩, ⟨HsemA, HsemG, HsemB, HsemO, Hsems⟩, HO⟩
  ihave Hmw := ((K (F := F)).mayWaits_none (thr := V d (cV L) (jV L)) hO) $$ Hlv
  -- the arrays and the scratch buffers as the tile's memrefs address them
  ihave Hx := (Entails.of_eq (show (xLoc d ↦{q1} X : sProp 𝕄) = ((xW).view.loc (V d (cV L) (jV L)) ↦{q1} X) from rfl)) $$ Hx
  ihave Hw := (Entails.of_eq (show (wLoc d ↦{q2} Wf : sProp 𝕄) = ((wW).view.loc (V d (cV L) (jV L)) ↦{q2} Wf) from rfl)) $$ Hw
  ihave Hb := (Entails.of_eq (show (bLoc d ↦{q3} B : sProp 𝕄) = ((bW).view.loc (V d (cV L) (jV L)) ↦{q3} B) from rfl)) $$ Hb
  ihave Ho := (Entails.of_eq (show (oLoc d ↦[(oSl L).view.set]{fullShare} fo : sProp 𝕄) = ((oSl L).view.loc (V d (cV L) (jV L)) ↦[(oSl L).view.set]{fullShare} fo) from rfl)) $$ Ho
  ihave Hsi := (Entails.of_eq (show ((V d (cV L) (jV L)).loc cc0_scratch0 ↦{fullShare} fi : sProp 𝕄) = ((sI).view.loc (V d (cV L) (jV L)) ↦{fullShare} fi) from rfl)) $$ Hsi
  ihave Hsr := (Entails.of_eq (show ((V d (cV L) (jV L)).loc cc0_scratch1 ↦{fullShare} fr : sProp 𝕄) = ((sR).view.loc (V d (cV L) (jV L)) ↦{fullShare} fr) from rfl)) $$ Hsr
  ihave Hso := (Entails.of_eq (show ((V d (cV L) (jV L)).loc cc0_scratch2 ↦{fullShare} fso : sProp 𝕄) = ((sO).view.loc (V d (cV L) (jV L)) ↦{fullShare} fso) from rfl)) $$ Hso
  ihave Hsb := (Entails.of_eq (show ((V d (cV L) (jV L)).loc cc0_scratch3 ↦{fullShare} fsb : sProp 𝕄) = ((sB).view.loc (V d (cV L) (jV L)) ↦{fullShare} fsb) from rfl)) $$ Hsb
  have hin := idx_inb d L X hX
  -- the two fetches, the gather, the load of the bias copies
  sl_exec
  -- the 32 trips
  sl_for (inv d L (rowsBuf d L X Wf fi hin) (biasV d L B fsb) fso) $$ [Hsr Hso]
  case region => exact region d L _ _ _
  · unfold inv outAt
    isplitl [Hsr]; · iexact Hsr
    iexact Hso
  iintro %_ HI
  unfold inv
  icases HI with ⟨Hsr, Hso⟩
  -- the copy of the sums to the tile's slice of the flat result
  sl_exec
  sl_step
  ihave Ho := (Entails.of_eq (pointsTo_congr (tile_agree d L X Wf B fo fi fso fsb hin hX))) $$ Ho
  isplitl [Hx Hw Hb Ho]
  · isplitl [Hx]; · iexact Hx
    isplitl [Hw]; · iexact Hw
    isplitl [Hb]; · iexact Hb
    iexact Ho
  isplitl [Hsi Hsr Hso Hsb Hbufs]
  · isplitl [Hsi]; · iexists _; iexact Hsi
    isplitl [Hsr]; · iexists _; iexact Hsr
    isplitl [Hso]; · iexists _; iexact Hso
    isplitl [Hsb]; · iexists _; iexact Hsb
    iexact Hbufs
  isplitl [HsemA HsemG HsemB HsemO Hsems]
  · isplitl [HsemA]; · iexact HsemA
    isplitl [HsemG]; · iexact HsemG
    isplitl [HsemB]; · iexact HsemB
    isplitl [HsemO]; · iexact HsemO
    iexact Hsems
  iexists _; isplitr
  swap
  · iexact HO
  ipureintro; intro p hp
  rcases Finset.mem_insert.mp hp with hp | hp
  · exact .inr (by subst hp; rfl)
  rcases Finset.mem_insert.mp hp with hp | hp
  · exact .inr (by subst hp; rfl)
  rcases Finset.mem_insert.mp hp with hp | hp
  · exact .inr (by subst hp; rfl)
  rcases Finset.mem_insert.mp hp with hp | hp
  · exact .inr (by subst hp; rfl)
  · exact .inl hp

end Tile

end Cert.Proof.KI

end
-- ==== Proof.KILaunch.lean ====
/-
  The launch. @main reshapes the indices to a flat array, pads the table by 384 zero rows and flattens it, copies the bias
  sixteen times, starts the kernel on 2 SparseCores × 16 tiles and reshapes the flat result. The three arrays the tiles only
  read go out as read shares, one per SparseCore and then one per tile; the flat result goes out in the 32 slices the tiles
  write, and comes back, slice by slice, at the one function of the flat arrays. What remains with the TensorCore at the
  end: the three arguments at their launch contents and the result at that function, reshaped.
-/
import proofs.«207406_g23510650978335_cont_sun_m_507_26_alg».proof.Proof.KITile
import Idealize.ShloMosaic.Lib.Pipeline.Frame

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.TcCoe
open Idealize.ShloMosaic.StableHlo (held held_sub_split held_congr)

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The host operations around the call -/

/-- Before the call: the flat indices, the zero to pad with, the padded table and its flattening, the bias copies. -/
abbrev ops1 : List (HloOp τ sig (Elt F)) :=
  [ StableHlo.reshape main_arg0 main_v0 rfl shapeCasts_S16384x26_S425984,
    StableHlo.nullary main_c (constantI S_ 32 0#32),
    StableHlo.TRef.unary (.of main_c : StableHlo.TRef sig ⟨S_, .i32⟩) main_call0.v0 (sitofp .f32),
    StableHlo.TRef.binary (.of main_arg1 : StableHlo.TRef sig ⟨S1040000x1, .f32⟩) main_call0.v0 main_call0.v1
      (fun (x : (⟨S1040000x1, .f32⟩ : BufTy).Contents (Elt F)) (v : (⟨S_, .f32⟩ : BufTy).Contents (Elt F)) =>
        pad S1040384x1 ![0, 0] ![384, 0] ![0, 0] x v pads_S1040000x1_S1040384x1_03840_000 h_S_),
    StableHlo.reshape main_v1 main_v2 rfl shapeCasts_S1040384x1_S1040384,
    StableHlo.unary main_arg2 main_v3 (broadcastInDim S16 ![0] bcast_S1_S16_0 : (⟨S1, .f32⟩ : BufTy).Contents (Elt F) → (⟨S16, .f32⟩ : BufTy).Contents (Elt F)) ]

/-- After the call: the flat result as a column. -/
abbrev ops2 : List (HloOp τ sig (Elt F)) :=
  [ StableHlo.reshape main_v4 main_v5 rfl shapeCasts_S16384_S16384x1 ]

theorem main_eq (d : Dev nD) :
    main (F := F) d = (StableHlo.seq ops1 >>= fun _ => (sc (F := F)).run d 0 >>= fun _ => StableHlo.seq ops2) := by
  simp only [main, fn_pad.body, StableHlo.seq, bind_assoc, pure_bind]

theorem hops1 : ∀ op ∈ (ops1 : List (HloOp τ sig (Elt F))), op.bufs ⊆ Pipeline.ucRefs τ sig := by
  intro op hop
  simp only [List.mem_cons, List.mem_nil_iff, _root_.or_false] at hop
  rcases hop with rfl | rfl | rfl | rfl | rfl | rfl
  · exact Pipeline.sub_ucRefs _ (StableHlo.reshape_bufs_sub ..)
  · exact Pipeline.sub_ucRefs _ (StableHlo.nullary_bufs_sub ..)
  · exact Pipeline.sub_ucRefs _ (StableHlo.unary_bufs_sub ..)
  · exact Pipeline.sub_ucRefs _ (StableHlo.binary_bufs_sub ..)
  · exact Pipeline.sub_ucRefs _ (StableHlo.reshape_bufs_sub ..)
  · exact Pipeline.sub_ucRefs _ (StableHlo.unary_bufs_sub ..)
theorem hfresh1 : ∀ op ∈ (ops1 : List (HloOp τ sig (Elt F))), op.fresh = ∅ := by
  intro op hop
  simp only [List.mem_cons, List.mem_nil_iff, _root_.or_false] at hop
  rcases hop with rfl | rfl | rfl | rfl | rfl | rfl <;> rfl
theorem hops2 : ∀ op ∈ (ops2 : List (HloOp τ sig (Elt F))), op.bufs ⊆ Pipeline.ucRefs τ sig := by
  intro op hop
  obtain rfl := List.mem_singleton.mp hop
  exact Pipeline.sub_ucRefs _ (StableHlo.reshape_bufs_sub ..)
theorem hfresh2 : ∀ op ∈ (ops2 : List (HloOp τ sig (Elt F))), op.fresh = ∅ := by
  intro op hop
  obtain rfl := List.mem_singleton.mp hop
  rfl

/-! ## The arrays' contents -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev x' : DevRef τ sig := Proc.devRef .tc (main_v0 : Ref sig .tc)
abbrev w' : DevRef τ sig := Proc.devRef .tc (main_v2 : Ref sig .tc)
abbrev b' : DevRef τ sig := Proc.devRef .tc (main_v3 : Ref sig .tc)
abbrev o' : DevRef τ sig := Proc.devRef .tc (main_v4 : Ref sig .tc)
abbrev r' : DevRef τ sig := Proc.devRef .tc (main_v5 : Ref sig .tc)

/-- The launch contents, after the first host stretch, after the call, and at the end. -/
def V0 (d : Dev nD) : Valuation τ sig (Elt F) := fun b => m (d, b)
def VA (d : Dev nD) : Valuation τ sig (Elt F) := StableHlo.after ops1 (V0 m d)
/-- The flat indices, the padded flat table, the bias copies, the flat result. -/
def Xf (d : Dev nD) : Buf (Elt F) (xLoc d) := VA m d x'
def Wff (d : Dev nD) : Buf (Elt F) (wLoc d) := VA m d w'
def Bf (d : Dev nD) : Buf (Elt F) (bLoc d) := VA m d b'
def GOf (d : Dev nD) : Buf (Elt F) (oLoc d) := GOv (Xf m d) (Wff m d) (Bf m d)
def VB (d : Dev nD) : Valuation τ sig (Elt F) := Function.update (VA m d) o' (GOf m d)
def VC (d : Dev nD) : Valuation τ sig (Elt F) := StableHlo.after ops2 (VB m d)

/-- What the proof asks of the launch memory: every flat index names a row of the padded table. -/
def PreOK : Prop := ∀ (d : Dev nD) (i : S425984.Idx), (Xf m d i).toNat < 1040384

/-! ## What the handshakes carry -/

abbrev qC (c : Fin 2) : PosShare TreeShare := Transfers.shareTok fullShare 2 c
abbrev qT (c : Fin 2) (i : Fin 16) : PosShare TreeShare := Transfers.shareTok (qC c) 16 i
/-- Tile (c, i)'s slice of the flat result, and a SparseCore's sixteen slices. -/
abbrev blk (c : Fin 2) (i : Fin 16) : Finset S16384.Idx := (oSl (coordsV c i)).view.set
abbrev coreSet (c : Fin 2) : Finset S16384.Idx := Finset.univ.biUnion (blk c)

theorem bound_zero : grid0.bound 0 = 2 := rfl
theorem bound_one : grid0.bound 1 = 16 := rfl

/-- The call takes, per SparseCore, a read share of the three flat arrays and the SparseCore's slices of the flat result;
    each tile a read share of the three and its slice; and brings them back, the result's slices at the one function. -/
def P : (K (F := F)).Pay (nD := nD) (Val := Elt F) (Name := ℕ) (U := UU) where
  st := fun q d c => match q with
    | 0 => iprop((xLoc d ↦{qC (Fin.cast nCore_zero c)} Xf m d) ∗ (wLoc d ↦{qC (Fin.cast nCore_zero c)} Wff m d)
        ∗ (bLoc d ↦{qC (Fin.cast nCore_zero c)} Bf m d) ∗ (oLoc d ↦[coreSet (Fin.cast nCore_zero c)]{fullShare} VA m d o'))
  dn := fun q d c => match q with
    | 0 => iprop((xLoc d ↦{qC (Fin.cast nCore_zero c)} Xf m d) ∗ (wLoc d ↦{qC (Fin.cast nCore_zero c)} Wff m d)
        ∗ (bLoc d ↦{qC (Fin.cast nCore_zero c)} Bf m d) ∗ (oLoc d ↦[coreSet (Fin.cast nCore_zero c)]{fullShare} GOf m d))
  go := fun q d c i => match q with
    | 0 => iprop((xLoc d ↦{qT (Fin.cast nCore_zero c) (Fin.cast nSub_zero i)} Xf m d) ∗ (wLoc d ↦{qT (Fin.cast nCore_zero c) (Fin.cast nSub_zero i)} Wff m d)
        ∗ (bLoc d ↦{qT (Fin.cast nCore_zero c) (Fin.cast nSub_zero i)} Bf m d)
        ∗ (oLoc d ↦[blk (Fin.cast nCore_zero c) (Fin.cast nSub_zero i)]{fullShare} VA m d o'))
  td := fun q d c i => match q with
    | 0 => iprop((xLoc d ↦{qT (Fin.cast nCore_zero c) (Fin.cast nSub_zero i)} Xf m d) ∗ (wLoc d ↦{qT (Fin.cast nCore_zero c) (Fin.cast nSub_zero i)} Wff m d)
        ∗ (bLoc d ↦{qT (Fin.cast nCore_zero c) (Fin.cast nSub_zero i)} Bf m d)
        ∗ (oLoc d ↦[blk (Fin.cast nCore_zero c) (Fin.cast nSub_zero i)]{fullShare} GOf m d))
  x := fun _ _ => iprop(emp)

instance P_storable : (P (F := F) m).IsStorable where
  st q d c := match q with
    | 0 => (inferInstance : BI.Storable (upEmb : UEmb _ 𝕄) iprop((xLoc d ↦{qC (Fin.cast nCore_zero c)} Xf m d) ∗ (wLoc d ↦{qC (Fin.cast nCore_zero c)} Wff m d)
        ∗ (bLoc d ↦{qC (Fin.cast nCore_zero c)} Bf m d) ∗ (oLoc d ↦[coreSet (Fin.cast nCore_zero c)]{fullShare} VA m d o')))
  dn q d c := match q with
    | 0 => (inferInstance : BI.Storable (upEmb : UEmb _ 𝕄) iprop((xLoc d ↦{qC (Fin.cast nCore_zero c)} Xf m d) ∗ (wLoc d ↦{qC (Fin.cast nCore_zero c)} Wff m d)
        ∗ (bLoc d ↦{qC (Fin.cast nCore_zero c)} Bf m d) ∗ (oLoc d ↦[coreSet (Fin.cast nCore_zero c)]{fullShare} GOf m d)))
  go q d c i := match q with
    | 0 => (inferInstance : BI.Storable (upEmb : UEmb _ 𝕄) iprop((xLoc d ↦{qT (Fin.cast nCore_zero c) (Fin.cast nSub_zero i)} Xf m d) ∗ (wLoc d ↦{qT (Fin.cast nCore_zero c) (Fin.cast nSub_zero i)} Wff m d)
        ∗ (bLoc d ↦{qT (Fin.cast nCore_zero c) (Fin.cast nSub_zero i)} Bf m d)
        ∗ (oLoc d ↦[blk (Fin.cast nCore_zero c) (Fin.cast nSub_zero i)]{fullShare} VA m d o')))
  td q d c i := match q with
    | 0 => (inferInstance : BI.Storable (upEmb : UEmb _ 𝕄) iprop((xLoc d ↦{qT (Fin.cast nCore_zero c) (Fin.cast nSub_zero i)} Xf m d) ∗ (wLoc d ↦{qT (Fin.cast nCore_zero c) (Fin.cast nSub_zero i)} Wff m d)
        ∗ (bLoc d ↦{qT (Fin.cast nCore_zero c) (Fin.cast nSub_zero i)} Bf m d)
        ∗ (oLoc d ↦[blk (Fin.cast nCore_zero c) (Fin.cast nSub_zero i)]{fullShare} GOf m d)))

/-! ## The tile's obligation -/

local notation "xW" => (Memref.whole Cert.KernelIdeal.main_v0_scv : Memref Cert.KernelIdeal.sig Kind.scVector Space.hbm Cert.KernelIdeal.S425984 EltTy.i32)
local notation "wW" => (Memref.whole Cert.KernelIdeal.main_v2_scv : Memref Cert.KernelIdeal.sig Kind.scVector Space.hbm Cert.KernelIdeal.S1040384 EltTy.f32)
local notation "bW" => (Memref.whole Cert.KernelIdeal.main_v3_scv : Memref Cert.KernelIdeal.sig Kind.scVector Space.hbm Cert.KernelIdeal.S16 EltTy.f32)
local notation "oW" => (Memref.whole Cert.KernelIdeal.main_v4_scv : Memref Cert.KernelIdeal.sig Kind.scVector Space.hbm Cert.KernelIdeal.S16384 EltTy.f32)
local notation "sI" => (Memref.whole Cert.KernelIdeal.cc0_scratch0 : Memref Cert.KernelIdeal.sig Kind.scVector Space.vmem Cert.KernelIdeal.S13312 EltTy.i32)
local notation "sR" => (Memref.whole Cert.KernelIdeal.cc0_scratch1 : Memref Cert.KernelIdeal.sig Kind.scVector Space.vmem Cert.KernelIdeal.S13312 EltTy.f32)
local notation "sO" => (Memref.whole Cert.KernelIdeal.cc0_scratch2 : Memref Cert.KernelIdeal.sig Kind.scVector Space.vmem Cert.KernelIdeal.S512 EltTy.f32)
local notation "sB" => (Memref.whole Cert.KernelIdeal.cc0_scratch3 : Memref Cert.KernelIdeal.sig Kind.scVector Space.vmem Cert.KernelIdeal.S16 EltTy.f32)

theorem defs₀_vector (c : Fin τ.nSC) (s : Fin τ.nSub) :
    defs₀ (F := F) (.scVector c s) 0 ()
      = SparseCore.onTile hcore0 hsub0 (fun c s => cc0__fm_linear_body (coordsV c s)
          xW (Memref.isWhole_whole _) wW (Memref.isWhole_whole _) bW (Memref.isWhole_whole _) oW (Memref.isWhole_whole _)
          sI (Memref.isWhole_whole _) sR (Memref.isWhole_whole _) sO (Memref.isWhole_whole _) sB (Memref.isWhole_whole _)
          cc0_scratch4 cc0_scratch5 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  -- the tiles signal nobody: nothing is owed beyond the launch's own handshakes
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF O W hO _ _ _ (Xf m d) (Wff m d) (Bf m d) (VA m d o') (hpre d)).trans
    (wp_mono frame _ _ fun _ => obl_post)

/-! ## The slices of the flat result -/

omit [FloatOps F] in
/-- Tile (c, s) writes the 512 entries whose block number is `2 s + c`. -/
theorem mem_blk (c : Fin 2) (s : Fin 16) (i : S16384.Idx) : i ∈ blk c s ↔ (i 0).val / 512 = 2 * s.val + c.val := by
  have hw : wid (coordsV c s) = 2 * s.val + c.val := rfl
  have h512 : S512.size 0 = 512 := rfl
  show i ∈ ((View.whole main_v4_scv).slice (Rect.unit (s := S16384) (k0_off3 (coordsV c s)) S512.size (k0_off3_inb _))).set ↔ _
  rw [View.set_slice_whole, Rect.mem_set_unit]
  constructor
  · intro h
    have h0 := h (0 : Fin 1)
    rw [off3_val, hw] at h0
    omega
  · intro h a
    match a with
    | ⟨0, _⟩ =>
      show k0_off3 (coordsV c s) 0 ≤ (i 0).val ∧ (i 0).val < k0_off3 (coordsV c s) 0 + S512.size 0
      rw [off3_val, hw]
      omega

omit [FloatOps F] in
theorem blk_disj (c : Fin 2) : ∀ i ∈ (Finset.univ : Finset (Fin 16)), ∀ j ∈ (Finset.univ : Finset (Fin 16)), i ≠ j → Disjoint (blk c i) (blk c j) := by
  intro i _ j _ hij
  refine Finset.disjoint_left.mpr fun x hi hj => hij (Fin.ext ?_)
  have h1 := (mem_blk c i x).mp hi
  have h2 := (mem_blk c j x).mp hj
  omega

omit [FloatOps F] in
theorem mem_coreSet (c : Fin 2) (x : S16384.Idx) : x ∈ coreSet c ↔ ((x 0).val / 512) % 2 = c.val := by
  have hx : (x 0).val < 16384 := (x 0).isLt
  have hc : c.val < 2 := c.isLt
  unfold coreSet
  rw [Finset.mem_biUnion]
  constructor
  · rintro ⟨s, -, hs⟩
    have := (mem_blk c s x).mp hs
    omega
  · intro h
    refine ⟨⟨(x 0).val / 512 / 2, by omega⟩, Finset.mem_univ _, (mem_blk c _ x).mpr ?_⟩
    show (x 0).val / 512 = 2 * ((x 0).val / 512 / 2) + c.val
    omega

omit [FloatOps F] in
theorem core_disj : ∀ c ∈ (Finset.univ : Finset (Fin 2)), ∀ c' ∈ (Finset.univ : Finset (Fin 2)), c ≠ c' → Disjoint (coreSet c) (coreSet c') := by
  intro c _ c' _ hcc
  refine Finset.disjoint_left.mpr fun x h1 h2 => hcc (Fin.ext ?_)
  have := (mem_coreSet c x).mp h1
  have := (mem_coreSet c' x).mp h2
  omega

omit [FloatOps F] in
theorem core_cover : (Finset.univ : Finset (Fin 2)).biUnion coreSet = Finset.univ := by
  refine Finset.eq_univ_iff_forall.mpr fun x => Finset.mem_biUnion.mpr
    ⟨⟨((x 0).val / 512) % 2, Nat.mod_lt _ (by decide)⟩, Finset.mem_univ _, (mem_coreSet _ x).mpr rfl⟩

/-! ## A SparseCore's operands split among its tiles -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show iprop((xLoc d ↦{qC (Fin.cast nCore_zero c)} Xf m d) ∗ (wLoc d ↦{qC (Fin.cast nCore_zero c)} Wff m d)
        ∗ (bLoc d ↦{qC (Fin.cast nCore_zero c)} Bf m d) ∗ (oLoc d ↦[coreSet (Fin.cast nCore_zero c)]{fullShare} VA m d o'))
    ⊢ |={Set.univ}=> iprop(
      (bigSep Finset.univ fun i : Fin ((K (F := F)).nSub 0) =>
        iprop((xLoc d ↦{qT (Fin.cast nCore_zero c) (Fin.cast nSub_zero i)} Xf m d) ∗ (wLoc d ↦{qT (Fin.cast nCore_zero c) (Fin.cast nSub_zero i)} Wff m d)
          ∗ (bLoc d ↦{qT (Fin.cast nCore_zero c) (Fin.cast nSub_zero i)} Bf m d)
          ∗ (oLoc d ↦[blk (Fin.cast nCore_zero c) (Fin.cast nSub_zero i)]{fullShare} VA m d o')))
      ∗ ((bigSep Finset.univ fun i : Fin ((K (F := F)).nSub 0) =>
          iprop((xLoc d ↦{qT (Fin.cast nCore_zero c) (Fin.cast nSub_zero i)} Xf m d) ∗ (wLoc d ↦{qT (Fin.cast nCore_zero c) (Fin.cast nSub_zero i)} Wff m d)
            ∗ (bLoc d ↦{qT (Fin.cast nCore_zero c) (Fin.cast nSub_zero i)} Bf m d)
            ∗ (oLoc d ↦[blk (Fin.cast nCore_zero c) (Fin.cast nSub_zero i)]{fullShare} GOf m d)))
          -∗ iprop((xLoc d ↦{qC (Fin.cast nCore_zero c)} Xf m d) ∗ (wLoc d ↦{qC (Fin.cast nCore_zero c)} Wff m d)
            ∗ (bLoc d ↦{qC (Fin.cast nCore_zero c)} Bf m d) ∗ (oLoc d ↦[coreSet (Fin.cast nCore_zero c)]{fullShare} GOf m d))))
  generalize Fin.cast nCore_zero c = c'
  rw [bigSep_tasks (F := F) (fun i => iprop((xLoc d ↦{qT c' i} Xf m d) ∗ (wLoc d ↦{qT c' i} Wff m d) ∗ (bLoc d ↦{qT c' i} Bf m d) ∗ (oLoc d ↦[blk c' i]{fullShare} VA m d o'))),
    bigSep_tasks (F := F) (fun i => iprop((xLoc d ↦{qT c' i} Xf m d) ∗ (wLoc d ↦{qT c' i} Wff m d) ∗ (bLoc d ↦{qT c' i} Bf m d) ∗ (oLoc d ↦[blk c' i]{fullShare} GOf m d))),
    bigSep_sep', bigSep_sep', bigSep_sep', bigSep_sep', bigSep_sep', bigSep_sep']
  unfold coreSet
  rw [pointsTo_biUnion Finset.univ (ℓ := oLoc d) (blk c') (blk_disj c'), pointsTo_biUnion Finset.univ (ℓ := oLoc d) (blk c') (blk_disj c')]
  iintro ⟨Hx, Hw, Hb, Ho⟩
  ihave Hx := (Transfers.pointsTo_toks_split (qC c') 16) $$ Hx
  ihave Hw := (Transfers.pointsTo_toks_split (qC c') 16) $$ Hw
  ihave Hb := (Transfers.pointsTo_toks_split (qC c') 16) $$ Hb
  icases Hx with ⟨Hxd, Hxs⟩
  icases Hw with ⟨Hwd, Hws⟩
  icases Hb with ⟨Hbd, Hbs⟩
  imodintro
  isplitl [Hxs Hws Hbs Ho]
  · isplitl [Hxs]; · iexact Hxs
    isplitl [Hws]; · iexact Hws
    isplitl [Hbs]; · iexact Hbs
    iexact Ho
  iintro ⟨Hxs, Hws, Hbs, Ho⟩
  isplitl [Hxd Hxs]
  · iapply (Transfers.pointsTo_toks_join (qC c') 16); isplitl [Hxd]; · iexact Hxd
    iexact Hxs
  isplitl [Hwd Hws]
  · iapply (Transfers.pointsTo_toks_join (qC c') 16); isplitl [Hwd]; · iexact Hwd
    iexact Hws
  isplitl [Hbd Hbs]
  · iapply (Transfers.pointsTo_toks_join (qC c') 16); isplitl [Hbd]; · iexact Hbd
    iexact Hbs
  iexact Ho

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The four arrays the call takes and the four the claim speaks of. -/
abbrev T4 : Finset (DevRef τ sig) := {x', w', b', o'}
abbrev A4 : Finset (DevRef τ sig) := {a0', a1', a2', r'}

omit [FloatOps F] in
theorem T4_sub : T4 ⊆ Pipeline.ucRefs τ sig := by decide
omit [FloatOps F] in
theorem A4_sub : A4 ⊆ Pipeline.ucRefs τ sig := by decide

omit [FloatOps F] in
theorem held_T4 (d : Dev nD) (W : Valuation τ sig (Elt F)) :
    (held (T d) T4 W : sProp 𝕄) = iprop((xLoc d ↦{fullShare} W x') ∗ (wLoc d ↦{fullShare} W w') ∗ (bLoc d ↦{fullShare} W b') ∗ (oLoc d ↦{fullShare} W o')) := by
  unfold held T4
  rw [SparseCore.bigSep_insert' (by decide), SparseCore.bigSep_insert' (by decide), SparseCore.bigSep_insert' (by decide), bigSep_singleton]
omit [FloatOps F] in
theorem held_A4 (d : Dev nD) (W : Valuation τ sig (Elt F)) :
    (held (T d) A4 W : sProp 𝕄) = iprop((a0Loc d ↦{fullShare} W a0') ∗ (a1Loc d ↦{fullShare} W a1') ∗ (a2Loc d ↦{fullShare} W a2') ∗ (rLoc d ↦{fullShare} W r')) := by
  unfold held A4
  rw [SparseCore.bigSep_insert' (by decide), SparseCore.bigSep_insert' (by decide), SparseCore.bigSep_insert' (by decide), bigSep_singleton]

theorem VB_x (d : Dev nD) : VB m d x' = Xf m d := Function.update_of_ne (show x' ≠ o' by decide) _ _
theorem VB_w (d : Dev nD) : VB m d w' = Wff m d := Function.update_of_ne (show w' ≠ o' by decide) _ _
theorem VB_b (d : Dev nD) : VB m d b' = Bf m d := Function.update_of_ne (show b' ≠ o' by decide) _ _
theorem VB_o (d : Dev nD) : VB m d o' = GOf m d := Function.update_self _ _ _

theorem held_rest (d : Dev nD) : (held (T d) (Pipeline.ucRefs τ sig \ T4) (VB m d) : sProp 𝕄) = held (T d) (Pipeline.ucRefs τ sig \ T4) (VA m d) :=
  held_congr (T d) fun b hb => Function.update_of_ne (fun e => (Finset.mem_sdiff.mp hb).2 (by rw [e]; decide)) _ _

/-- The arguments are untouched by the host operations; the kernel's call does not name them. -/
theorem VC_a0 (d : Dev nD) : VC m d a0' = m (a0Loc d) := by
  unfold VC VB VA V0
  simp only [StableHlo.after_cons, StableHlo.after_nil]
  rfl
theorem VC_a1 (d : Dev nD) : VC m d a1' = m (a1Loc d) := by
  unfold VC VB VA V0
  simp only [StableHlo.after_cons, StableHlo.after_nil]
  rfl
theorem VC_a2 (d : Dev nD) : VC m d a2' = m (a2Loc d) := by
  unfold VC VB VA V0
  simp only [StableHlo.after_cons, StableHlo.after_nil]
  rfl

theorem st0_eq (d : Dev nD) :
    (bigSep Finset.univ fun c : Fin ((K (F := F)).nCore 0) => (P m).st 0 d c)
      = bigSep Finset.univ fun c : Fin 2 => iprop((xLoc d ↦{qC c} Xf m d) ∗ (wLoc d ↦{qC c} Wff m d) ∗ (bLoc d ↦{qC c} Bf m d) ∗ (oLoc d ↦[coreSet c]{fullShare} VA m d o')) :=
  bigSep_cores (F := F) (fun c => iprop((xLoc d ↦{qC c} Xf m d) ∗ (wLoc d ↦{qC c} Wff m d) ∗ (bLoc d ↦{qC c} Bf m d) ∗ (oLoc d ↦[coreSet c]{fullShare} VA m d o')))
theorem dn0_eq (d : Dev nD) :
    (bigSep Finset.univ fun c : Fin ((K (F := F)).nCore 0) => (P m).dn 0 d c)
      = bigSep Finset.univ fun c : Fin 2 => iprop((xLoc d ↦{qC c} Xf m d) ∗ (wLoc d ↦{qC c} Wff m d) ∗ (bLoc d ↦{qC c} Bf m d) ∗ (oLoc d ↦[coreSet c]{fullShare} GOf m d)) :=
  bigSep_cores (F := F) (fun c => iprop((xLoc d ↦{qC c} Xf m d) ∗ (wLoc d ↦{qC c} Wff m d) ∗ (bLoc d ↦{qC c} Bf m d) ∗ (oLoc d ↦[coreSet c]{fullShare} GOf m d)))

omit [FloatOps F] in
theorem o_cores (d : Dev nD) (f : Buf (Elt F) (oLoc d)) :
    (oLoc d ↦{fullShare} f : sProp 𝕄) = bigSep Finset.univ fun c : Fin 2 => oLoc d ↦[coreSet c]{fullShare} f := by
  rw [← pointsTo_biUnion Finset.univ (ℓ := oLoc d) coreSet core_disj, core_cover]; try rfl

/-- What @main leaves the claim: the three arguments at their launch contents, the result at the reshaped flat result. -/
abbrev FIN (d : Dev nD) : sProp 𝕄 :=
  iprop((a0Loc d ↦{fullShare} m (a0Loc d)) ∗ (a1Loc d ↦{fullShare} m (a1Loc d)) ∗ (a2Loc d ↦{fullShare} m (a2Loc d)) ∗ (rLoc d ↦{fullShare} VC m d r'))

set_option backward.isDefEq.respectTransparency.types false in
/-- @main on device `d`'s TensorCore: the host operations before the call, the call, the reshape after it. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [main_eq]
  iintro ⟨#Hctx, Hst, ⟨Hb, Hu, -, -⟩, -⟩
  ihave Hheld := (Entails.of_eq ((show (unscopedBufs d (fun b => m ((SparseCore.T d).loc b)) : sProp 𝕄) = unscopedBufs d (fun b => V0 m d b) from rfl).trans
    (Pipeline.unscopedBufs_held (Ix := HIx 1) (Name := ℕ) (U := UU) (Lvl := ℕ) d (V0 m d)))) $$ Hu
  -- the host operations before the call
  iapply (StableHlo.wp_seq 𝒱 none Set.univ d (Pipeline.ucRefs τ sig) _ ops1 hops1 hfresh1 (V0 m d)) $$ [Hb Hheld]
  · isplitl [Hb]; · iexact Hb
    iexact Hheld
  iintro ⟨Hb, Hheld⟩
  ihave Hheld := (Entails.of_eq (show (held (SparseCore.T d) (Pipeline.ucRefs τ sig) (StableHlo.after ops1 (V0 m d)) : sProp 𝕄)
    = held (T d) (Pipeline.ucRefs τ sig) (VA m d) from rfl)) $$ Hheld
  ihave Hh := (Entails.of_eq ((held_sub_split (T d) T4_sub (VA m d)).trans (congrArg (fun A => iprop(A ∗ held (T d) (Pipeline.ucRefs τ sig \ T4) (VA m d))) (held_T4 d (VA m d))))) $$ Hheld
  icases Hh with ⟨⟨Hx, Hw, Hbb, Ho⟩, Hrest⟩
  -- the three read arrays as a share per SparseCore, the flat result as the SparseCores' slices
  ihave Hx := (Transfers.pointsTo_toks_split fullShare 2) $$ Hx
  ihave Hw := (Transfers.pointsTo_toks_split fullShare 2) $$ Hw
  ihave Hbb := (Transfers.pointsTo_toks_split fullShare 2) $$ Hbb
  icases Hx with ⟨Hxd, Hxs⟩
  icases Hw with ⟨Hwd, Hws⟩
  icases Hbb with ⟨Hbd, Hbs⟩
  ihave Ho := (Entails.of_eq (o_cores d _)) $$ Ho
  -- the call
  rw [wp_bind]
  iapply ((K (F := F)).wp_run (D (F := F)) 𝒱 (EH := EH) (P := P m) κ d 0) $$ [Hst Hxs Hws Hbs Ho Hb Hrest Hxd Hwd Hbd]
  isplitr; · iexact Hctx
  isplitl [Hst]; · iexact Hst
  isplitl [Hxs Hws Hbs Ho]
  · rw [st0_eq, bigSep_sep', bigSep_sep', bigSep_sep']
    isplitl [Hxs]; · iexact Hxs
    isplitl [Hws]; · iexact Hws
    isplitl [Hbs]; · iexact Hbs
    iexact Ho
  iintro ⟨Hst, Hdn⟩
  ihave Hdn := (Entails.of_eq ((dn0_eq m d).trans (by rw [bigSep_sep', bigSep_sep', bigSep_sep']))) $$ Hdn
  icases Hdn with ⟨Hxs, Hws, Hbs, Ho⟩
  ihave Ho := (Entails.of_eq (o_cores d _).symm) $$ Ho
  ihave Hx := (Transfers.pointsTo_toks_join fullShare 2) $$ [Hxd Hxs]
  · isplitl [Hxd]; · iexact Hxd
    iexact Hxs
  ihave Hw := (Transfers.pointsTo_toks_join fullShare 2) $$ [Hwd Hws]
  · isplitl [Hwd]; · iexact Hwd
    iexact Hws
  ihave Hbb := (Transfers.pointsTo_toks_join fullShare 2) $$ [Hbd Hbs]
  · isplitl [Hbd]; · iexact Hbd
    iexact Hbs
  -- all the arrays again, the flat result at what the tiles left
  ihave Hheld := (Entails.of_eq ((held_sub_split (T d) T4_sub (VB m d)).trans (congrArg₂ (fun A B => iprop(A ∗ B)) (held_T4 d (VB m d)) (held_rest m d))).symm) $$ [Hx Hw Hbb Ho Hrest]
  · rw [VB_x, VB_w, VB_b, VB_o]
    isplitl [Hx Hw Hbb Ho]
    · isplitl [Hx]; · iexact Hx
      isplitl [Hw]; · iexact Hw
      isplitl [Hbb]; · iexact Hbb
      iexact Ho
    iexact Hrest
  -- the reshape after the call
  rw [show (StableHlo.seq ops2 : Prog (TpuEff nD τ sig (Elt F) _ .tc) PUnit) = StableHlo.seq ops2 >>= pure from (bind_pure _).symm]
  iapply (StableHlo.wp_seq 𝒱 none Set.univ d (Pipeline.ucRefs τ sig) _ ops2 hops2 hfresh2 (VB m d)) $$ [Hb Hheld]
  · isplitl [Hb]; · iexact Hb
    iexact Hheld
  iintro ⟨Hb, Hheld⟩
  ihave Hheld := (Entails.of_eq (show (held (SparseCore.T d) (Pipeline.ucRefs τ sig) (StableHlo.after ops2 (VB m d)) : sProp 𝕄)
    = held (T d) (Pipeline.ucRefs τ sig) (VC m d) from rfl)) $$ Hheld
  ihave Hh := (Entails.of_eq ((held_sub_split (T d) A4_sub (VC m d)).trans (congrArg (fun A => iprop(A ∗ held (T d) (Pipeline.ucRefs τ sig \ A4) (VC m d))) (held_A4 d (VC m d))))) $$ Hheld
  icases Hh with ⟨⟨Ha0, Ha1, Ha2, Hr⟩, -⟩
  rw [VC_a0, VC_a1, VC_a2]
  rw [wp_pure]; imodintro
  isplitl [Hst]; · iexact Hst
  isplitl [Ha0]; · iexact Ha0
  isplitl [Ha1]; · iexact Ha1
  isplitl [Ha2]; · iexact Ha2
  iexact Hr

def fq (d : Dev nD) (s' : Phys nD τ sig (Elt F)) : Prop :=
  s'.mem.mem (a0Loc d) = m (a0Loc d) ∧ s'.mem.mem (a1Loc d) = m (a1Loc d) ∧ s'.mem.mem (a2Loc d) = m (a2Loc d) ∧ s'.mem.mem (rLoc d) = VC m d r'

theorem hfin (d : Dev nD) (s' : Phys nD τ sig (Elt F)) : iprop(FIN m d ∗ SI s') ⊢ (⌜fq m d s'⌝ : sProp 𝕄) := by
  iintro ⟨⟨H0, H1, H2, Hr⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (SI_pointsTo_agree (st := s') (ℓ := rLoc d) (I := Finset.univ) (q := fullShare) (f := VC m d r')) $$ [HSI Hr]
  · isplitl [HSI] <;> iassumption
  icases H with %h3
  ipureintro
  exact ⟨funext fun i => h0 i (Finset.mem_univ i), funext fun i => h1 i (Finset.mem_univ i), funext fun i => h2 i (Finset.mem_univ i),
    funext fun i => h3 i (Finset.mem_univ i)⟩

/-! ## The program's run -/

def QC : PUnit × MemSt nD τ sig (Elt F) → Prop := fun r => ∀ c : Dev nD,
  r.2.mem (a0Loc c) = m (a0Loc c) ∧ r.2.mem (a1Loc c) = m (a1Loc c) ∧ r.2.mem (a2Loc c) = m (a2Loc c) ∧ r.2.mem (rLoc c) = VC m c r'

/-- Every weakly fair execution of the device's threads terminates, nothing faulting, the arguments unchanged and the
    result at the reshaped flat result. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

/-! ## The result as a pure term of the arguments -/

/-- The kernel's result: the flat result over the flattened indices, the padded flattened table and the bias copies, as a column. -/
def kOut (x : IVec S16384x26 32) (w : FVec F S1040000x1 .f32) (b : FVec F S1 .f32) : FVec F S16384x1 .f32 :=
  shapeCast S16384x1
    (GOv (F := F) (shapeCast S425984 x shapeCasts_S16384x26_S425984)
      (shapeCast S1040384 (pad S1040384x1 ![0, 0] ![384, 0] ![0, 0] w (sitofp .f32 (constantI S_ 32 0#32)) pads_S1040000x1_S1040384x1_03840_000 h_S_)
        shapeCasts_S1040384x1_S1040384)
      (broadcastInDim S16 ![0] bcast_S1_S16_0 b))
    shapeCasts_S16384_S16384x1

theorem Xf_eq (d : Dev nD) : Xf m d = shapeCast S425984 (m (a0Loc d)) shapeCasts_S16384x26_S425984 := by
  unfold Xf VA V0
  simp only [StableHlo.after_cons, StableHlo.after_nil]
  rfl

attribute [local irreducible] GOv pad in
set_option maxRecDepth 8192 in
theorem VC_r (d : Dev nD) : VC m d r' = kOut (m (a0Loc d)) (m (a1Loc d)) (m (a2Loc d)) := by
  unfold VC VB GOf Xf Wff Bf VA V0 kOut
  simp only [StableHlo.after_cons, StableHlo.after_nil]
  rfl

/-- Indices in the table's range give flat indices in the padded table's. -/
theorem preOK_of_range (h : ∀ (d : Dev nD) (j : S16384x26.Idx), (m (a0Loc d) j).toNat < 1040000) : PreOK m := by
  intro d i
  rw [Xf_eq]
  unfold shapeCast
  exact lt_trans (h d _) (by decide)

end Cert.Proof.KI

end
-- ==== Proof.RefRun.lean ====
/-
  The reference's run. Its @main is a straight line of host operations once the two outlined functions are
  unfolded at their calls: the indices with the negative ones wrapped, their range mask, the gather of the table's
  rows, the masked select against the fill value, the sum over the fields from zero, and the bias added. Every weakly
  fair execution ends with each buffer at the operations' fold over the launch contents; the result buffer's fold is
  the pure term `refOut` of the three arguments.
-/
import proofs.«207406_g23510650978335_cont_sun_m_507_26_alg».proof.ReferenceIdeal
import proofs.«207406_g23510650978335_cont_sun_m_507_26_alg».proof.Proof.Gen.ReferenceIdeal
import Idealize.ShloMosaic.Lib.StableHlo.Run

noncomputable section

namespace Cert.Proof.RefRun

open Cert.ReferenceIdeal Cert.ReferenceIdeal.Gen
open Idealize.ShloMosaic Idealize.ShloMosaic.TcCoe Idealize.SL.Sem
open Idealize.ShloMosaic.StableHlo

variable {F : FTy → Type} [FloatOps F]

/-- The operations of @main in order, the two outlined functions' operations at their calls. -/
abbrev ops : List (HloOp τ sig (Elt F)) :=
  [ TRef.nullary main_call0.c (constantI S_ 32 0#32),
    TRef.unary main_call0.c main_call0.v0 (broadcastInDim S16384x26 ![] bcast_S_S16384x26),
    TRef.binary (.of main_arg0) main_call0.v0 main_call0.v1 (cmpi .slt),
    TRef.nullary main_call0.c_0 (constantI S_ 32 1040000#32),
    TRef.unary main_call0.c_0 main_call0.v2 (broadcastInDim S16384x26 ![] bcast_S_S16384x26),
    TRef.binary (.of main_arg0) main_call0.v2 main_call0.v3 addi,
    TRef.ternary main_call0.v1 main_call0.v3 (.of main_arg0) main_call0.call0.v0 select,
    TRef.unary main_call0.call0.v0 main_call0.v5 (broadcastInDim S16384x26x1 ![0, 1] bcast_S16384x26_S16384x26x1_0_1),
    TRef.nullary main_call0.c_1 (constantI S1 32 1039999#32),
    TRef.nullary main_call0.c_2 (constantI S_ 32 0#32),
    TRef.unary main_call0.c_2 main_call0.v6 (broadcastInDim S16384x26x1 ![] bcast_S_S16384x26x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16384x26x1 ![0, 1, 2] bcast_S1x1x1_S16384x26x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x26x1_S16384x26_d2 h_S_),
    TRef.binary (.of main_arg1) main_call0.v5 main_call0.v13 (fun x i => Host.gather gather_S1040000x1_S16384x26x1_S16384x26x1_2_0_n_n_0_2_11 x i),
    TRef.unary main_call0.v12 main_call0.v14 (broadcastInDim S16384x26x1 ![0, 1] bcast_S16384x26_S16384x26x1_0_1),
    TRef.nullary main_call0.cst (constant S_ .f32 0x7FC00000#32),
    TRef.unary main_call0.cst main_call0.v15 (broadcastInDim S16384x26x1 ![] bcast_S_S16384x26x1),
    TRef.ternary main_call0.v14 main_call0.v13 main_call0.v15 main_call0.v16 select,
    nullary main_cst (constant S_ .f32 0x00000000#32),
    binary main_v0 main_cst main_v1 ((fun x v => Host.reduceAdd x v reducesTo_S16384x26x1_S16384x1_d1 h_S_) : (⟨S16384x26x1, .f32⟩ : BufTy).Contents (Elt F) → (⟨S_, .f32⟩ : BufTy).Contents (Elt F) → (⟨S16384x1, .f32⟩ : BufTy).Contents (Elt F)),
    unary main_arg2 main_v2 (broadcastInDim S1x1 ![1] bcast_S1_S1x1_1 : (⟨S1, .f32⟩ : BufTy).Contents (Elt F) → (⟨S1x1, .f32⟩ : BufTy).Contents (Elt F)),
    unary main_v2 main_v3 (broadcastInDim S16384x1 ![0, 1] bcast_S1x1_S16384x1_0_1 : (⟨S1x1, .f32⟩ : BufTy).Contents (Elt F) → (⟨S16384x1, .f32⟩ : BufTy).Contents (Elt F)),
    binary main_v1 main_v3 main_v4 (addf : (⟨S16384x1, .f32⟩ : BufTy).Contents (Elt F) → (⟨S16384x1, .f32⟩ : BufTy).Contents (Elt F) → (⟨S16384x1, .f32⟩ : BufTy).Contents (Elt F)) ]

set_option maxRecDepth 1024 in
/-- @main is that straight line. -/
theorem main_eq (c : Dev nD) : main (F := F) c = seq ops := by
  simp only [main, fn_take.body, fn_where.body, seq, bind_assoc, pure_bind]

/-- The indices as the gather reads them: a negative index wrapped by the table's extent, with a unit axis added. -/
def idx3 (x : IVec S16384x26 32) : IVec S16384x26x1 32 :=
  broadcastInDim S16384x26x1 ![0, 1] bcast_S16384x26_S16384x26x1_0_1
    (select (cmpi .slt x (broadcastInDim S16384x26 ![] bcast_S_S16384x26 (constantI S_ 32 0#32)))
      (addi x (broadcastInDim S16384x26 ![] bcast_S_S16384x26 (constantI S_ 32 1040000#32))) x)

/-- Which wrapped indices name a row of the table. -/
def inRange (x : IVec S16384x26 32) : IVec S16384x26x1 1 :=
  broadcastInDim S16384x26x1 ![0, 1] bcast_S16384x26_S16384x26x1_0_1
    (Host.reduce IntOp.andi
      (andi (cmpi .sge (idx3 x) (broadcastInDim S16384x26x1 ![] bcast_S_S16384x26x1 (constantI S_ 32 0#32)))
        (cmpi .sle (idx3 x) (broadcastInDim S16384x26x1 ![0, 1, 2] bcast_S1x1x1_S16384x26x1_0_1_2
          (broadcastInDim S1x1x1 ![2] bcast_S1_S1x1x1_2 (constantI S1 32 1039999#32)))))
      (constantI S_ 1 1#1) reducesTo_S16384x26x1_S16384x26_d2 h_S_)

/-- The looked-up rows, the fill value where the index names no row. -/
def taken (x : IVec S16384x26 32) (w : FVec F S1040000x1 .f32) : FVec F S16384x26x1 .f32 :=
  select (inRange x) (Host.gather gather_S1040000x1_S16384x26x1_S16384x26x1_2_0_n_n_0_2_11 w (idx3 x))
    (broadcastInDim S16384x26x1 ![] bcast_S_S16384x26x1 (constant S_ .f32 0x7FC00000#32))

/-- The reference's result as a pure term of its three arguments. -/
def refOut (x : IVec S16384x26 32) (w : FVec F S1040000x1 .f32) (b : FVec F S1 .f32) : FVec F S16384x1 .f32 :=
  addf (Host.reduceAdd (taken x w) (constant S_ .f32 0x00000000#32) reducesTo_S16384x26x1_S16384x1_d1 h_S_)
    (broadcastInDim S16384x1 ![0, 1] bcast_S1x1_S16384x1_0_1 (broadcastInDim S1x1 ![1] bcast_S1_S1x1_1 b))

attribute [local irreducible] Host.reduce Host.gather Host.reduceAdd in
set_option maxRecDepth 8192 in
set_option maxHeartbeats 800000 in
/-- The fold at the result buffer is `refOut` of the launch contents of the arguments, by computation. -/
theorem out_eq (V : Valuation τ sig (Elt F)) :
    after ops V (main_v4 : DevRef τ sig)
      = refOut (V (main_arg0 : DevRef τ sig)) (V (main_arg1 : DevRef τ sig)) (V (main_arg2 : DevRef τ sig)) := by
  simp only [after_cons, after_nil]
  rfl

theorem arg0_eq (V : Valuation τ sig (Elt F)) : after ops V (main_arg0 : DevRef τ sig) = V (main_arg0 : DevRef τ sig) := by
  simp only [after_cons, after_nil]
  rfl
theorem arg1_eq (V : Valuation τ sig (Elt F)) : after ops V (main_arg1 : DevRef τ sig) = V (main_arg1 : DevRef τ sig) := by
  simp only [after_cons, after_nil]
  rfl
theorem arg2_eq (V : Valuation τ sig (Elt F)) : after ops V (main_arg2 : DevRef τ sig) = V (main_arg2 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., binary_bufs_sub .., unary_bufs_sub .., unary_bufs_sub .., binary_bufs_sub ..⟩

/-- Every weakly fair execution of the reference's @main terminates with each TensorCore buffer at the operations'
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The run with the result named and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4)
          = refOut (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  (θ_run defs _ _).mono (fun r h c => ⟨(h c main_v4).trans (out_eq _), (h c main_arg0).trans (arg0_eq _), (h c main_arg1).trans (arg1_eq _),
    (h c main_arg2).trans (arg2_eq _)⟩) (run_main m ρ)

end Cert.Proof.RefRun

end
-- ==== Proof.PreX.lean ====
/-
  What the precondition says of the indices: the conjunct `all((x ≥ 0) & (x ≤ 1039999))` holds, so every index, read
  as a signed word, is between 0 and 1039999, and its unsigned value is the same number.
-/
import proofs.«207406_g23510650978335_cont_sun_m_507_26_alg».proof.Pre_input_domain
import proofs.«207406_g23510650978335_cont_sun_m_507_26_alg».proof.Proof.Gen.Pre_input_domain
import Idealize.ShloMosaic.Lib.ReduceAll

namespace Cert.Proof.PreX

open Idealize.ShloMosaic
open Cert.Pre_input_domain

variable {F : FTy → Type} [FloatOps F]

instance : Subsingleton S_.Idx := ⟨fun a b => funext fun d => d.elim0⟩

/-- A word that is at least 0 and at most 1039999 as a signed number is below 1040000 as an unsigned one. -/
theorem word_range (v : BitVec 32)
    (e : IntOp.andi (IntOp.cmpi .sge v 0#32) (IntOp.cmpi .sle v 1039999#32) = 1#1) : v.toNat < 1040000 ∧ 0 ≤ v.toInt := by
  obtain ⟨e1, e2⟩ := IntOp.andi_eq_one.1 e
  have ofBool_one : ∀ p : Bool, BitVec.ofBool p = 1#1 → p = true := by decide
  have h1 : (0#32).sle v = true := ofBool_one _ (by simpa [IntOp.cmpi] using e1)
  have h2 : v.sle 1039999#32 = true := ofBool_one _ (by simpa [IntOp.cmpi] using e2)
  rw [BitVec.sle_eq_decide, decide_eq_true_eq] at h1 h2
  have h0 : (0#32 : BitVec 32).toInt = 0 := by decide
  have h9 : (1039999#32 : BitVec 32).toInt = 1039999 := by decide
  rw [h0] at h1; rw [h9] at h2
  refine ⟨?_, h1⟩
  rw [BitVec.toInt_eq_toNat_cond] at h1 h2
  split at h1 <;> omega

/-- Under the precondition every index is in the table's range. -/
theorem x_range (x : IVec S16384x26 32) (w : FVec F S1040000x1 .f32) (b : FVec F S1 .f32)
    (h : Cert.Pre_input_domain.fn (F := F) x w b = fun _ => 1#1) (j : S16384x26.Idx) : (x j).toNat < 1040000 ∧ 0 ≤ (x j).toInt := by
  have e := congrFun h (fun a => a.elim0)
  dsimp only [Cert.Pre_input_domain.fn] at e
  obtain ⟨-, e14⟩ := IntOp.andi_eq_one.1 e
  have ej := Host.reduce_andi_all _ _ _ _ _ e14 j
  exact word_range (x j) ej

end Cert.Proof.PreX
-- ==== Proof.Bridge.lean ====
/-
  The two sides are one function. At the ideal instance the kernel's result at batch row i is the bias plus the table's
  rows named by the row's 26 indices, added in order; the reference's is zero plus the sum of the same 26 rows, plus the bias.
  Addition of extended reals is commutative and associative, so the two agree — wherever every index names a row of the
  table, which is where the reference's range mask is all ones and its gather reads the row the index names.
-/
import proofs.«207406_g23510650978335_cont_sun_m_507_26_alg».proof.Proof.KILaunch
import proofs.«207406_g23510650978335_cont_sun_m_507_26_alg».proof.Proof.RefRun
import Idealize.ShloMosaic.Lib.ValueIdx
import Idealize.ShloMosaic.Lib.IdealHost
import Idealize.ShloMosaic.Lib.Pipeline.Value
import Idealize.ShloMosaic.PureOps.Ideal.Laws

noncomputable section

namespace Cert.Proof.Bridge

open Idealize.ShloMosaic
open Idealize.ShloMosaic.ValueIdx
open scoped BigOperators

/-! ## The kernel's side -/

open Cert.KernelIdeal Cert.KernelIdeal.Gen in
/-- The flattened indices at `26 i + f` are the index of batch row `i`, field `f`. -/
theorem flatX (x : IVec S16384x26 32) (i : Fin 16384) (f : Fin 26) :
    shapeCast S425984 x shapeCasts_S16384x26_S425984 (ix1 ⟨(26 * i.val + f.val) % 425984, Nat.mod_lt _ (by decide)⟩) = x (ix2 i f) := by
  have hi := i.isLt; have hf := f.isLt
  refine shapeCast_apply x _ _ (ix2 i f) ?_
  rw [Shape.rowMajor_val_two, Shape.rowMajor_val_one]
  show i.val * 26 + f.val = (26 * i.val + f.val) % 425984
  rw [Nat.mod_eq_of_lt (by omega)]; omega

open Cert.KernelIdeal Cert.KernelIdeal.Gen in
/-- The padded flattened table at a row of the table is that row. -/
theorem flatW {F : FTy → Type} [FloatOps F] (w : FVec F S1040000x1 .f32) (n : ℕ) (hn : n < 1040000) :
    shapeCast S1040384 (pad S1040384x1 ![0, 0] ![384, 0] ![0, 0] w (sitofp .f32 (constantI S_ 32 0#32)) pads_S1040000x1_S1040384x1_03840_000 h_S_)
        shapeCasts_S1040384x1_S1040384 (ix1 ⟨n % 1040384, Nat.mod_lt _ (by decide)⟩)
      = w (ix2 ⟨n, hn⟩ ⟨0, Nat.one_pos⟩) := by
  have hmod : n % 1040384 = n := Nat.mod_eq_of_lt (by omega)
  rw [shapeCast_apply _ _ _ (ix2 (⟨n, by omega⟩ : Fin 1040384) (⟨0, Nat.one_pos⟩ : Fin 1))
    (by rw [Shape.rowMajor_val_two, Shape.rowMajor_val_one]; show n * 1 + 0 = n % 1040384; omega)]
  unfold pad
  rw [dif_pos]
  · refine congrArg w (funext fun a => Fin.ext ?_)
    match a with
    | ⟨0, _⟩ => show (n - 0) / (0 + 1) = n; omega
    | ⟨1, _⟩ => show (0 - 0) / (0 + 1) = 0; omega
  · intro a
    match a with
    | ⟨0, _⟩ => exact ⟨Nat.zero_le _, by show (n - 0) % (0 + 1) = 0; omega, by show (n - 0) / (0 + 1) < 1040000; omega⟩
    | ⟨1, _⟩ => exact ⟨Nat.zero_le _, by show (0 - 0) % (0 + 1) = 0; omega, by show (0 - 0) / (0 + 1) < 1; omega⟩

open Cert.KernelIdeal Cert.KernelIdeal.Gen in
/-- Every copy of the bias is the bias. -/
theorem flatB {F : FTy → Type} [FloatOps F] (b : FVec F S1 .f32) (l : Fin 16) :
    broadcastInDim S16 ![0] bcast_S1_S16_0 b (ix1 l) = b (ix1 ⟨0, Nat.one_pos⟩) :=
  broadcastInDim_apply _ _ b _ _ (fun a => by
    match a with
    | ⟨0, _⟩ => rfl)

/-! ## The reference's side -/

section Ref

open Cert.ReferenceIdeal Cert.ReferenceIdeal.Gen Cert.Proof.RefRun

/-- The reference's gather at `(i, k, 0)`: the table's row named by the index there, read signed and clamped. -/
theorem gather_apply {α : Type} (w : S1040000x1.Idx → α) (idx : IVec S16384x26x1 32) (j : S16384x26x1.Idx) :
    Host.gather gather_S1040000x1_S16384x26x1_S16384x26x1_2_0_n_n_0_2_11 w idx j
      = w (ix2 ⟨min (idx j).toInt.toNat 1039999, by omega⟩ ⟨0, Nat.one_pos⟩) := by
  unfold Host.gather
  refine congrArg w (funext fun a => Fin.ext ?_)
  match a with
  | ⟨0, _⟩ =>
    show GatherDims.start gather_S1040000x1_S16384x26x1_S16384x26x1_2_0_n_n_0_2_11 j idx 0
        + GatherDims.batchCoord gather_S1040000x1_S16384x26x1_S16384x26x1_2_0_n_n_0_2_11 j 0
        + GatherDims.offCoord gather_S1040000x1_S16384x26x1_S16384x26x1_2_0_n_n_0_2_11 j 0 = min (idx j).toInt.toNat 1039999
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1040000x1_S16384x26x1_S16384x26x1_2_0_n_n_0_2_11.startIndexMap from List.mem_singleton.mpr rfl)]
    have hsi : gather_S1040000x1_S16384x26x1_S16384x26x1_2_0_n_n_0_2_11.siIdx j
        ⟨List.idxOf (0 : Fin 2) gather_S1040000x1_S16384x26x1_S16384x26x1_2_0_n_n_0_2_11.startIndexMap,
          List.idxOf_lt_length_iff.2 (List.mem_singleton.mpr rfl)⟩ = j := by
      funext b; refine Fin.ext ?_
      match b with
      | ⟨0, _⟩ => rfl
      | ⟨1, _⟩ => rfl
      | ⟨2, _⟩ =>
        have h2 : (j ⟨2, by decide⟩).val < 1 := Nat.lt_of_lt_of_eq (j ⟨2, by decide⟩).isLt rfl
        show (0 : ℕ) = (j ⟨2, _⟩).val
        omega
    rw [hsi]
    rfl
  | ⟨1, _⟩ =>
    have h1 : (GatherDims.operandIdx gather_S1040000x1_S16384x26x1_S16384x26x1_2_0_n_n_0_2_11 j idx ⟨1, by decide⟩).val < 1 :=
      Nat.lt_of_lt_of_eq (GatherDims.operandIdx gather_S1040000x1_S16384x26x1_S16384x26x1_2_0_n_n_0_2_11 j idx ⟨1, by decide⟩).isLt rfl
    show (GatherDims.operandIdx gather_S1040000x1_S16384x26x1_S16384x26x1_2_0_n_n_0_2_11 j idx ⟨1, _⟩).val = 0
    omega

/-- A reduce by `and` over ones, from one, is one. -/
theorem reduce_andi_one {s t u : Shape} {axes : List (Fin s.rank)} (x : s.Idx → BitVec 1) (init : u.Idx → BitVec 1)
    (h : s.ReducesTo axes t) (hu : 0 < u.numel) (j : t.Idx) (hx : ∀ i, x i = 1#1) (hi : ∀ v, init v = 1#1) :
    Host.reduce IntOp.andi x init h hu j = 1#1 := by
  rw [Host.reduce_eq_foldl, hi]
  generalize (((List.finRange s.numel).map s.rowMajor.symm).filter fun i => h.drop i = j) = l
  induction l with
  | nil => rfl
  | cons a l ih =>
    rw [List.foldl_cons, hx a, show IntOp.andi 1#1 1#1 = 1#1 from by decide]
    exact ih

/-- A word between 0 and 1039999 passes the reference's range test and is not negative. -/
theorem word_ok (v : BitVec 32) (h1 : v.toNat < 1040000) (h0 : 0 ≤ v.toInt) :
    IntOp.andi (IntOp.cmpi .sge v 0#32) (IntOp.cmpi .sle v 1039999#32) = 1#1 ∧ IntOp.cmpi .slt v 0#32 = 0#1
      ∧ min v.toInt.toNat 1039999 = v.toNat := by
  have hz : (0#32 : BitVec 32).toInt = 0 := by decide
  have h9 : (1039999#32 : BitVec 32).toInt = 1039999 := by decide
  have hti : v.toInt = v.toNat := by
    rw [BitVec.toInt_eq_toNat_cond] at h0 ⊢
    split at h0 <;> simp_all <;> omega
  have e1 : (0#32).sle v = true := by rw [BitVec.sle_eq_decide, decide_eq_true_eq, hz]; exact h0
  have e2 : v.sle 1039999#32 = true := by rw [BitVec.sle_eq_decide, decide_eq_true_eq, h9, hti]; omega
  have e3 : v.slt 0#32 = false := by rw [BitVec.slt_eq_decide, decide_eq_false_iff_not, hz]; omega
  refine ⟨?_, ?_, ?_⟩
  · simp [IntOp.cmpi, e1, e2]; decide
  · simp [IntOp.cmpi, e3]
  · rw [hti]; simp; omega

end Ref

/-! ## Both results at a batch row -/

section Join

open Cert.ReferenceIdeal Cert.ReferenceIdeal.Gen Cert.Proof.RefRun

/-- The indices as the reference's gather reads them are the indices themselves, none being negative. -/
theorem idx3_apply (x : IVec S16384x26 32) (hx : ∀ j, (x j).toNat < 1040000 ∧ 0 ≤ (x j).toInt) (i : Fin 16384) (k : Fin 26) (z : Fin 1) :
    idx3 x (ix3 i k z) = x (ix2 i k) := by
  unfold idx3
  refine (broadcastInDim_apply _ _ _ _ (ix2 i k) (fun a => by
    match a with
    | ⟨0, _⟩ => rfl
    | ⟨1, _⟩ => rfl)).trans ?_
  rw [select_apply]
  have h := (word_ok _ (hx (ix2 i k)).1 (hx (ix2 i k)).2).2.1
  show Scalar.select (IntOp.cmpi .slt (x (ix2 i k)) 0#32) _ _ = _
  rw [h, select_zero]

/-- Every index names a row: the reference's mask is all ones. -/
theorem inRange_one (x : IVec S16384x26 32) (hx : ∀ j, (x j).toNat < 1040000 ∧ 0 ≤ (x j).toInt) (i : Fin 16384) (k : Fin 26) (z : Fin 1) :
    inRange x (ix3 i k z) = 1#1 := by
  unfold inRange
  refine (broadcastInDim_apply _ _ _ _ (ix2 i k) (fun a => by
    match a with
    | ⟨0, _⟩ => rfl
    | ⟨1, _⟩ => rfl)).trans ?_
  refine reduce_andi_one _ _ _ _ _ (fun j => ?_) (fun _ => rfl)
  obtain ⟨a, b, c, rfl⟩ : ∃ (a : Fin 16384) (b : Fin 26) (c : Fin 1), j = ix3 a b c := ⟨j 0, j 1, j 2, eq_ix3 j⟩
  show IntOp.andi (IntOp.cmpi .sge (idx3 x (ix3 a b c)) 0#32) (IntOp.cmpi .sle (idx3 x (ix3 a b c)) 1039999#32) = 1#1
  rw [idx3_apply x hx]
  exact (word_ok _ (hx _).1 (hx _).2).1

/-- The looked-up row of batch row `i`, field `k`. -/
theorem taken_apply (x : IVec S16384x26 32) (w : FVec Ideal S1040000x1 .f32) (hx : ∀ j, (x j).toNat < 1040000 ∧ 0 ≤ (x j).toInt)
    (i : Fin 16384) (k : Fin 26) (z : Fin 1) :
    taken (F := Ideal) x w (ix3 i k z) = w (ix2 ⟨(x (ix2 i k)).toNat, (hx _).1⟩ ⟨0, Nat.one_pos⟩) := by
  unfold taken
  rw [select_apply, inRange_one x hx, select_one, gather_apply]
  refine congrArg w (congrArg (fun a => ix2 a (⟨0, Nat.one_pos⟩ : Fin 1)) (Fin.ext ?_))
  show min (idx3 x (ix3 i k z)).toInt.toNat 1039999 = _
  rw [idx3_apply x hx]
  exact (word_ok _ (hx _).1 (hx _).2).2.2

set_option maxRecDepth 8192 in
/-- The reference's result at batch row `i`: zero plus the 26 looked-up rows, plus the bias. -/
theorem refOut_apply (x : IVec S16384x26 32) (w : FVec Ideal S1040000x1 .f32) (b : FVec Ideal S1 .f32)
    (hx : ∀ j, (x j).toNat < 1040000 ∧ 0 ≤ (x j).toInt) (i : Fin 16384) (z : Fin 1) :
    refOut (F := Ideal) x w b (ix2 i z)
      = (0 + ∑ k : Fin 26, w (ix2 ⟨(x (ix2 i k)).toNat, (hx _).1⟩ ⟨0, Nat.one_pos⟩)) + b (ix1 ⟨0, Nat.one_pos⟩) := by
  have hred : S16384x26x1.Reduces [1] S16384x1 := by decide
  unfold refOut
  rw [addf_apply, hostReduceAdd_apply, Ideal.hostReduceAdd_single _ hred]
  refine congrArg₂ (· + ·) ?_ ?_
  · refine congrArg₂ (· + ·) ?_ ?_
    · exact Ideal.ofBits_zero_f32
    · refine Finset.sum_congr rfl fun k _ => ?_
      have hl : hred.lift (ix2 i z) k = ix3 i k z := by
        funext a
        match a with
        | ⟨0, _⟩ => rfl
        | ⟨1, _⟩ => rfl
        | ⟨2, _⟩ => rfl
      rw [hl]
      exact taken_apply x w hx i k z
  · refine (broadcastInDim_apply _ _ _ _ (ix2 (⟨0, Nat.one_pos⟩ : Fin 1) (⟨0, Nat.one_pos⟩ : Fin 1)) (fun a => by
      match a with
      | ⟨0, _⟩ => rfl
      | ⟨1, _⟩ => rfl)).trans ?_
    exact broadcastInDim_apply _ _ b _ (ix1 ⟨0, Nat.one_pos⟩) (fun a => by
      match a with
      | ⟨0, _⟩ => rfl)

end Join

/-! ## The kernel's result at a batch row, and the join -/

section Kern

open Cert.KernelIdeal Cert.KernelIdeal.Gen Cert.Proof.KI

/-- The kernel's result at batch row `i`: the bias, then the 26 looked-up rows added in order. -/
theorem kOut_apply (x : IVec S16384x26 32) (w : FVec Ideal S1040000x1 .f32) (b : FVec Ideal S1 .f32)
    (hx : ∀ j, (x j).toNat < 1040000 ∧ 0 ≤ (x j).toInt) (i : Fin 16384) (z : Fin 1) :
    kOut (F := Ideal) x w b (ix2 i z)
      = sum26 (FloatOps.addf (F := Ideal) (φ := .f32)) (b (ix1 ⟨0, Nat.one_pos⟩))
          (fun f => if hf : f < 26 then w (ix2 ⟨(x (ix2 i ⟨f, hf⟩)).toNat, (hx _).1⟩ ⟨0, Nat.one_pos⟩) else 0) := by
  unfold kOut
  rw [shapeCast_apply _ _ _ (ix1 i) (by
    rw [Shape.rowMajor_val_one, Shape.rowMajor_val_two]; show i.val = i.val * 1 + z.val; have := z.isLt; omega)]
  unfold GOv
  refine sum26_congr _ (flatB b _) ?_
  intro f hf
  rw [dif_pos hf]
  have hX := flatX x i ⟨f, hf⟩
  show shapeCast S1040384 _ _ (ix1 ⟨(shapeCast S425984 x shapeCasts_S16384x26_S425984 (ix1 ⟨(26 * i.val + f) % 425984, _⟩)).toNat % 1040384, _⟩) = _
  simp only [hX]
  exact flatW w _ (hx _).1

/-- A left fold of additions over `0, …, n − 1` is the start value plus the sum. -/
theorem foldl_range_add (b : EReal) (v : ℕ → EReal) (n : ℕ) :
    (List.range n).foldl (fun acc f => acc + v f) b = b + ∑ i ∈ Finset.range n, v i := by
  induction n with
  | zero => simp
  | succ n ih =>
    rw [List.range_succ, List.foldl_append, ih, Finset.sum_range_succ]
    simp only [List.foldl_cons, List.foldl_nil]
    rw [add_assoc]

/-- The two results are one function wherever every index names a row of the table. -/
theorem kOut_eq_refOut (x : IVec S16384x26 32) (w : FVec Ideal S1040000x1 .f32) (b : FVec Ideal S1 .f32)
    (hx : ∀ j, (x j).toNat < 1040000 ∧ 0 ≤ (x j).toInt) :
    kOut (F := Ideal) x w b = Cert.Proof.RefRun.refOut (F := Ideal) x w b := by
  funext j
  obtain ⟨i, z, rfl⟩ : ∃ (i : Fin 16384) (z : Fin 1), j = ix2 i z := ⟨j 0, j 1, eq_ix2 j⟩
  rw [kOut_apply x w b hx, refOut_apply x w b hx]
  unfold sum26
  show (List.range 26).foldl (fun acc f => acc + (if hf : f < 26 then w (ix2 ⟨(x (ix2 i ⟨f, hf⟩)).toNat, (hx _).1⟩ ⟨0, Nat.one_pos⟩) else 0)) (b (ix1 ⟨0, Nat.one_pos⟩)) = _
  rw [foldl_range_add, ← Fin.sum_univ_eq_sum_range (fun f => if hf : f < 26 then w (ix2 ⟨(x (ix2 i ⟨f, hf⟩)).toNat, (hx _).1⟩ ⟨0, Nat.one_pos⟩) else 0) 26,
    zero_add, add_comm]
  congr 1
  all_goals (exact Finset.sum_congr rfl fun k _ => dif_pos k.isLt)

end Kern

end Cert.Proof.Bridge

end
-- ==== Proof.lean ====
/-
  A first-order factorisation-machine term on the SparseCore: out[i] = bias + Σ_f w[x[i, f]] over 26 fields, 16384 batch
  rows, a table of 1040000 rows. The kernel flattens the indices, pads the table to 1040384 rows, and has each of 32 tiles
  fetch the 13312 indices of its 512 batch rows, gather the rows they name, and add, lane by lane, the bias and the 26 rows
  of each batch row in the fields' order. The reference looks the rows up with `take` (negative indices wrapped, indices out of
  range read as a fill value), sums over the fields from zero and adds the bias.

  Under the precondition every index is between 0 and 1039999, so every row the kernel gathers is a row of the table, the
  reference's range mask is all ones, and both results at batch row i are sums of the same 27 extended reals: equal, addition
  on the extended reals being commutative and associative (no finiteness is used).

  The three frames: each program's run with the value dropped. The kernel's run is the launch theorem over one tile's task
  proved once at a symbolic tile (Proof/KITile, Proof/KILaunch; Proof/KB… the same text at the word-level program), the
  reference's the fold of its host operations (Proof/RefRun). The idealization rewrote nothing: `preserves` is `True`.
-/
import proofs.«207406_g23510650978335_cont_sun_m_507_26_alg».proof.Defs
import proofs.«207406_g23510650978335_cont_sun_m_507_26_alg».proof.Proof.KBLaunch
import proofs.«207406_g23510650978335_cont_sun_m_507_26_alg».proof.Proof.KILaunch
import proofs.«207406_g23510650978335_cont_sun_m_507_26_alg».proof.Proof.RefRun
import proofs.«207406_g23510650978335_cont_sun_m_507_26_alg».proof.Proof.PreX
import proofs.«207406_g23510650978335_cont_sun_m_507_26_alg».proof.Proof.Bridge
import Idealize.ShloMosaic.Adequacy
import Idealize.ShloMosaic.Init

noncomputable section

namespace Cert.Proof

open Idealize.ShloMosaic Idealize.SL.Sem

/-- The word-level kernel runs, faults nowhere, and leaves its arguments as they were. -/
theorem frame_k : Cert.frame_Kernel := fun m ρ hpre =>
  (θ_run Cert.Kernel.defs _ _).mono (fun _ h c => ⟨(h c).1, (h c).2.1, (h c).2.2.1⟩)
    (KB.run_main (F := Bits) m ρ (KB.preOK_of_range m fun d j => (PreX.x_range (F := Bits) _ _ _ (hpre d) j).1))

/-- So does the idealized kernel. -/
theorem frame_ki : Cert.frame_KernelIdeal := fun m ρ hpre =>
  (θ_run Cert.KernelIdeal.defs _ _).mono (fun _ h c => ⟨(h c).1, (h c).2.1, (h c).2.2.1⟩)
    (KI.run_main (F := Ideal) m ρ (KI.preOK_of_range m fun d j => (PreX.x_range (F := Ideal) _ _ _ (hpre d) j).1))

/-- And the reference. -/
theorem frame_ri : Cert.frame_ReferenceIdeal := fun m ρ _ =>
  (θ_run Cert.ReferenceIdeal.defs _ _).mono (fun _ h c => (h c).2) (RefRun.run (F := Ideal) m ρ)

/-- At the ideal instance the kernel's result is the bias plus the 26 looked-up rows added in order, the reference's zero
    plus their sum plus the bias: one function of arguments that agree. -/
theorem algebraic : Cert.algebraic_KernelIdeal_ReferenceIdeal := by
  intro m ρ m' ρ' hpre hagree
  refine ⟨fun c => KI.VC m c KI.r', ?_, ?_⟩
  · exact (θ_run Cert.KernelIdeal.defs _ _).mono (fun _ h c => ⟨(h c).2.2.2, (h c).1, (h c).2.1, (h c).2.2.1⟩)
      (KI.run_main (F := Ideal) m ρ (KI.preOK_of_range m fun d j => (PreX.x_range (F := Ideal) _ _ _ (hpre d) j).1))
  · refine (θ_run Cert.ReferenceIdeal.defs _ _).mono (fun _ h c => ⟨(h c).1.trans ?_, (h c).2⟩) (RefRun.run (F := Ideal) m' ρ')
    rw [(hagree c).1, (hagree c).2.1, (hagree c).2.2]
    show _ = KI.VC m c KI.r'
    rw [KI.VC_r]
    exact (Bridge.kOut_eq_refOut _ _ _ (fun j => PreX.x_range (F := Ideal) _ _ _ (hpre c) j)).symm

theorem claim : Cert.Claim := ⟨Cert.Kernel.Gen.facts, Cert.KernelIdeal.Gen.facts, Cert.ReferenceIdeal.Gen.facts, Cert.Pre_input_domain.Gen.facts,
  frame_k, frame_ki, frame_ri, trivial, algebraic⟩

end Cert.Proof

end
